-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S32768x2048 : Shape := ⟨2, ![32768, 2048]⟩
abbrev S2048 : Shape := ⟨1, ![2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S32768x2048 .f32) (main_arg1 : IVec S2048 32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_c_0 : IVec S_ 32 := constantI S_ 32 0#32
  let main_v4 : IVec S2048 32 := broadcastInDim S2048 ![] bcast_S_S2048 main_c_0
  let main_v5 : IVec S2048 1 := cmpi .sge main_arg1 main_v4
  let main_c_1 : IVec S_ 32 := constantI S_ 32 2047#32
  let main_v6 : IVec S2048 32 := broadcastInDim S2048 ![] bcast_S_S2048 main_c_1
  let main_v7 : IVec S2048 1 := cmpi .sle main_arg1 main_v6
  let main_v8 : IVec S2048 1 := andi main_v5 main_v7
  let main_c_2 : IVec S_ 1 := constantI S_ 1 1#1
  let main_v9 : IVec S_ 1 := (fun x v => Host.reduce IntOp.andi x v reducesTo_S2048_S_d0 h_S_) main_v8 main_c_2
  let main_v10 : IVec S_ 1 := andi main_v3 main_v9
  main_v10
-- ==== Kernel.lean ====
abbrev S32768x2048 : Shape := ⟨2, ![32768, 2048]⟩
abbrev S2048 : Shape := ⟨1, ![2048]⟩
abbrev S67108864 : Shape := ⟨1, ![67108864]⟩
abbrev S32768 : Shape := ⟨1, ![32768]⟩
abbrev S_ : Shape := ⟨0, ![]⟩
abbrev S16 : Shape := ⟨1, ![16]⟩

abbrev nBuf : Table → Nat
  | .hbm => 6
  | .local .scVector .vmem => 3
  | _ => 0

abbrev bufTy : (tb : Table) → Fin (nBuf tb) → BufTy
  | .hbm, ⟨0, _⟩ => ⟨S32768x2048, .f32⟩
  | .hbm, ⟨1, _⟩ => ⟨S2048, .i32⟩
  | .hbm, ⟨2, _⟩ => ⟨S67108864, .f32⟩
  | .hbm, ⟨3, _⟩ => ⟨S67108864, .f32⟩
  | .hbm, ⟨4, _⟩ => ⟨S32768x2048, .f32⟩
  | .hbm, ⟨5, _⟩ => ⟨S_, .i32⟩
  | .local .scVector .vmem, ⟨0, _⟩ => ⟨S2048, .i32⟩
  | .local .scVector .vmem, ⟨1, _⟩ => ⟨S32768, .f32⟩
  | .local .scVector .vmem, ⟨2, _⟩ => ⟨S32768, .f32⟩
  | _, _ => ⟨S32768x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v4 : BitVec 32 := Scalar.addi c0_i32_0 c64_i32
  let c1_i32 : BitVec 32 := 1#32
  ⟨c0_i32_0, v4, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c2048_i32 : BitVec 32 := 2048#32
  let v3 : BitVec 32 := Scalar.muli v2 c2048_i32
  let c0_i32_0 : BitVec 32 := 0#32
  let c1_i32 : BitVec 32 := 1#32
  let arg10 : BitVec 32 := Scf.iv c0_i32_0 c1_i32 k0_t1
  let c32768_i32 : BitVec 32 := 32768#32
  let v5 : BitVec 32 := Scalar.muli arg10 c32768_i32
  let v6 : BitVec 32 := Scalar.addi v3 v5
  ![v6.toNat]
@[reducible] def k0_t2_loop : Scf.Loop 32 :=
  let c0_i32_3 : BitVec 32 := 0#32
  let c128_i32 : BitVec 32 := 128#32
  let v11 : BitVec 32 := Scalar.addi c0_i32_3 c128_i32
  let c1_i32_4 : BitVec 32 := 1#32
  ⟨c0_i32_3, v11, c1_i32_4⟩
def k0_off2 (k0_t2 : Fin k0_t2_loop.trips) : Fin 1 → Nat :=
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v17 : Index := Scalar.indexCast v16
  ![v17.toNat]

def k0_chk1 (v20 : IVec S16 32) : Prop :=
  (∀ a x, ((![v20] : Fin 1 → IVec S16 32) a x).toNat < S32768.size a)
instance k0_chk1.dec : ∀ (v20 : IVec S16 32), Decidable (k0_chk1 v20) := fun v20 => decidable_of_iff' _ (Iff.of_eq (k0_chk1.eq_1 v20))
theorem k0_idx1_inb : ∀ (v20 : IVec S16 32) (k0_hw1 : k0_chk1 v20), ∀ a x, ((![v20] : Fin 1 → IVec S16 32) a x).toNat < S32768.size a := fun v20 k0_hw1 => k0_hw1
def k0_off3 (k0_t2 : Fin k0_t2_loop.trips) : Fin 1 → Nat :=
  let c0_i32_7 : BitVec 32 := 0#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v22 : BitVec 32 := Scalar.addi c0_i32_7 v16
  let v23 : Index := Scalar.indexCast v22
  ![v23.toNat]

def k0_chk2 (v26 : IVec S16 32) : Prop :=
  (∀ a x, ((![v26] : Fin 1 → IVec S16 32) a x).toNat < S32768.size a)
instance k0_chk2.dec : ∀ (v26 : IVec S16 32), Decidable (k0_chk2 v26) := fun v26 => decidable_of_iff' _ (Iff.of_eq (k0_chk2.eq_1 v26))
theorem k0_idx2_inb : ∀ (v26 : IVec S16 32) (k0_hw2 : k0_chk2 v26), ∀ a x, ((![v26] : Fin 1 → IVec S16 32) a x).toNat < S32768.size a := fun v26 k0_hw2 => k0_hw2
def k0_off4 (k0_t2 : Fin k0_t2_loop.trips) : Fin 1 → Nat :=
  let c2048_i32_9 : BitVec 32 := 2048#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v28 : BitVec 32 := Scalar.addi c2048_i32_9 v16
  let v29 : Index := Scalar.indexCast v28
  ![v29.toNat]

def k0_chk3 (v32 : IVec S16 32) : Prop :=
  (∀ a x, ((![v32] : Fin 1 → IVec S16 32) a x).toNat < S32768.size a)
instance k0_chk3.dec : ∀ (v32 : IVec S16 32), Decidable (k0_chk3 v32) := fun v32 => decidable_of_iff' _ (Iff.of_eq (k0_chk3.eq_1 v32))
theorem k0_idx3_inb : ∀ (v32 : IVec S16 32) (k0_hw3 : k0_chk3 v32), ∀ a x, ((![v32] : Fin 1 → IVec S16 32) a x).toNat < S32768.size a := fun v32 k0_hw3 => k0_hw3
def k0_off5 (k0_t2 : Fin k0_t2_loop.trips) : Fin 1 → Nat :=
  let c4096_i32_10 : BitVec 32 := 4096#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v34 : BitVec 32 := Scalar.addi c4096_i32_10 v16
  let v35 : Index := Scalar.indexCast v34
  ![v35.toNat]

def k0_chk4 (v38 : IVec S16 32) : Prop :=
  (∀ a x, ((![v38] : Fin 1 → IVec S16 32) a x).toNat < S32768.size a)
instance k0_chk4.dec : ∀ (v38 : IVec S16 32), Decidable (k0_chk4 v38) := fun v38 => decidable_of_iff' _ (Iff.of_eq (k0_chk4.eq_1 v38))
theorem k0_idx4_inb : ∀ (v38 : IVec S16 32) (k0_hw4 : k0_chk4 v38), ∀ a x, ((![v38] : Fin 1 → IVec S16 32) a x).toNat < S32768.size a := fun v38 k0_hw4 => k0_hw4
def k0_off6 (k0_t2 : Fin k0_t2_loop.trips) : Fin 1 → Nat :=
  let c6144_i32_11 : BitVec 32 := 6144#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v40 : BitVec 32 := Scalar.addi c6144_i32_11 v16
  let v41 : Index := Scalar.indexCast v40
  ![v41.toNat]

def k0_chk5 (v44 : IVec S16 32) : Prop :=
  (∀ a x, ((![v44] : Fin 1 → IVec S16 32) a x).toNat < S32768.size a)
instance k0_chk5.dec : ∀ (v44 : IVec S16 32), Decidable (k0_chk5 v44) := fun v44 => decidable_of_iff' _ (Iff.of_eq (k0_chk5.eq_1 v44))
theorem k0_idx5_inb : ∀ (v44 : IVec S16 32) (k0_hw5 : k0_chk5 v44), ∀ a x, ((![v44] : Fin 1 → IVec S16 32) a x).toNat < S32768.size a := fun v44 k0_hw5 => k0_hw5
def k0_off7 (k0_t2 : Fin k0_t2_loop.trips) : Fin 1 → Nat :=
  let c8192_i32_12 : BitVec 32 := 8192#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v46 : BitVec 32 := Scalar.addi c8192_i32_12 v16
  let v47 : Index := Scalar.indexCast v46
  ![v47.toNat]

def k0_chk6 (v50 : IVec S16 32) : Prop :=
  (∀ a x, ((![v50] : Fin 1 → IVec S16 32) a x).toNat < S32768.size a)
instance k0_chk6.dec : ∀ (v50 : IVec S16 32), Decidable (k0_chk6 v50) := fun v50 => decidable_of_iff' _ (Iff.of_eq (k0_chk6.eq_1 v50))
theorem k0_idx6_inb : ∀ (v50 : IVec S16 32) (k0_hw6 : k0_chk6 v50), ∀ a x, ((![v50] : Fin 1 → IVec S16 32) a x).toNat < S32768.size a := fun v50 k0_hw6 => k0_hw6
def k0_off8 (k0_t2 : Fin k0_t2_loop.trips) : Fin 1 → Nat :=
  let c10240_i32_13 : BitVec 32 := 10240#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v52 : BitVec 32 := Scalar.addi c10240_i32_13 v16
  let v53 : Index := Scalar.indexCast v52
  ![v53.toNat]

def k0_chk7 (v56 : IVec S16 32) : Prop :=
  (∀ a x, ((![v56] : Fin 1 → IVec S16 32) a x).toNat < S32768.size a)
instance k0_chk7.dec : ∀ (v56 : IVec S16 32), Decidable (k0_chk7 v56) := fun v56 => decidable_of_iff' _ (Iff.of_eq (k0_chk7.eq_1 v56))
theorem k0_idx7_inb : ∀ (v56 : IVec S16 32) (k0_hw7 : k0_chk7 v56), ∀ a x, ((![v56] : Fin 1 → IVec S16 32) a x).toNat < S32768.size a := fun v56 k0_hw7 => k0_hw7
def k0_off9 (k0_t2 : Fin k0_t2_loop.trips) : Fin 1 → Nat :=
  let c12288_i32_14 : BitVec 32 := 12288#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v58 : BitVec 32 := Scalar.addi c12288_i32_14 v16
  let v59 : Index := Scalar.indexCast v58
  ![v59.toNat]

def k0_chk8 (v62 : IVec S16 32) : Prop :=
  (∀ a x, ((![v62] : Fin 1 → IVec S16 32) a x).toNat < S32768.size a)
instance k0_chk8.dec : ∀ (v62 : IVec S16 32), Decidable (k0_chk8 v62) := fun v62 => decidable_of_iff' _ (Iff.of_eq (k0_chk8.eq_1 v62))
theorem k0_idx8_inb : ∀ (v62 : IVec S16 32) (k0_hw8 : k0_chk8 v62), ∀ a x, ((![v62] : Fin 1 → IVec S16 32) a x).toNat < S32768.size a := fun v62 k0_hw8 => k0_hw8
def k0_off10 (k0_t2 : Fin k0_t2_loop.trips) : Fin 1 → Nat :=
  let c14336_i32_15 : BitVec 32 := 14336#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v64 : BitVec 32 := Scalar.addi c14336_i32_15 v16
  let v65 : Index := Scalar.indexCast v64
  ![v65.toNat]

def k0_chk9 (v68 : IVec S16 32) : Prop :=
  (∀ a x, ((![v68] : Fin 1 → IVec S16 32) a x).toNat < S32768.size a)
instance k0_chk9.dec : ∀ (v68 : IVec S16 32), Decidable (k0_chk9 v68) := fun v68 => decidable_of_iff' _ (Iff.of_eq (k0_chk9.eq_1 v68))
theorem k0_idx9_inb : ∀ (v68 : IVec S16 32) (k0_hw9 : k0_chk9 v68), ∀ a x, ((![v68] : Fin 1 → IVec S16 32) a x).toNat < S32768.size a := fun v68 k0_hw9 => k0_hw9
def k0_off11 (k0_t2 : Fin k0_t2_loop.trips) : Fin 1 → Nat :=
  let c16384_i32_16 : BitVec 32 := 16384#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v70 : BitVec 32 := Scalar.addi c16384_i32_16 v16
  let v71 : Index := Scalar.indexCast v70
  ![v71.toNat]

def k0_chk10 (v74 : IVec S16 32) : Prop :=
  (∀ a x, ((![v74] : Fin 1 → IVec S16 32) a x).toNat < S32768.size a)
instance k0_chk10.dec : ∀ (v74 : IVec S16 32), Decidable (k0_chk10 v74) := fun v74 => decidable_of_iff' _ (Iff.of_eq (k0_chk10.eq_1 v74))
theorem k0_idx10_inb : ∀ (v74 : IVec S16 32) (k0_hw10 : k0_chk10 v74), ∀ a x, ((![v74] : Fin 1 → IVec S16 32) a x).toNat < S32768.size a := fun v74 k0_hw10 => k0_hw10
def k0_off12 (k0_t2 : Fin k0_t2_loop.trips) : Fin 1 → Nat :=
  let c18432_i32_17 : BitVec 32 := 18432#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v76 : BitVec 32 := Scalar.addi c18432_i32_17 v16
  let v77 : Index := Scalar.indexCast v76
  ![v77.toNat]

def k0_chk11 (v80 : IVec S16 32) : Prop :=
  (∀ a x, ((![v80] : Fin 1 → IVec S16 32) a x).toNat < S32768.size a)
instance k0_chk11.dec : ∀ (v80 : IVec S16 32), Decidable (k0_chk11 v80) := fun v80 => decidable_of_iff' _ (Iff.of_eq (k0_chk11.eq_1 v80))
theorem k0_idx11_inb : ∀ (v80 : IVec S16 32) (k0_hw11 : k0_chk11 v80), ∀ a x, ((![v80] : Fin 1 → IVec S16 32) a x).toNat < S32768.size a := fun v80 k0_hw11 => k0_hw11
def k0_off13 (k0_t2 : Fin k0_t2_loop.trips) : Fin 1 → Nat :=
  let c20480_i32_18 : BitVec 32 := 20480#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v82 : BitVec 32 := Scalar.addi c20480_i32_18 v16
  let v83 : Index := Scalar.indexCast v82
  ![v83.toNat]

def k0_chk12 (v86 : IVec S16 32) : Prop :=
  (∀ a x, ((![v86] : Fin 1 → IVec S16 32) a x).toNat < S32768.size a)
instance k0_chk12.dec : ∀ (v86 : IVec S16 32), Decidable (k0_chk12 v86) := fun v86 => decidable_of_iff' _ (Iff.of_eq (k0_chk12.eq_1 v86))
theorem k0_idx12_inb : ∀ (v86 : IVec S16 32) (k0_hw12 : k0_chk12 v86), ∀ a x, ((![v86] : Fin 1 → IVec S16 32) a x).toNat < S32768.size a := fun v86 k0_hw12 => k0_hw12
def k0_off14 (k0_t2 : Fin k0_t2_loop.trips) : Fin 1 → Nat :=
  let c22528_i32_19 : BitVec 32 := 22528#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v88 : BitVec 32 := Scalar.addi c22528_i32_19 v16
  let v89 : Index := Scalar.indexCast v88
  ![v89.toNat]

def k0_chk13 (v92 : IVec S16 32) : Prop :=
  (∀ a x, ((![v92] : Fin 1 → IVec S16 32) a x).toNat < S32768.size a)
instance k0_chk13.dec : ∀ (v92 : IVec S16 32), Decidable (k0_chk13 v92) := fun v92 => decidable_of_iff' _ (Iff.of_eq (k0_chk13.eq_1 v92))
theorem k0_idx13_inb : ∀ (v92 : IVec S16 32) (k0_hw13 : k0_chk13 v92), ∀ a x, ((![v92] : Fin 1 → IVec S16 32) a x).toNat < S32768.size a := fun v92 k0_hw13 => k0_hw13
def k0_off15 (k0_t2 : Fin k0_t2_loop.trips) : Fin 1 → Nat :=
  let c24576_i32_20 : BitVec 32 := 24576#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v94 : BitVec 32 := Scalar.addi c24576_i32_20 v16
  let v95 : Index := Scalar.indexCast v94
  ![v95.toNat]

def k0_chk14 (v98 : IVec S16 32) : Prop :=
  (∀ a x, ((![v98] : Fin 1 → IVec S16 32) a x).toNat < S32768.size a)
instance k0_chk14.dec : ∀ (v98 : IVec S16 32), Decidable (k0_chk14 v98) := fun v98 => decidable_of_iff' _ (Iff.of_eq (k0_chk14.eq_1 v98))
theorem k0_idx14_inb : ∀ (v98 : IVec S16 32) (k0_hw14 : k0_chk14 v98), ∀ a x, ((![v98] : Fin 1 → IVec S16 32) a x).toNat < S32768.size a := fun v98 k0_hw14 => k0_hw14
def k0_off16 (k0_t2 : Fin k0_t2_loop.trips) : Fin 1 → Nat :=
  let c26624_i32_21 : BitVec 32 := 26624#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v100 : BitVec 32 := Scalar.addi c26624_i32_21 v16
  let v101 : Index := Scalar.indexCast v100
  ![v101.toNat]

def k0_chk15 (v104 : IVec S16 32) : Prop :=
  (∀ a x, ((![v104] : Fin 1 → IVec S16 32) a x).toNat < S32768.size a)
instance k0_chk15.dec : ∀ (v104 : IVec S16 32), Decidable (k0_chk15 v104) := fun v104 => decidable_of_iff' _ (Iff.of_eq (k0_chk15.eq_1 v104))
theorem k0_idx15_inb : ∀ (v104 : IVec S16 32) (k0_hw15 : k0_chk15 v104), ∀ a x, ((![v104] : Fin 1 → IVec S16 32) a x).toNat < S32768.size a := fun v104 k0_hw15 => k0_hw15
def k0_off17 (k0_t2 : Fin k0_t2_loop.trips) : Fin 1 → Nat :=
  let c28672_i32_22 : BitVec 32 := 28672#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v106 : BitVec 32 := Scalar.addi c28672_i32_22 v16
  let v107 : Index := Scalar.indexCast v106
  ![v107.toNat]

def k0_chk16 (v110 : IVec S16 32) : Prop :=
  (∀ a x, ((![v110] : Fin 1 → IVec S16 32) a x).toNat < S32768.size a)
instance k0_chk16.dec : ∀ (v110 : IVec S16 32), Decidable (k0_chk16 v110) := fun v110 => decidable_of_iff' _ (Iff.of_eq (k0_chk16.eq_1 v110))
theorem k0_idx16_inb : ∀ (v110 : IVec S16 32) (k0_hw16 : k0_chk16 v110), ∀ a x, ((![v110] : Fin 1 → IVec S16 32) a x).toNat < S32768.size a := fun v110 k0_hw16 => k0_hw16
def k0_off18 (k0_t2 : Fin k0_t2_loop.trips) : Fin 1 → Nat :=
  let c30720_i32_23 : BitVec 32 := 30720#32
  let c0_i32_3 : BitVec 32 := 0#32
  let c1_i32_4 : BitVec 32 := 1#32
  let arg11 : BitVec 32 := Scf.iv c0_i32_3 c1_i32_4 k0_t2
  let c16_i32 : BitVec 32 := 16#32
  let v16 : BitVec 32 := Scalar.muli arg11 c16_i32
  let v112 : BitVec 32 := Scalar.addi c30720_i32_23 v16
  let v113 : Index := Scalar.indexCast v112
  ![v113.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32768x2048_S67108864 : S32768x2048.ShapeCasts S67108864
  h_S16 : 0 < S16.numel
  h_S32768 : 0 < S32768.numel
  shapeCasts_S67108864_S32768x2048 : S67108864.ShapeCasts S32768x2048
  hcc0_scratch3 : 0 + S_.numel ≤ 3
  hcc0_scratch4 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ (i : grid0.Coords) (k0_t1 : Fin k0_t1_loop.trips), ∀ a, (k0_off1 i k0_t1) a + S32768.size a ≤ S67108864.size a
  k0_t2_ok : k0_t2_loop.OK
  k0_off2_inb : ∀ k0_t2 : Fin k0_t2_loop.trips, ∀ a, (k0_off2 k0_t2) a + S16.size a ≤ S2048.size a
  k0_off3_inb : ∀ k0_t2 : Fin k0_t2_loop.trips, ∀ a, (k0_off3 k0_t2) a + S16.size a ≤ S32768.size a
  k0_off4_inb : ∀ k0_t2 : Fin k0_t2_loop.trips, ∀ a, (k0_off4 k0_t2) a + S16.size a ≤ S32768.size a
  k0_off5_inb : ∀ k0_t2 : Fin k0_t2_loop.trips, ∀ a, (k0_off5 k0_t2) a + S16.size a ≤ S32768.size a
  k0_off6_inb : ∀ k0_t2 : Fin k0_t2_loop.trips, ∀ a, (k0_off6 k0_t2) a + S16.size a ≤ S32768.size a
  k0_off7_inb : ∀ k0_t2 : Fin k0_t2_loop.trips, ∀ a, (k0_off7 k0_t2) a + S16.size a ≤ S32768.size a
  k0_off8_inb : ∀ k0_t2 : Fin k0_t2_loop.trips, ∀ a, (k0_off8 k0_t2) a + S16.size a ≤ S32768.size a
  k0_off9_inb : ∀ k0_t2 : Fin k0_t2_loop.trips, ∀ a, (k0_off9 k0_t2) a + S16.size a ≤ S32768.size a
  k0_off10_inb : ∀ k0_t2 : Fin k0_t2_loop.trips, ∀ a, (k0_off10 k0_t2) a + S16.size a ≤ S32768.size a
  k0_off11_inb : ∀ k0_t2 : Fin k0_t2_loop.trips, ∀ a, (k0_off11 k0_t2) a + S16.size a ≤ S32768.size a
  k0_off12_inb : ∀ k0_t2 : Fin k0_t2_loop.trips, ∀ a, (k0_off12 k0_t2) a + S16.size a ≤ S32768.size a
  k0_off13_inb : ∀ k0_t2 : Fin k0_t2_loop.trips, ∀ a, (k0_off13 k0_t2) a + S16.size a ≤ S32768.size a
  k0_off14_inb : ∀ k0_t2 : Fin k0_t2_loop.trips, ∀ a, (k0_off14 k0_t2) a + S16.size a ≤ S32768.size a
  k0_off15_inb : ∀ k0_t2 : Fin k0_t2_loop.trips, ∀ a, (k0_off15 k0_t2) a + S16.size a ≤ S32768.size a
  k0_off16_inb : ∀ k0_t2 : Fin k0_t2_loop.trips, ∀ a, (k0_off16 k0_t2) a + S16.size a ≤ S32768.size a
  k0_off17_inb : ∀ k0_t2 : Fin k0_t2_loop.trips, ∀ a, (k0_off17 k0_t2) a + S16.size a ≤ S32768.size a
  k0_off18_inb : ∀ k0_t2 : Fin k0_t2_loop.trips, ∀ a, (k0_off18 k0_t2) a + S16.size a ≤ S32768.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

class Facts : Prop extends Facts₀ where

variable [Facts]
-- ==== ReferenceIdeal.lean ====
abbrev S32768x2048 : Shape := ⟨2, ![32768, 2048]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S1x1, .i32⟩
  | .hbm, ⟨15, _⟩ => ⟨S2048x1, .i32⟩
  | .hbm, ⟨16, _⟩ => ⟨S2048x1, .i1⟩
  | .hbm, ⟨17, _⟩ => ⟨S2048x1, .i1⟩
  | .hbm, ⟨18, _⟩ => ⟨S_, .i1⟩
  | .hbm, ⟨19, _⟩ => ⟨S2048, .i1⟩
  | .hbm, ⟨20, _⟩ => ⟨S32768x2048, .f32⟩
  | .hbm, ⟨21, _⟩ => ⟨S32768x2048, .i1⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S_, .i32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_c : Ref sig .tc := ⟨.hbm, 25, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S32768x2048_1 : S2048.BroadcastsInDim S32768x2048 (![1] : Fin 1 → Fin S32768x2048.rank)
  bcast_S_S32768x2048 : S_.BroadcastsInDim S32768x2048 (![] : Fin 0 → Fin S32768x2048.rank)
  gather_S32768x2048_S2048x1_S32768x2048_0_1_n_n_1_1_327681_wf : GatherDims.WF S32768x2048 S2048x1 S32768x2048 [0] [1] [] [1] [] 1 ![32768, 1]

variable [Facts₀]

def gather_S32768x2048_S2048x1_S32768x2048_0_1_n_n_1_1_327681 : GatherDims S32768x2048 S2048x1 S32768x2048 where
  offsetDims := [0]
  collapsedSliceDims := [1]
  operandBatchingDims := []
  startIndicesBatchingDims := []
  startIndexMap := [1]
  indexVectorDim := 1
  sliceSizes := ![32768, 1]
  wf := gather_S32768x2048_S2048x1_S32768x2048_0_1_n_n_1_1_327681_wf

class Facts : Prop extends Facts₀ where

variable [Facts]
-- ==== Proof.PreRange.lean ====
/-
  The precondition decoded: every word of the column vector is below 2048.

  The predicate is the conjunction of two all-reductions. The second is the all-reduction, over the 2048 words `p j`,
  of `(p j ≥ 0) ∧ (p j ≤ 2047)`, both comparisons signed. A 32-bit word that is non-negative as a signed number reads the
  same signed and unsigned, so the second comparison bounds its unsigned value by 2047. Nothing here looks at the floats:
  the statement holds for every reading of them.
-/
import proofs.«213035_g51874615001668_cont_8to1_c_141_4_alg».proof.Pre_input_domain
import proofs.«213035_g51874615001668_cont_8to1_c_141_4_alg».proof.Proof.Gen.Pre_input_domain
import Idealize.ShloMosaic.Lib.ReduceAll
import Idealize.ShloMosaic.Lib.ValueIdx

namespace Cert.Proof.PreRange

open Idealize.ShloMosaic

/-- The rank-0 shape has one index. -/
instance : Subsingleton Cert.Pre_input_domain.S_.Idx := ⟨fun a b => funext fun d => d.elim0⟩

/-- A word in `[0, 2047]` as a signed 32-bit number is below 2048 as a natural number. -/
theorem toNat_lt_of_signed_range (v : BitVec 32)
    (h : IntOp.andi (IntOp.cmpi .sge v 0#32) (IntOp.cmpi .sle v 2047#32) = 1#1) : v.toNat < 2048 := by
  obtain ⟨h0, h1⟩ := IntOp.andi_eq_one.1 h
  rw [IntOp.cmpi_sge] at h0
  rw [IntOp.cmpi_sle] at h1
  rw [show (0#32 : BitVec 32).toInt = 0 from by decide] at h0
  rw [show (2047#32 : BitVec 32).toInt = 2047 from by decide] at h1
  rw [BitVec.toInt_eq_toNat_cond] at h0 h1
  have := v.isLt
  split at h0 <;> omega

theorem lt_of_pre {F : FTy → Type} [FloatOps F] (x : FVec F Cert.Pre_input_domain.S32768x2048 .f32) (p : IVec Cert.Pre_input_domain.S2048 32)
    (h : Cert.Pre_input_domain.fn (F := F) x p = fun _ => 1#1) : ∀ j : Cert.Pre_input_domain.S2048.Idx, (p j).toNat < 2048 := by
  intro j
  have e := congrFun h ValueIdx.ix0
  unfold Cert.Pre_input_domain.fn at e
  dsimp only at e
  have e2 := (IntOp.andi_eq_one.1 e).2
  have e3 := Host.reduce_andi_all _ _ _ _ _ e2 j
  exact toNat_lt_of_signed_range (p j) e3

end Cert.Proof.PreRange
-- ==== Proof.RefRun.lean ====
/-
  The reference's run. Its @main is a straight line of host operations: the twenty-three of the column-selection function
  (the one operation of the selection function it calls among them), then one constant. Listed in order, with each call's
  operations written at the call site over that call's buffers, the line's run is read off: every weakly fair execution
  terminates, the result buffer holds the operations' composed term of the two arguments, the second result the constant
  zero, and the arguments are unchanged.

  The composed term, in the order the operations compute it: the column numbers with a negative word moved up by 2048
  (`wrapped`), those as a column of start indices (`startIdx`), the test that a start index lies in [0, 2047] reduced
  over the unit axis (`inRange`), and the selection between the gathered columns and the not-a-number constant
  (`refOut`).
-/
import proofs.«213035_g51874615001668_cont_8to1_c_141_4_alg».proof.Proof.Gen.ReferenceIdeal
import Idealize.ShloMosaic.Lib.StableHlo.Run

noncomputable section

namespace Cert.Proof.RefSide

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The column numbers, a negative word moved up by 2048. -/
def wrapped (p : IVec S2048 32) : IVec S2048 32 :=
  select (cmpi .slt p (broadcastInDim S2048 ![] bcast_S_S2048 (constantI S_ 32 0#32)))
    (addi p (broadcastInDim S2048 ![] bcast_S_S2048 (constantI S_ 32 2048#32))) p

/-- The same as a column of start indices. -/
def startIdx (p : IVec S2048 32) : IVec S2048x1 32 :=
  broadcastInDim S2048x1 ![0] bcast_S2048_S2048x1_0 (wrapped p)

/-- Whether each start index lies in [0, 2047]: the two signed comparisons, reduced by `and` over the unit axis. -/
def inRange (p : IVec S2048 32) : IVec S2048 1 :=
  Host.reduce IntOp.andi
    (andi (cmpi .sge (startIdx p) (broadcastInDim S2048x1 ![] bcast_S_S2048x1 (constantI S_ 32 0#32)))
      (cmpi .sle (startIdx p)
        (broadcastInDim S2048x1 ![0, 1] bcast_S1x1_S2048x1_0_1 (broadcastInDim S1x1 ![1] bcast_S1_S1x1_1 (constantI S1 32 2047#32)))))
    (constantI S_ 1 1#1) reducesTo_S2048x1_S2048_d1 h_S_

/-- The result: where the start index is in range the gathered column, elsewhere the not-a-number constant. -/
def refOut (x : FVec F S32768x2048 .f32) (p : IVec S2048 32) : FVec F S32768x2048 .f32 :=
  select (broadcastInDim S32768x2048 ![1] bcast_S2048_S32768x2048_1 (inRange p))
    (Host.gather gather_S32768x2048_S2048x1_S32768x2048_0_1_n_n_1_1_327681 x (startIdx p))
    (broadcastInDim S32768x2048 ![] bcast_S_S32768x2048 (constant S_ .f32 0x7FC00000#32))

/-! ## The operations, in order -/

/-- @main's twenty-four operations, the two calls written out over their buffers. -/
abbrev ops : List (HloOp τ sig (Elt F)) :=
  [ TRef.nullary main_call0.c (constantI S_ 32 0#32),
    TRef.unary main_call0.c main_call0.v0 (broadcastInDim S2048 ![] bcast_S_S2048),
    TRef.binary (.of main_arg1) main_call0.v0 main_call0.v1 (cmpi .slt),
    TRef.nullary main_call0.c_0 (constantI S_ 32 2048#32),
    TRef.unary main_call0.c_0 main_call0.v2 (broadcastInDim S2048 ![] bcast_S_S2048),
    TRef.binary (.of main_arg1) main_call0.v2 main_call0.v3 addi,
    TRef.ternary main_call0.v1 main_call0.v3 (.of main_arg1) main_call0.call0.v0 select,
    TRef.unary main_call0.call0.v0 main_call0.v5 (broadcastInDim S2048x1 ![0] bcast_S2048_S2048x1_0),
    TRef.nullary main_call0.c_1 (constantI S1 32 2047#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg0) main_call0.v5 main_call0.v13 (fun x i => Host.gather gather_S32768x2048_S2048x1_S32768x2048_0_1_n_n_1_1_327681 x i),
    TRef.unary main_call0.v12 main_call0.v14 (broadcastInDim S32768x2048 ![1] bcast_S2048_S32768x2048_1),
    TRef.nullary main_call0.cst (constant S_ .f32 0x7FC00000#32),
    TRef.unary main_call0.cst main_call0.v15 (broadcastInDim S32768x2048 ![] bcast_S_S32768x2048),
    TRef.ternary main_call0.v14 main_call0.v13 main_call0.v15 main_call0.v16 select,
    nullary main_c (constantI S_ 32 0#32) ]

set_option maxRecDepth 1024 in
/-- @main is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..⟩

attribute [local irreducible] Host.reduce Host.gather in
/-- The fold of the operations at the result buffer is the composed term of the arguments. -/
theorem out_eq (V : Valuation τ sig (Elt F)) :
    after ops V (main_v0 : DevRef τ sig) = refOut (F := F) (V (main_arg0 : DevRef τ sig)) (V (main_arg1 : DevRef τ sig)) := by
  after_results
  rfl

theorem c_eq (V : Valuation τ sig (Elt F)) :
    after (ops (F := F)) V (main_c : DevRef τ sig) = (constantI S_ 32 0#32) := by
  after_results

theorem arg0_eq (V : Valuation τ sig (Elt F)) :
    after (ops (F := F)) V (main_arg0 : DevRef τ sig) = V (main_arg0 : DevRef τ sig) := by
  after_results

theorem arg1_eq (V : Valuation τ sig (Elt F)) :
    after (ops (F := F)) V (main_arg1 : DevRef τ sig) = V (main_arg1 : DevRef τ sig) := by
  after_results

/-- On the one device, for any float values, from any memory with zero counters: every weakly fair execution of @main
    terminates with the result at the composed term of the arguments, the second result the constant, and the arguments
    unchanged. -/
theorem run_term (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v0) = refOut (F := F) (m ((c.tc : Thread nD τ).loc main_arg0)) (m ((c.tc : Thread nD τ).loc main_arg1))
      ∧ r.2.mem ((c.tc : Thread nD τ).loc main_c) = (constantI S_ 32 0#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_c).trans (c_eq _),
      (h c main_arg0).trans (arg0_eq _), (h c main_arg1).trans (arg1_eq _)⟩)
    (run_seq scopedRefs_eq scopedSems_eq defs main (fun _ => ops) main_eq (fun _ => ops_sub) m g)

end Cert.Proof.RefSide

end
-- ==== Proof.Spec.lean ====
/-
  The function both programs compute: a permutation of columns. For a matrix `x` with 32768 rows and 2048 columns and a
  vector `p` of 2048 column numbers, the result's entry `(r, j)` is `x`'s entry `(r, p j)`. A word of `p` is read as a
  natural number modulo 2048, so that the function is total; where every word of `p` is below 2048 the reduction does
  nothing (`col_of_lt`).
-/
import Idealize.ShloMosaic.Lib.ValueIdx

namespace Cert.Proof.Spec

open Idealize.ShloMosaic

abbrev Sx : Shape := ⟨2, ![32768, 2048]⟩
abbrev Sp : Shape := ⟨1, ![2048]⟩

/-- The column of `x` that column `j` of the result is taken from. -/
def col (p : Sp.Idx → BitVec 32) (j : Fin 2048) : Fin 2048 :=
  ⟨(p (ValueIdx.ix1 j)).toNat % 2048, Nat.mod_lt _ (by decide)⟩

theorem col_of_lt (p : Sp.Idx → BitVec 32) (j : Fin 2048) (h : (p (ValueIdx.ix1 j)).toNat < 2048) :
    (col p j).val = (p (ValueIdx.ix1 j)).toNat := Nat.mod_eq_of_lt h

/-- Entry `(r, j)` of the result is entry `(r, p j)` of `x`. -/
def permCols {α : Type} (x : Sx.Idx → α) (p : Sp.Idx → BitVec 32) : Sx.Idx → α :=
  fun i => x (ValueIdx.ix2 (n0 := 32768) (n1 := 2048) (i 0) (col p (i 1)))

theorem permCols_apply {α : Type} (x : Sx.Idx → α) (p : Sp.Idx → BitVec 32) (r : Fin 32768) (j : Fin 2048) :
    permCols x p (ValueIdx.ix2 r j) = x (ValueIdx.ix2 r (col p j)) := rfl

end Cert.Proof.Spec
-- ==== Proof.RefValue.lean ====
/-
  The reference's value. Where every word of the column vector is below 2048 (so non-negative as a signed word), moving
  negative words up by 2048 leaves each word alone, every start index passes the range test, the gather's clamp of a start
  index into [0, 2047] is the identity, and the selection keeps the gathered entry: entry `(r, j)` of the composed term is
  entry `(r, p j)` of the matrix, the permutation of columns of the specification. With the run of the operations this is
  the reference's side of the claim.
-/
import proofs.«213035_g51874615001668_cont_8to1_c_141_4_alg».proof.Proof.RefRun
import proofs.«213035_g51874615001668_cont_8to1_c_141_4_alg».proof.Proof.Spec
import Idealize.ShloMosaic.Lib.ValueIdx
import Idealize.ShloMosaic.Lib.Pipeline.Value
import Idealize.ShloMosaic.Lib.ReduceAll

noncomputable section

namespace Cert.Proof.RefSide

open Cert.ReferenceIdeal Cert.ReferenceIdeal.Gen Idealize.ShloMosaic Idealize.ShloMosaic.TcCoe Idealize.SL.Sem Idealize.ShloMosaic.ValueIdx

variable {F : FTy → Type} [FloatOps F]

/-! ## Words below 2048 under the signed comparisons -/

/-- A word below 2048 reads the same signed and unsigned. -/
theorem toInt_of_lt (v : BitVec 32) (h : v.toNat < 2048) : v.toInt = (v.toNat : Int) :=
  BitVec.toInt_eq_toNat_of_lt (by omega)

/-- A word below 2048 is not negative: the test `v < 0` fails … -/
theorem slt_zero_of_lt (v : BitVec 32) (h : v.toNat < 2048) : IntOp.cmpi .slt v 0#32 = 0#1 := by
  refine eq_zero_of_ne_one fun h1 => ?_
  rw [IntOp.cmpi_slt, toInt_of_lt v h, show (0#32 : BitVec 32).toInt = 0 from by decide] at h1
  omega

/-- … the test `v ≥ 0` holds … -/
theorem sge_zero_of_lt (v : BitVec 32) (h : v.toNat < 2048) : IntOp.cmpi .sge v 0#32 = 1#1 := by
  rw [IntOp.cmpi_sge, toInt_of_lt v h, show (0#32 : BitVec 32).toInt = 0 from by decide]
  omega

/-- … and so does `v ≤ 2047`. -/
theorem sle_2047_of_lt (v : BitVec 32) (h : v.toNat < 2048) : IntOp.cmpi .sle v 2047#32 = 1#1 := by
  rw [IntOp.cmpi_sle, toInt_of_lt v h, show (2047#32 : BitVec 32).toInt = 2047 from by decide]
  omega

/-! ## A reduction by `and` of ones -/

/-- A left fold by `and` from 1 over words that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

/-- A reduce by `and`, from an initial value of ones, of an array of ones is 1 at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_of_all_one x hx _

/-! ## The gather of whole columns, read at an index -/

/-- The gather of whole columns read at `(r, j)`: row `r` of the column the start index `idx[j, 0]` names, read signed
    and clamped into `[0, 2047]`. On operand axis 0, which the start index map does not name and which is not collapsed,
    the coordinate is the result's offset coordinate `r`; on axis 1, collapsed, it is the clamped start. -/
theorem gather_cols_apply {α : Type} {w : Nat} (x : S32768x2048.Idx → α) (idx : IVec S2048x1 w) (r : Fin 32768) (j : Fin 2048) :
    Host.gather gather_S32768x2048_S2048x1_S32768x2048_0_1_n_n_1_1_327681 x idx (ix2 r j)
      = x (ix2 r ⟨min (idx (ix2 j (0 : Fin 1))).toInt.toNat 2047, by omega⟩) := by
  unfold Host.gather
  congr 1
  funext a
  refine Fin.ext ?_
  show gather_S32768x2048_S2048x1_S32768x2048_0_1_n_n_1_1_327681.start (ix2 r j) idx a
    + gather_S32768x2048_S2048x1_S32768x2048_0_1_n_n_1_1_327681.batchCoord (ix2 r j) a
    + gather_S32768x2048_S2048x1_S32768x2048_0_1_n_n_1_1_327681.offCoord (ix2 r j) a = _
  rw [GatherDims.batchCoord_eq_zero _ _ _ List.not_mem_nil]
  match a with
  | ⟨0, _⟩ =>
    have hs : gather_S32768x2048_S2048x1_S32768x2048_0_1_n_n_1_1_327681.start (ix2 r j) idx ⟨0, by decide⟩ = 0 := by
      unfold GatherDims.start
      rw [dif_neg (by decide)]
    have ho : gather_S32768x2048_S2048x1_S32768x2048_0_1_n_n_1_1_327681.offCoord (ix2 r j) ⟨0, by decide⟩ = r.val := by
      unfold GatherDims.offCoord
      rw [dif_pos (by decide)]
      rfl
    rw [hs, ho]
    show 0 + 0 + r.val = r.val
    omega
  | ⟨1, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin S32768x2048.rank) ∈ gather_S32768x2048_S2048x1_S32768x2048_0_1_n_n_1_1_327681.startIndexMap
      from List.mem_singleton.mpr rfl)]
    have hsi : gather_S32768x2048_S2048x1_S32768x2048_0_1_n_n_1_1_327681.siIdx (ix2 r j)
        ⟨List.idxOf (⟨1, by decide⟩ : Fin S32768x2048.rank) gather_S32768x2048_S2048x1_S32768x2048_0_1_n_n_1_1_327681.startIndexMap,
          List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-! ## The composed term at an index -/

/-- A word below 2048 is left alone by the move of negative words. -/
theorem wrapped_apply_of_lt (p : IVec S2048 32) (j : Fin 2048) (h : (p (ix1 j)).toNat < 2048) : wrapped p (ix1 j) = p (ix1 j) := by
  show Scalar.select (IntOp.cmpi .slt (p (ix1 j)) 0#32) (IntOp.addi (p (ix1 j)) 2048#32) (p (ix1 j)) = p (ix1 j)
  rw [slt_zero_of_lt _ h]
  exact select_zero _ _

/-- Start index `[j, 0]` is word `j`. -/
theorem startIdx_apply (p : IVec S2048 32) (j : Fin 2048) (z : Fin 1) : startIdx p (ix2 j z) = wrapped p (ix1 j) := by
  unfold startIdx
  exact broadcastInDim_apply _ _ _ (ix2 j z) (ix1 j) (fun a => match a with | ⟨0, _⟩ => rfl)

/-- Where every word is below 2048 every start index passes the range test. -/
theorem inRange_apply_of_lt (p : IVec S2048 32) (h : ∀ j : Fin 2048, (p (ix1 j)).toNat < 2048) (j : S2048.Idx) : inRange p j = 1#1 := by
  unfold inRange
  refine reduce_andi_of_all_one _ _ _ _ (fun i => ?_) (fun _ => rfl) j
  obtain ⟨a, b, rfl⟩ : ∃ (a : Fin 2048) (b : Fin 1), i = ix2 a b := ⟨i 0, i 1, eq_ix2 i⟩
  show IntOp.andi (IntOp.cmpi .sge (startIdx p (ix2 a b)) 0#32) (IntOp.cmpi .sle (startIdx p (ix2 a b)) 2047#32) = 1#1
  rw [startIdx_apply, wrapped_apply_of_lt p a (h a), sge_zero_of_lt _ (h a), sle_2047_of_lt _ (h a)]
  decide

/-- THE COMPOSED TERM AT `(r, j)`: entry `(r, p j)` of the matrix. -/
theorem refOut_apply (x : FVec F S32768x2048 .f32) (p : IVec S2048 32) (h : ∀ j : Fin 2048, (p (ix1 j)).toNat < 2048)
    (r : Fin 32768) (j : Fin 2048) : refOut x p (ix2 r j) = x (ix2 r (Cert.Proof.Spec.col p j)) := by
  unfold refOut
  have hm : broadcastInDim S32768x2048 ![1] bcast_S2048_S32768x2048_1 (inRange p) (ix2 r j) = inRange p (ix1 j) :=
    broadcastInDim_apply _ _ _ (ix2 r j) (ix1 j) (fun a => match a with | ⟨0, _⟩ => rfl)
  rw [select_apply, hm, inRange_apply_of_lt p h, select_one, gather_cols_apply]
  refine congrArg x (congrArg (ix2 r) (Fin.ext ?_))
  show min (startIdx p (ix2 j (0 : Fin 1))).toInt.toNat 2047 = (Cert.Proof.Spec.col p j).val
  rw [startIdx_apply, wrapped_apply_of_lt p j (h j), Cert.Proof.Spec.col_of_lt p j (h j), toInt_of_lt _ (h j)]
  have := h j
  omega

/-- The composed term is the permutation of columns. -/
theorem refOut_eq_permCols (x : FVec F S32768x2048 .f32) (p : IVec S2048 32) (h : ∀ j : Fin 2048, (p (ix1 j)).toNat < 2048) :
    refOut x p = Cert.Proof.Spec.permCols x p := by
  funext i
  obtain ⟨r, j, rfl⟩ : ∃ (r : Fin 32768) (j : Fin 2048), i = ix2 r j := ⟨i 0, i 1, eq_ix2 i⟩
  rw [Cert.Proof.Spec.permCols_apply]
  exact refOut_apply x p h r j

/-! ## The reference's side of the claim -/

theorem run (m : (ℓ : Loc Cert.ReferenceIdeal.nD Cert.ReferenceIdeal.τ Cert.ReferenceIdeal.sig) → Buf (Elt Ideal) ℓ) (g : Dev Cert.ReferenceIdeal.nD → PrngReg)
    (hp : ∀ (c : Dev Cert.ReferenceIdeal.nD) (j : Cert.Proof.Spec.Sp.Idx), ((m ((c.tc : Thread Cert.ReferenceIdeal.nD Cert.ReferenceIdeal.τ).loc Cert.ReferenceIdeal.main_arg1)) j).toNat < 2048) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread _ Cert.ReferenceIdeal.τ).loc Cert.ReferenceIdeal.main_v0) = Cert.Proof.Spec.permCols (m ((c.tc : Thread _ Cert.ReferenceIdeal.τ).loc Cert.ReferenceIdeal.main_arg0)) (m ((c.tc : Thread _ Cert.ReferenceIdeal.τ).loc Cert.ReferenceIdeal.main_arg1))
      ∧ r.2.mem ((c.tc : Thread _ Cert.ReferenceIdeal.τ).loc Cert.ReferenceIdeal.main_c) = (constantI Cert.ReferenceIdeal.S_ 32 0#32)
      ∧ r.2.mem ((c.tc : Thread _ Cert.ReferenceIdeal.τ).loc Cert.ReferenceIdeal.main_arg0) = m ((c.tc : Thread _ Cert.ReferenceIdeal.τ).loc Cert.ReferenceIdeal.main_arg0)
      ∧ r.2.mem ((c.tc : Thread _ Cert.ReferenceIdeal.τ).loc Cert.ReferenceIdeal.main_arg1) = m ((c.tc : Thread _ Cert.ReferenceIdeal.τ).loc Cert.ReferenceIdeal.main_arg1)) :=
  (θ_run (Cert.ReferenceIdeal.defs (F := Ideal)) _ _).mono
    (fun _ h c => ⟨(h c).1.trans (refOut_eq_permCols _ _ fun j => hp c (ix1 j)), (h c).2.1, (h c).2.2.1, (h c).2.2.2⟩)
    (run_term (F := Ideal) m g)

end Cert.Proof.RefSide

end
-- ==== Proof.CommonI.lean ====
/-
  A permutation of columns on the SparseCore: the set-up shared by the proofs about this program.

  The program flattens `x` (32768 rows of 2048 words) to one array of 67108864 words, runs one vector-subcore
  kernel on 2 SparseCores × 16 vector subcores, and reshapes the kernel's flat result back. Vector subcore `s` of
  SparseCore `c` owns the 64 consecutive blocks of 32768 words (16 rows) that start at block `128 s + 64 c`; for each
  block it copies the block in, permutes each of its 16 rows by `p`, and copies the block out. So word `j` of the
  flat result is word `(j / 2048) · 2048 + p (j mod 2048)` of the flat input (`permFlat`).

  Stated here: the 2048 output blocks as the parts of the flat array, which tile it; which block a subcore writes
  at which trip; the flat specification; and what the TensorCore's call hands each SparseCore and each vector
  subcore and takes back: a read share of the flat input and of `p` (each subcore reads `p` whole and its own
  blocks of the input) and, outright, the subcore's 64 blocks of the result — at the launch contents on the way
  in, at the specification on the way back.
-/
import proofs.«213035_g51874615001668_cont_8to1_c_141_4_alg».proof.Defs
import proofs.«213035_g51874615001668_cont_8to1_c_141_4_alg».proof.Proof.Gen.KernelIdeal
import proofs.«213035_g51874615001668_cont_8to1_c_141_4_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«213035_g51874615001668_cont_8to1_c_141_4_alg».proof.Proof.Spec

noncomputable section

namespace Cert.Proof.PermI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat input, `p`, the flat result: as locations of device `d`. -/
abbrev xLoc (d : Dev nD) : Loc nD τ sig := (SparseCore.T d).loc main_v0
abbrev pLoc (d : Dev nD) : Loc nD τ sig := (SparseCore.T d).loc main_arg1
abbrev oLoc (d : Dev nD) : Loc nD τ sig := (SparseCore.T d).loc main_v1

/-! ## The blocks of the flat result -/

theorem hdiv : 2048 ∣ S67108864.size 0 := ⟨32768, rfl⟩

/-- Block `n` of the flat array: words `32768 n` to `32768 n + 32767`. -/
abbrev blockR (n : Fin 2048) : Rect S67108864 := Rect.part (s := S67108864) (a₀ := 0) hdiv n
abbrev blockSet (n : Fin 2048) : Finset S67108864.Idx := (blockR n).set

theorem blocks_disjoint : ∀ i ∈ (Finset.univ : Finset (Fin 2048)), ∀ j ∈ (Finset.univ : Finset (Fin 2048)), i ≠ j → Disjoint (blockSet i) (blockSet j) :=
  fun _ _ _ _ h => Rect.part_disjoint hdiv h
theorem blocks_cover : (Finset.univ : Finset (Fin 2048)).biUnion blockSet = Finset.univ := Rect.biUnion_part hdiv

/-- The number of the block that vector subcore `s` of SparseCore `c` moves at trip `k`. -/
def blockNo (c s k : ℕ) : ℕ := 128 * s + 64 * c + k
theorem blockNo_lt {c s k : ℕ} (hc : c < 2) (hs : s < 16) (hk : k < 64) : blockNo c s k < 2048 := by unfold blockNo; omega
theorem blockNo_inj {c s k c' s' k' : ℕ} (hc : c < 2) (hk : k < 64) (hc' : c' < 2) (hk' : k' < 64)
    (h : blockNo c s k = blockNo c' s' k') : c = c' ∧ s = s' ∧ k = k' := by unfold blockNo at h; omega

/-! ## The specification on the flat arrays -/

theorem permFlat_lt (j r : ℕ) (hj : j < 67108864) (hr : r < 2048) : j / 2048 * 2048 + r < 67108864 := by omega

/-- Word `j` of the flat result is the word of the flat input in the same row (`j / 2048`) at the column `p` names for
    `j`'s column (`j mod 2048`); a word of `p` read modulo 2048, which changes nothing where it is below 2048. -/
def permFlat {α : Type} (X : S67108864.Idx → α) (p : S2048.Idx → BitVec 32) : S67108864.Idx → α :=
  fun j => X (ValueIdx.ix1 (n := 67108864) ⟨(j 0).val / 2048 * 2048 + (p (ValueIdx.ix1 (n := 2048) ⟨(j 0).val % 2048, Nat.mod_lt _ (by decide)⟩)).toNat % 2048,
    permFlat_lt _ _ (j 0).isLt (Nat.mod_lt _ (by decide))⟩)

/-! ## What the handshakes carry -/

variable (m : (ℓ : Loc nD τ sig) → Buf (Elt F) ℓ)
-- the flat input as the kernel finds it (what @main's first reshape wrote), per device
variable (X : (d : Dev nD) → Buf (Elt F) (xLoc d))

/-- The read share of SparseCore `c`, and of its vector subcore `i`: tokens split off the whole. -/
abbrev qC (c : ℕ) : PosShare TreeShare := Transfers.shareTokN fullShare c
abbrev qT (c i : ℕ) : PosShare TreeShare := Transfers.shareTokN (qC c) i

/-- Block number `n`'s words; nothing for a number that names no block. -/
def blockSetN (n : ℕ) : Finset S67108864.Idx := if h : n < 2048 then blockSet ⟨n, h⟩ else ∅
theorem blockSetN_eq {n : ℕ} (h : n < 2048) : blockSetN n = blockSet ⟨n, h⟩ := dif_pos h

/-- The flat result by the specification. -/
abbrev G (d : Dev nD) : Buf (Elt F) (oLoc d) := permFlat (X d) (m (pLoc d))

/-- The 64 blocks of the flat result that vector subcore `s` of SparseCore `c` writes, held outright at contents `f`. -/
def tileOut (d : Dev nD) (c s : ℕ) (f : Buf (Elt F) (oLoc d)) : sProp 𝕄 :=
  bigSep (Finset.range 64) fun k => oLoc d ↦[blockSetN (blockNo c s k)]{fullShare} f

/-- What a vector subcore is handed and hands back: its read shares of the flat input and of `p`, its blocks at `f`. -/
def forTile (d : Dev nD) (c s : ℕ) (f : Buf (Elt F) (oLoc d)) : sProp 𝕄 :=
  iprop((xLoc d ↦{qT c s} X d) ∗ (pLoc d ↦{qT c s} m (pLoc d)) ∗ tileOut d c s f)
/-- The same for a SparseCore: its read shares and its sixteen subcores' blocks. -/
def forCore (d : Dev nD) (c : ℕ) (f : Buf (Elt F) (oLoc d)) : sProp 𝕄 :=
  iprop((xLoc d ↦{qC c} X d) ∗ (pLoc d ↦{qC c} m (pLoc d)) ∗ bigSep (Finset.range 16) fun s => tileOut d c s f)

instance tileOut_storable (d : Dev nD) (c s : ℕ) (f : Buf (Elt F) (oLoc d)) : BI.Storable (upEmb : UEmb _ 𝕄) (tileOut d c s f) := by
  unfold tileOut; infer_instance
instance forTile_storable (d : Dev nD) (c s : ℕ) (f : Buf (Elt F) (oLoc d)) : BI.Storable (upEmb : UEmb _ 𝕄) (forTile m X d c s f) := by
  unfold forTile; infer_instance
instance forCore_storable (d : Dev nD) (c : ℕ) (f : Buf (Elt F) (oLoc d)) : BI.Storable (upEmb : UEmb _ 𝕄) (forCore m X d c f) := by
  unfold forCore; infer_instance

/-- The one call: in at the launch contents of the flat result, back at the specification. -/
def P : (K (F := F)).Pay (nD := nD) (Val := Elt F) (Name := ℕ) (U := UU) where
  st := fun _ d c => forCore m X d c.val (m (oLoc d))
  dn := fun _ d c => forCore m X d c.val (G m X d)
  go := fun _ d c i => forTile m X d c.val i.val (m (oLoc d))
  td := fun _ d c i => forTile m X d c.val i.val (G m X d)
  x := fun _ _ => iprop(emp)

instance P_storable : (P (F := F) m X).IsStorable where
  st _ d c := by unfold P; infer_instance
  dn _ d c := by unfold P; infer_instance
  go _ _ _ _ := by unfold P; infer_instance
  td _ _ _ _ := by unfold P; infer_instance

/-! ## A vector subcore's coordinates and thread -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## What one vector subcore's task does, and what the whole program leaves -/

/-- The task of vector subcore `(L 0, L 1)` of device `d`: from its read shares and its 64 blocks of the flat result as
    the launch left them, its scratch and its semaphores at zero, it ends with the blocks at the specification and
    everything else as it found it; it waits only on its own semaphores. -/
def TileSpec [FloatOps F] (d : Dev nD) (L : grid0.Coords) : Prop :=
  ∀ (O : CellTallies nD τ sig (HIx 1)) (W : Waits sig (HIx 1)), (∀ g, O g none = 0) →
    iprop(levAts (K (F := F)).L (K (F := F)).lev ∗ emp ∗ forTile m X d (L 0).val (L 1).val (m (oLoc d))
        ∗ scopedBufs (thr d L) ∗ scopedSems0 (thr d L) ∗ owes (thr d L) O W)
      ⊢ wp frame (wpE (defs₀ (F := F)) 𝒱₀ (thr d L) none) Set.univ
          (cc0__permute_body L (Memref.whole main_v0_scv) (Memref.isWhole_whole _) (Memref.whole main_arg1_scv) (Memref.isWhole_whole _)
            (Memref.whole main_v1_scv) (Memref.isWhole_whole _) (Memref.whole cc0_scratch0) (Memref.isWhole_whole _)
            (Memref.whole cc0_scratch1) (Memref.isWhole_whole _) (Memref.whole cc0_scratch2) (Memref.isWhole_whole _) cc0_scratch3 cc0_scratch4 cc0_scoped0)
          fun _ => iprop(forTile m X d (L 0).val (L 1).val (G m X d) ∗ scopedBufs (thr d L) ∗ scopedSems0 (thr d L)
            ∗ ∃ W', ⌜∀ p ∈ W', p ∈ W ∨ p.2 = none⌝ ∗ owes (thr d L) O W')

/-- What every execution ends with, on every device: the result the column permutation of the arguments, the second
    result the constant zero, the arguments unchanged. -/
def QC : PUnit × MemSt nD τ sig (Elt F) → Prop := fun r => ∀ c : Dev nD,
  r.2.mem ((SparseCore.T c).loc main_v2) = Cert.Proof.Spec.permCols (m ((SparseCore.T c).loc main_arg0)) (m ((SparseCore.T c).loc main_arg1))
  ∧ r.2.mem ((SparseCore.T c).loc main_c) = (constantI S_ 32 0#32)
  ∧ r.2.mem ((SparseCore.T c).loc main_arg0) = m ((SparseCore.T c).loc main_arg0)
  ∧ r.2.mem ((SparseCore.T c).loc main_arg1) = m ((SparseCore.T c).loc main_arg1)

end Cert.Proof.PermI

end
-- ==== Proof.ChunkI.lean ====
/-
  One chunk of the row permutation, as pure facts about lists of stores.

  A block is 16 rows of 2048 words, flat. Chunk `j` writes, in every row `r`, the 16 words at columns `16 j … 16 j + 15`:
  the word at column `c` is the row's word at column `p c`. Stated here: the block permuted row by row (`rowG`); what
  the out scratch holds after `j` chunks (`ChunkDone`: columns below `16 j` of every row are done); what one of a
  chunk's 16 stores is (`PieceAt`: the 16 words of row `r` from column `16 j`, holding `rowG` there); and that 16 such
  stores, one per row, take `ChunkDone j` to `ChunkDone (j + 1)`.
-/
import proofs.«213035_g51874615001668_cont_8to1_c_141_4_alg».proof.Proof.CommonI
import Idealize.ShloMosaic.Lib.Writes

noncomputable section

namespace Cert.Proof.PermI

open Cert.KernelIdeal
open Idealize.ShloMosaic

variable {F : FTy → Type}

theorem rowG_lt (y r : ℕ) (hy : y < 32768) (hr : r < 2048) : 2048 * (y / 2048) + r < 32768 := by omega

/-- The block permuted row by row: word `y` is the word of `y`'s row (`y / 2048`) at the column `fv` names for `y`'s
    column (`y mod 2048`), a word of `fv` read modulo 2048. -/
def rowG (fv : S2048.Idx → BitVec 32) (fin : S32768.Idx → Elt F .f32) : S32768.Idx → Elt F .f32 :=
  fun y => fin (ValueIdx.ix1 (n := 32768) ⟨2048 * ((y 0).val / 2048) + (fv (ValueIdx.ix1 (n := 2048) ⟨(y 0).val % 2048, Nat.mod_lt _ (by decide)⟩)).toNat % 2048,
    rowG_lt _ _ (y 0).isLt (Nat.mod_lt _ (by decide))⟩)

/-- After `j` chunks the words at columns below `16 j` of every row are the permuted block's. -/
def ChunkDone (fv : S2048.Idx → BitVec 32) (fin fo : S32768.Idx → Elt F .f32) (j : ℕ) : Prop :=
  ∀ y : S32768.Idx, (y 0).val % 2048 < 16 * j → fo y = rowG (F := F) fv fin y

/-- A store of chunk `j` into row `r`: through the 16 words from column `16 j` of that row, of the permuted block's words there. -/
def PieceAt (fv : S2048.Idx → BitVec 32) (fin : S32768.Idx → Elt F .f32) (j r : ℕ) (p : View.Piece (Elt F) S32768 .f32) : Prop :=
  (∃ inb, p.1 = Rect.unit (s := S32768) ![16 * j + 2048 * r] S16.size inb) ∧ ∀ x, p.2 x = rowG (F := F) fv fin (p.1.emb x)

/-- The words a store of chunk `j` into row `r` covers: those of row `r` at columns `16 j … 16 j + 15`. -/
theorem PieceAt.mem_iff {fv : S2048.Idx → BitVec 32} {fin : S32768.Idx → Elt F .f32} {j r : ℕ} {p : View.Piece (Elt F) S32768 .f32}
    (h : PieceAt fv fin j r p) (y : S32768.Idx) : y ∈ p.1.set ↔ 16 * j + 2048 * r ≤ (y 0).val ∧ (y 0).val < 16 * j + 2048 * r + 16 := by
  obtain ⟨⟨inb, e⟩, -⟩ := h
  rw [e, Rect.mem_set_unit]
  constructor
  · intro h; exact h 0
  · intro h a; obtain rfl : a = 0 := Subsingleton.elim _ _; exact h

theorem col_lt (j x : ℕ) (hj : j < 128) (hx : x < 16) : 16 * j + x < 2048 := by omega

/-- One of a chunk's stores is a `PieceAt`: its rectangle starts at column `16 j` of row `r` (the printed offset in closed
    form), and its payload is the gather from the input block at the chunk's 16 words of `p`, each moved `r` rows down —
    lane `x` reads word `2048 r + p (16 j + x)`, which is the permuted block's word at `2048 r + 16 j + x`. -/
theorem pieceAt_mk (fv : S2048.Idx → BitVec 32) (fin : S32768.Idx → Elt F .f32) (j r c : ℕ) (hj : j < 128) (hr : r < 16) (hc : c = 2048 * r)
    (off : Fin 1 → ℕ) (inb : ∀ a, off a + S16.size a ≤ S32768.size a) (hoff : off = ![16 * j + c])
    (hfv : ∀ i, (fv i).toNat < 2048)
    (v18 : IVec S16 32) (hv18 : ∀ x : S16.Idx, v18 x = fv (ValueIdx.ix1 (n := 2048) ⟨16 * j + (x 0).val, col_lt j _ hj (x 0).isLt⟩))
    (v : IVec S16 32) (hv : v = addi v18 (broadcast S16 (BitVec.ofNat 32 c)))
    (fin' : Vec F S32768 .f32) (hfin : ∀ y, fin' y = fin y)
    (h : ∀ a x, ((![v] : Fin 1 → IVec S16 32) a x).toNat < S32768.size a) :
    PieceAt (F := F) fv fin j r ⟨Rect.unit (s := S32768) off S16.size inb, loadIdx fin' ![v] h⟩ := by
  subst hoff hv hc
  refine ⟨⟨inb, rfl⟩, fun x => ?_⟩
  have hx : (x 0).val < 16 := (x 0).isLt
  have hfx := hfv (ValueIdx.ix1 (n := 2048) ⟨16 * j + (x 0).val, col_lt j _ hj (x 0).isLt⟩)
  show fin' (idxAt _ h x) = _
  rw [hfin]
  unfold rowG
  congr 1
  funext a
  obtain rfl : a = 0 := Subsingleton.elim _ _
  apply Fin.ext
  have hvx : (v18 x).toNat < 2048 := by rw [hv18 x]; exact hfx
  have e1 : (16 * j + 2048 * r + 1 * (x 0).val) / 2048 = r := by omega
  have e2 : (16 * j + 2048 * r + 1 * (x 0).val) % 2048 = 16 * j + (x 0).val := by omega
  have e3 : fv (ValueIdx.ix1 (n := 2048) ⟨(16 * j + 2048 * r + 1 * (x 0).val) % 2048, Nat.mod_lt _ (by decide)⟩) = v18 x := by
    rw [hv18 x]; exact congrArg fv (congrArg (ValueIdx.ix1 (n := 2048)) (Fin.ext e2))
  show (IntOp.addi (v18 x) (BitVec.ofNat 32 (2048 * r))).toNat
    = 2048 * ((16 * j + 2048 * r + 1 * (x 0).val) / 2048)
      + (fv (ValueIdx.ix1 (n := 2048) ⟨(16 * j + 2048 * r + 1 * (x 0).val) % 2048, Nat.mod_lt _ (by decide)⟩)).toNat % 2048
  rw [e3, e1]
  simp only [IntOp.addi, BitVec.toNat_add, BitVec.toNat_ofNat]
  omega

local notation "vO" => Memref.view (Memref.whole Cert.KernelIdeal.cc0_scratch2 : Memref Cert.KernelIdeal.sig Kind.scVector Space.vmem Cert.KernelIdeal.S32768 EltTy.f32)

/-- Sixteen stores of chunk `j`, one per row (the list's entry `i` into row `15 - i`), over a scratch whose columns below
    `16 j` are done leave its columns below `16 (j + 1)` done: a word at a column below `16 j` is under none of the
    stores; one at a column from `16 j` to `16 j + 15` is under its row's store, which holds the permuted block there. -/
theorem chunk_step (fv : S2048.Idx → BitVec 32) (fin fo : S32768.Idx → Elt F .f32) (j : ℕ) (hj : j < 128)
    (hdone : ChunkDone (F := F) fv fin fo j) (Lst : List (View.Piece (Elt F) S32768 .f32)) (hlen : Lst.length = 16)
    (hL : ∀ i : Fin 16, PieceAt fv fin j (15 - i.val) (Lst.get (i.cast hlen.symm))) :
    ChunkDone (F := F) fv fin ((Memref.whole cc0_scratch2 : Memref sig .scVector .vmem S32768 .f32).view.writes (Elt F) fo Lst) (j + 1) := by
  intro y hy
  have hy0 : (y 0).val < 32768 := (y 0).isLt
  show (Memref.whole cc0_scratch2 : Memref sig .scVector .vmem S32768 .f32).view.read (Elt F)
    ((Memref.whole cc0_scratch2 : Memref sig .scVector .vmem S32768 .f32).view.writes (Elt F) fo Lst) y = _
  by_cases hc : (y 0).val % 2048 < 16 * j
  · refine (View.read_writes_apply_of_forall_not_mem vO fo y Lst ?_).trans (hdone y hc)
    · intro p hp hmem
      obtain ⟨n, rfl⟩ := List.mem_iff_get.mp hp
      have hn : n.val < 16 := hlen ▸ n.isLt
      have h1 := ((hL ⟨n.val, hn⟩).mem_iff y).mp hmem
      simp only at h1
      omega
  · have hr : (y 0).val / 2048 < 16 := by omega
    have hpi := hL ⟨15 - (y 0).val / 2048, by omega⟩
    have e15 : 15 - (15 - (y 0).val / 2048) = (y 0).val / 2048 := by omega
    simp only [e15] at hpi
    refine View.read_writes_apply_of_pieces vO fo (rowG (F := F) fv fin) Lst (fun p hp x => ?_) y
      ⟨_, List.get_mem _ _, (hpi.mem_iff y).mpr ⟨by omega, by omega⟩⟩
    obtain ⟨n, rfl⟩ := List.mem_iff_get.mp hp
    have hn : n.val < 16 := hlen ▸ n.isLt
    exact (hL ⟨n.val, hn⟩).2 x

end Cert.Proof.PermI

end
-- ==== Proof.BlockI.lean ====
/-
  The blocks of the flat arrays as the kernel slices them, and what a finished block holds.
-/
import proofs.«213035_g51874615001668_cont_8to1_c_141_4_alg».proof.Proof.CommonI
import proofs.«213035_g51874615001668_cont_8to1_c_141_4_alg».proof.Proof.ChunkI

noncomputable section

namespace Cert.Proof.PermI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)
variable (X : (d : Dev nD) → Buf (Elt F) (xLoc d))
variable [FloatOps F]

local notation "xW" => (Memref.whole Cert.KernelIdeal.main_v0_scv : Memref Cert.KernelIdeal.sig Kind.scVector Space.hbm Cert.KernelIdeal.S67108864 EltTy.f32)
local notation "oW" => (Memref.whole Cert.KernelIdeal.main_v1_scv : Memref Cert.KernelIdeal.sig Kind.scVector Space.hbm Cert.KernelIdeal.S67108864 EltTy.f32)

variable (d : Dev nD) (L : grid0.Coords)

/-! ### The blocks as the kernel slices them -/

/-- The block of the flat result (and of the flat input) the subcore moves at trip `k`, as the program slices it. -/
abbrev oBlk (k : Fin k0_t1_loop.trips) : Memref sig .scVector .hbm S32768 .f32 :=
  (oW).slice (Rect.unit (s := S67108864) (k0_off1 L k) S32768.size (k0_off1_inb L k)) (fun _ => rfl)
abbrev xBlk (k : Fin k0_t1_loop.trips) : Memref sig .scVector .hbm S32768 .f32 :=
  (xW).slice (Rect.unit (s := S67108864) (k0_off1 L k) S32768.size (k0_off1_inb L k)) (fun _ => rfl)

theorem trips_lt (k : Fin k0_t1_loop.trips) : k.val < 64 := Nat.lt_of_lt_of_le k.isLt k0_t1_abs.2.1

theorem blockNo_L_lt (k : Fin k0_t1_loop.trips) : blockNo (L 0).val (L 1).val k.val < 2048 :=
  blockNo_lt (L 0).isLt (L 1).isLt (trips_lt k)

omit [FloatOps F] in
/-- The trip's rectangle is the part of the flat array its block number names: the printed offset is `32768` times it. -/
theorem rect_eq (k : Fin k0_t1_loop.trips) :
    Rect.unit (s := S67108864) (k0_off1 L k) S32768.size (k0_off1_inb L k) = blockR ⟨blockNo (L 0).val (L 1).val k.val, blockNo_L_lt L k⟩ := by
  unfold blockR Rect.part Rect.block
  congr 1 <;> funext a
  · rw [k0_off1_eq]
    match a with
    | 0 => simp [Shape.partIx, Shape.partSize, blockNo]; omega
  · match a with
    | 0 => simp [Shape.partSize]

omit [FloatOps F] in
theorem set_oBlk (k : Fin k0_t1_loop.trips) : (oBlk L k).view.set = blockSetN (blockNo (L 0).val (L 1).val k.val) := by
  rw [blockSetN_eq (blockNo_L_lt L k)]
  show ((View.whole (main_v1_scv : Ref sig .scVector)).slice (Rect.unit (s := S67108864) (k0_off1 L k) S32768.size (k0_off1_inb L k))).set = _
  rw [View.set_slice, rect_eq]; exact Finset.map_refl

omit [FloatOps F] in
theorem pts_oBlk (k : Fin k0_t1_loop.trips) (f : Buf (Elt F) (oLoc d)) :
    ((oBlk L k).view.loc (thr d L) ↦[(oBlk L k).view.set]{fullShare} f : sProp 𝕄)
      = oLoc d ↦[blockSetN (blockNo (L 0).val (L 1).val k.val)]{fullShare} f := by
  rw [set_oBlk]

/-- The block of the flat input the subcore has in its scratch at trip `k`. -/
abbrev blkIn (k : Fin k0_t1_loop.trips) : Vec F S32768 .f32 := (xBlk L k).view.read (Elt F) (X d)

/-- Once every chunk is done and the out scratch is copied out, the trip's block of the flat result is the specification's:
    word `y` of the block is the permuted input block's word `y`, the input block is the flat input from the block's first
    word on, and the block starts at a multiple of 2048 words, so rows and columns of the block are rows and columns of
    the flat arrays. -/
theorem block_value (k : Fin k0_t1_loop.trips) (fv : S2048.Idx → BitVec 32) (hfv : ∀ j, fv j = m (pLoc d) j)
    (fo2 : S32768.Idx → Elt F .f32) (hdone : ChunkDone (F := F) fv (blkIn X d L k) fo2 128)
    (w : S32768.Idx → Elt F .f32) (hw : ∀ y, w y = fo2 y) :
    ∀ i ∈ (oBlk L k).view.set, ((oBlk L k).view.writes (Elt F) (m (oLoc d)) [⟨Rect.whole S32768, w⟩]) i = G m X d i := by
  intro i hi
  obtain ⟨y, -, rfl⟩ := Finset.mem_map.mp hi
  have hy0 : (y 0).val < 32768 := (y 0).isLt
  -- the whole rectangle embeds an index as itself
  have hye : (Rect.whole S32768).emb y = y := funext fun (a : Fin 1) => Fin.ext (by
    obtain rfl : a = 0 := Subsingleton.elim _ _
    show 0 + 1 * (y 0).val = (y 0).val
    simp)
  -- after the write the block's word `y` is the out scratch's
  have h1 := View.read_writes_cons_emb (oBlk L k).view (m (oLoc d)) (Rect.whole S32768) w [] y
  rw [hye, View.read_apply, cast_eq] at h1
  refine h1.trans ?_
  rw [hw, hdone y (by omega)]
  unfold rowG G permFlat blkIn
  rw [View.read_apply, cast_eq]
  refine congrArg (X d) (funext fun (a : Fin 1) => Fin.ext ?_)
  obtain rfl : a = 0 := Subsingleton.elim _ _
  -- the block's first word, a multiple of 2048
  have hoff : k0_off1 L k 0 = 4194304 * (L 1).val + 2097152 * (L 0).val + 32768 * k.val := by rw [k0_off1_eq]; rfl
  have hAB : BitVec.toNat (m (pLoc d) (ValueIdx.ix1 (n := 2048) ⟨(k0_off1 L k 0 + 1 * (y 0).val) % 2048, Nat.mod_lt _ (by decide)⟩))
      = (fv (ValueIdx.ix1 (n := 2048) ⟨(y 0).val % 2048, Nat.mod_lt _ (by decide)⟩)).toNat := by
    rw [hfv]
    refine congrArg (fun z => BitVec.toNat (m (pLoc d) z)) (congrArg (ValueIdx.ix1 (n := 2048)) (Fin.ext ?_))
    show (k0_off1 L k 0 + 1 * (y 0).val) % 2048 = (y 0).val % 2048
    rw [hoff]; omega
  show k0_off1 L k 0 + 1 * (2048 * ((y 0).val / 2048) + (fv (ValueIdx.ix1 (n := 2048) ⟨(y 0).val % 2048, Nat.mod_lt _ (by decide)⟩)).toNat % 2048)
    = (k0_off1 L k 0 + 1 * (y 0).val) / 2048 * 2048
      + BitVec.toNat (m (pLoc d) (ValueIdx.ix1 (n := 2048) ⟨(k0_off1 L k 0 + 1 * (y 0).val) % 2048, Nat.mod_lt _ (by decide)⟩)) % 2048
  rw [hAB, hoff]
  omega

end Cert.Proof.PermI

end
-- ==== Proof.TileI.lean ====
/-
  One vector subcore's task of the column permutation.

  The subcore first copies `p` whole into its scratch and waits for the copy. Then, for each of its 64 blocks: it copies
  the block of the flat input into the in scratch and waits; runs over the block's 128 chunks of 16 columns; copies the
  out scratch to the block of the flat result and waits. One copy is outstanding on a semaphore at a time, and the
  subcore touches neither end of a copy before its wait, so what a wait hands back is exactly what the copy moved.

  The loop over chunks keeps: `p` and the input block in their scratches, and the out scratch with columns below
  `16 j` of every row done (`ChunkDone`). A chunk loads its 16 words of `p`, and for each of the 16 rows gathers the
  input block at those words moved down by the row's 2048 words — in range, as every word of `p` is below 2048 — and
  stores the 16 gathered words at the row's columns `16 j … 16 j + 15`; the 16 stores are the pieces of `chunk_step`.

  The loop over blocks keeps: the read share of the flat input, `p` in its scratch at the launch's `p`, both
  semaphores at zero, and the subcore's blocks of the flat result — those of the trips before `k` at the
  specification, the rest as the launch left them (`outAt`). After the chunks the out scratch is the input block
  permuted row by row, and copied out it is the specification on the block (`block_value`).
-/
import proofs.«213035_g51874615001668_cont_8to1_c_141_4_alg».proof.Proof.CommonI
import proofs.«213035_g51874615001668_cont_8to1_c_141_4_alg».proof.Proof.ChunkI
import proofs.«213035_g51874615001668_cont_8to1_c_141_4_alg».proof.Proof.BlockI

noncomputable section

namespace Cert.Proof.PermI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (X : (d : Dev nD) → Buf (Elt F) (xLoc d))
variable [FloatOps F]

-- the kernel's memrefs, spelt as the body table passes them
local notation "xW" => (Memref.whole Cert.KernelIdeal.main_v0_scv : Memref Cert.KernelIdeal.sig Kind.scVector Space.hbm Cert.KernelIdeal.S67108864 EltTy.f32)
local notation "pW" => (Memref.whole Cert.KernelIdeal.main_arg1_scv : Memref Cert.KernelIdeal.sig Kind.scVector Space.hbm Cert.KernelIdeal.S2048 EltTy.i32)
local notation "oW" => (Memref.whole Cert.KernelIdeal.main_v1_scv : Memref Cert.KernelIdeal.sig Kind.scVector Space.hbm Cert.KernelIdeal.S67108864 EltTy.f32)
local notation "sP" => (Memref.whole Cert.KernelIdeal.cc0_scratch0 : Memref Cert.KernelIdeal.sig Kind.scVector Space.vmem Cert.KernelIdeal.S2048 EltTy.i32)
local notation "sI" => (Memref.whole Cert.KernelIdeal.cc0_scratch1 : Memref Cert.KernelIdeal.sig Kind.scVector Space.vmem Cert.KernelIdeal.S32768 EltTy.f32)
local notation "sO" => (Memref.whole Cert.KernelIdeal.cc0_scratch2 : Memref Cert.KernelIdeal.sig Kind.scVector Space.vmem Cert.KernelIdeal.S32768 EltTy.f32)

section Tile

variable (d : Dev nD) (L : grid0.Coords)

abbrev semIn : GSem nD τ sig := (thr d L, .dma cc0_scratch3.sem)
abbrev semOut : GSem nD τ sig := (thr d L, .dma cc0_scratch4.sem)
abbrev semP : GSem nD τ sig := (thr d L, .dma cc0_scoped0.sem)

omit [FloatOps F] in
theorem ownSems0_V :
    (ownSems0 (thr d L) : sProp 𝕄)
      = iprop(semVal (semIn d L) 0 ∗ semVal (semOut d L) 0 ∗ semVal (semP d L) 0
          ∗ bigSep ((((ownCells (thr d L)).erase (semIn d L)).erase (semOut d L)).erase (semP d L)) fun g => semVal g 0) := by
  unfold SparseCore.Cfg.ownSems0
  rw [SparseCore.bigSep_erase' ((mem_ownCells (g := semIn d L)).mpr ⟨rfl, by
      show (SemLoc.dma cc0_scratch3.sem : SemLoc sig).isScoped .scVector = true; decide⟩),
    SparseCore.bigSep_erase' (Finset.mem_erase.mpr ⟨by simp [semIn, semOut]; decide, (mem_ownCells (g := semOut d L)).mpr ⟨rfl, by
      show (SemLoc.dma cc0_scratch4.sem : SemLoc sig).isScoped .scVector = true; decide⟩⟩),
    SparseCore.bigSep_erase' (Finset.mem_erase.mpr ⟨by simp [semOut, semP]; decide, Finset.mem_erase.mpr ⟨by simp [semIn, semP]; decide,
      (mem_ownCells (g := semP d L)).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_x (q : PosShare TreeShare) (f : Buf (Elt F) (xLoc d)) :
    ((xW).view.loc (thr d L) ↦{q} f : sProp 𝕄) = xLoc d ↦{q} f := by
  simp only [Memref.view_whole, View.set_whole]
omit [FloatOps F] in
theorem pts_p (q : PosShare TreeShare) (f : Buf (Elt F) (pLoc d)) :
    ((pW).view.loc (thr d L) ↦{q} f : sProp 𝕄) = pLoc d ↦{q} f := by
  simp only [Memref.view_whole, View.set_whole]

omit [FloatOps F] in
theorem pts_sP (f : Buf (Elt F) ((thr d L).loc cc0_scratch0)) :
    ((sP).view.loc (thr d L) ↦{fullShare} f : sProp 𝕄) = (thr d L).loc cc0_scratch0 ↦{fullShare} f := rfl
omit [FloatOps F] in
theorem pts_sI (f : Buf (Elt F) ((thr d L).loc cc0_scratch1)) :
    ((sI).view.loc (thr d L) ↦{fullShare} f : sProp 𝕄) = (thr d L).loc cc0_scratch1 ↦{fullShare} f := rfl
omit [FloatOps F] in
theorem pts_sO (f : Buf (Elt F) ((thr d L).loc cc0_scratch2)) :
    ((sO).view.loc (thr d L) ↦{fullShare} f : sProp 𝕄) = (thr d L).loc cc0_scratch2 ↦{fullShare} f := rfl

/-! ### The loop over a block's chunks of 16 columns -/

/-- An indexed load that ends a program is the load of the whole scratch followed by the return of the gathered lanes. -/
theorem vectorLoadIdx_tail {s t : Shape} {e : EltTy} (c : Thread nD τ) (base : Memref sig c.2.kind .vmem s e) (idxs : Fin s.rank → IVec t 32)
    (h : ∀ a x, (idxs a x).toNat < s.size a) (hl : base.view.Loads) :
    (SparseCore.vectorLoadIdx base idxs h hl : Prog (TpuEff nD τ sig (Elt F) Λ₀ c.2) (Vec F t e))
      = .op (.load base (.whole s) (View.loadsAt_whole hl)) fun f => .ret (loadIdx f idxs h) := rfl

/-- Every gather index is inside the block scratch: a column number below 2048 plus a row offset of at most 15 rows. -/
theorem chk_ok (v : IVec S16 32) (hv : ∀ x, (v x).toNat < 2048) (c : BitVec 32) (hc : c.toNat ≤ 30720) :
    ∀ a x, ((![addi v (broadcast S16 c)] : Fin 1 → IVec S16 32) a x).toNat < S32768.size a := by
  intro a x
  obtain rfl : a = 0 := Subsingleton.elim _ _
  show (IntOp.addi (v x) c).toNat < 32768
  have h1 := hv x
  simp only [IntOp.addi, BitVec.toNat_add]
  omega

/-- Before chunk `j`: `p` and the input block in their scratches, the out scratch with its first `16 j` columns done. -/
def invI (fv : Buf (Elt F) ((sP).view.loc (thr d L))) (fin : Buf (Elt F) ((sI).view.loc (thr d L))) (j : Nat) (_ : PUnit) : sProp 𝕄 :=
  iprop(((sP).view.loc (thr d L) ↦{fullShare} fv) ∗ ((sI).view.loc (thr d L) ↦{fullShare} fin)
    ∗ ∃ fo, ((sO).view.loc (thr d L) ↦{fullShare} fo) ∗ ⌜ChunkDone (F := F) fv fin fo j⌝)

/-! ### The loop over the subcore's blocks -/

/-- The subcore's blocks of the flat result before trip `k`: those of the trips before it at the specification, the rest
    as the launch left them. -/
def outAt (k : ℕ) : sProp 𝕄 :=
  bigSep (Finset.range 64) fun k' => oLoc d ↦[blockSetN (blockNo (L 0).val (L 1).val k')]{fullShare} (if k' < k then G m X d else m (oLoc d))

/-- The other blocks at trip `k`. -/
def outRest (k : ℕ) : sProp 𝕄 :=
  bigSep ((Finset.range 64).erase k) fun k' => oLoc d ↦[blockSetN (blockNo (L 0).val (L 1).val k')]{fullShare} (if k' < k then G m X d else m (oLoc d))

omit [FloatOps F] in
/-- Before trip `k` its own block is as the launch left it; -/
theorem outAt_take (k : ℕ) (hk : k < 64) :
    outAt m X d L k = iprop((oLoc d ↦[blockSetN (blockNo (L 0).val (L 1).val k)]{fullShare} m (oLoc d)) ∗ outRest m X d L k) := by
  unfold outAt outRest
  rw [SparseCore.bigSep_erase' (Finset.mem_range.mpr hk), if_neg (Nat.lt_irrefl k)]

omit [FloatOps F] in
/-- and once it is at the specification the family is the next trip's. -/
theorem outAt_put (k : ℕ) (hk : k < 64) :
    iprop((oLoc d ↦[blockSetN (blockNo (L 0).val (L 1).val k)]{fullShare} G m X d) ∗ outRest m X d L k) = outAt m X d L (k + 1) := by
  unfold outAt outRest
  rw [SparseCore.bigSep_erase' (Finset.mem_range.mpr hk) (Φ := fun k' => oLoc d ↦[blockSetN (blockNo (L 0).val (L 1).val k')]{fullShare} (if k' < k + 1 then G m X d else m (oLoc d))),
    if_pos (Nat.lt_succ_self k)]
  congr 1
  refine bigSep_congr fun k' hk' => ?_
  have hne : k' ≠ k := (Finset.mem_erase.mp hk').1
  have : (k' < k) ↔ (k' < k + 1) := by omega
  simp only [this]

omit [FloatOps F] in
/-- Before the first trip every block is as the launch left it; after the last every block is at the specification. -/
theorem outAt_zero : outAt m X d L 0 = tileOut d (L 0).val (L 1).val (m (oLoc d)) := by
  unfold outAt tileOut
  exact bigSep_congr fun k' _ => by rw [if_neg (Nat.not_lt_zero k')]
omit [FloatOps F] in
theorem outAt_full : outAt m X d L 64 = tileOut d (L 0).val (L 1).val (G m X d) := by
  unfold outAt tileOut
  exact bigSep_congr fun k' hk' => by rw [if_pos (Finset.mem_range.mp hk')]

/-- Before trip `k` of the loop over blocks: the flat input (a read share), `p` in its scratch, the two block scratches at
    some contents, both semaphores at zero, the result's blocks (`outAt`), and what the subcore owes the launch. -/
def invO (O : CellTallies nD τ sig (HIx 1)) (W : Waits sig (HIx 1)) (k : Nat) (_ : PUnit) : sProp 𝕄 :=
  iprop(Transfers.MayWaits (thr d L) (none : HIx 1) O
    ∗ ((xW).view.loc (thr d L) ↦{qT (L 0).val (L 1).val} X d)
    ∗ (∃ fv, ((sP).view.loc (thr d L) ↦{fullShare} fv) ∗ ⌜∀ j, fv j = m (pLoc d) j⌝)
    ∗ (∃ f, (sI).view.loc (thr d L) ↦{fullShare} f)
    ∗ (∃ f, (sO).view.loc (thr d L) ↦{fullShare} f)
    ∗ semVal (semIn d L) 0 ∗ semVal (semOut d L) 0
    ∗ outAt m X d L k
    ∗ ∃ W', ⌜∀ p ∈ W', p ∈ W ∨ p.2 = none⌝ ∗ owes (thr d L) O W')

/-- The task on vector subcore `(L 0, L 1)` of device `d`. -/
theorem tile_body (hp : ∀ j, (m (pLoc d) j).toNat < 2048) : TileSpec m X d L := by
  intro O W hO
  have hF : (K (F := F)).Facts := facts
  simp only [cc0__permute_body_eq_skeleton]; unfold cc0__permute_body_skel
  rw [(K (F := F)).scopedBufs_V hF d (cV L) (jV L), SparseCore.Cfg.scopedSems0_V (Val := Elt F) d (cV L) (jV L), ownSems0_V, ownBufs_V]
  unfold forTile
  iintro ⟨#Hlv, -, ⟨Hx, Hp, Ho⟩, ⟨⟨%fp, Hsp⟩, ⟨%fi, Hsi⟩, ⟨%fo, Hso⟩, Hbufs⟩, ⟨HsemI, HsemO, HsemP, Hsems⟩, HO⟩
  ihave Hmw := ((K (F := F)).mayWaits_none (thr := thr d L) hO) $$ Hlv
  ihave Hx' := (Entails.of_eq (pts_x (F := F) d L _ _).symm) $$ Hx
  ihave Hp' := (Entails.of_eq (pts_p (F := F) d L _ _).symm) $$ Hp
  ihave Hsp' := (Entails.of_eq (pts_sP (F := F) d L _).symm) $$ Hsp
  ihave Hsi' := (Entails.of_eq (pts_sI (F := F) d L _).symm) $$ Hsi
  ihave Hso' := (Entails.of_eq (pts_sO (F := F) d L _).symm) $$ Hso
  sl_exec
  sl_for (invO m X d L O W) $$ [Hmw Hx' Hsp' Hsi' Hso' HsemI HsemO Ho HO]
  case region =>
    intro k _
    unfold invO
    iintro ⟨Hmw, Hx, ⟨%fv, Hsp, %hfv⟩, ⟨%fi', Hsi⟩, ⟨%fo', Hso⟩, HsemI, HsemO, Hout, %W', %hW', HO⟩
    ihave Hout' := (Entails.of_eq (outAt_take (F := F) m X d L k.val (trips_lt k))) $$ Hout
    icases Hout' with ⟨Hblk, Hrest⟩
    ihave Hob := (Entails.of_eq (pts_oBlk (F := F) d L k _).symm) $$ Hblk
    sl_exec
    have hfv' : ∀ i, (fv i).toNat < 2048 := fun i => (congrArg BitVec.toNat (hfv i)).trans_lt (hp i)
    sl_unfold_run_names
    have hwr : View.write (Elt F) (sI).view fi' (ReadAs.same.apply (blkIn X d L k)) Finset.univ = blkIn X d L k :=
      View.write_whole_univ cc0_scratch1 fi' _
    ihave Hsi2 := (Entails.of_eq (congrArg (fun w => ((sI).view.loc (thr d L) ↦{fullShare} w : sProp 𝕄)) hwr)) $$ Hsi
    sl_for (invI (F := F) d L fv (blkIn X d L k)) $$ [Hsp Hsi2 Hso]
    case region =>
      intro j _
      unfold invI
      iintro ⟨Hsp, Hsi, %foj, Hso, %hdone⟩
      sl_exec (disch := exact chk_ok _ (fun x => hfv' _) _ (by decide))
      iterate 16 ((first | sl_rw [SparseCore.vectorLoadIdx_bind (thr d L)] | sl_rw [vectorLoadIdx_tail (F := F) (thr d L)]); sl_exec (disch := exact chk_ok _ (fun x => hfv' _) _ (by decide)))
      sl_step
      isplitl [Hsp]; · iexact Hsp
      isplitl [Hsi]; · iexact Hsi
      iexists _; isplitl [Hso]; · iexact Hso
      ipureintro
      have hj128 : j.val < 128 := Nat.lt_of_lt_of_le j.isLt k0_t2_abs.2.1
      -- the chunk's 16 words of `p`, as the load reads them: words `16 j … 16 j + 15`
      have hv18 : ∀ x : S16.Idx, (View.readAt (Elt F) (sP).view (Rect.unit (s := S2048) (k0_off2 j) S16.size (k0_off2_inb j)).toLoadRect fv) x
          = fv (ValueIdx.ix1 (n := 2048) ⟨16 * j.val + (x 0).val, col_lt j.val _ hj128 (x 0).isLt⟩) := by
        intro x
        refine congrArg fv (funext fun (a : Fin 1) => Fin.ext ?_)
        obtain rfl : a = 0 := Subsingleton.elim _ _
        show k0_off2 j 0 + 1 * (x 0).val = 16 * j.val + (x 0).val
        rw [k0_off2_eq]; simp
      -- the input scratch read whole is the block
      have hfin : ∀ y, (View.readAt (Elt F) (sI).view (LoadRect.whole S32768) (View.read (Elt F) (xBlk L k).view (X d))) y = blkIn X d L k y := by
        intro y
        refine congrArg (blkIn X d L k) (funext fun (a : Fin 1) => Fin.ext ?_)
        obtain rfl : a = 0 := Subsingleton.elim _ _
        show 0 + 1 * (y 0).val = (y 0).val
        simp
      refine chunk_step (F := F) fv (blkIn X d L k) foj j.val hj128 hdone _ rfl ?_
      intro i
      fin_cases i
      · exact pieceAt_mk fv _ j.val 15 30720 hj128 (by decide) rfl _ _ (k0_off18_eq j) hfv' _ hv18 _ rfl _ hfin _
      · exact pieceAt_mk fv _ j.val 14 28672 hj128 (by decide) rfl _ _ (k0_off17_eq j) hfv' _ hv18 _ rfl _ hfin _
      · exact pieceAt_mk fv _ j.val 13 26624 hj128 (by decide) rfl _ _ (k0_off16_eq j) hfv' _ hv18 _ rfl _ hfin _
      · exact pieceAt_mk fv _ j.val 12 24576 hj128 (by decide) rfl _ _ (k0_off15_eq j) hfv' _ hv18 _ rfl _ hfin _
      · exact pieceAt_mk fv _ j.val 11 22528 hj128 (by decide) rfl _ _ (k0_off14_eq j) hfv' _ hv18 _ rfl _ hfin _
      · exact pieceAt_mk fv _ j.val 10 20480 hj128 (by decide) rfl _ _ (k0_off13_eq j) hfv' _ hv18 _ rfl _ hfin _
      · exact pieceAt_mk fv _ j.val 9 18432 hj128 (by decide) rfl _ _ (k0_off12_eq j) hfv' _ hv18 _ rfl _ hfin _
      · exact pieceAt_mk fv _ j.val 8 16384 hj128 (by decide) rfl _ _ (k0_off11_eq j) hfv' _ hv18 _ rfl _ hfin _
      · exact pieceAt_mk fv _ j.val 7 14336 hj128 (by decide) rfl _ _ (k0_off10_eq j) hfv' _ hv18 _ rfl _ hfin _
      · exact pieceAt_mk fv _ j.val 6 12288 hj128 (by decide) rfl _ _ (k0_off9_eq j) hfv' _ hv18 _ rfl _ hfin _
      · exact pieceAt_mk fv _ j.val 5 10240 hj128 (by decide) rfl _ _ (k0_off8_eq j) hfv' _ hv18 _ rfl _ hfin _
      · exact pieceAt_mk fv _ j.val 4 8192 hj128 (by decide) rfl _ _ (k0_off7_eq j) hfv' _ hv18 _ rfl _ hfin _
      · exact pieceAt_mk fv _ j.val 3 6144 hj128 (by decide) rfl _ _ (k0_off6_eq j) hfv' _ hv18 _ rfl _ hfin _
      · exact pieceAt_mk fv _ j.val 2 4096 hj128 (by decide) rfl _ _ (k0_off5_eq j) hfv' _ hv18 _ rfl _ hfin _
      · exact pieceAt_mk fv _ j.val 1 2048 hj128 (by decide) rfl _ _ (k0_off4_eq j) hfv' _ hv18 _ rfl _ hfin _
      · exact pieceAt_mk fv _ j.val 0 0 hj128 (by decide) rfl _ _ (k0_off3_eq j) hfv' _ hv18 _ rfl _ hfin _
    · unfold invI
      isplitl [Hsp]; · iexact Hsp
      isplitl [Hsi2]; · iexact Hsi2
      iexists _; isplitl [Hso]; · iexact Hso
      ipureintro
      intro y hy
      exact absurd hy (by omega)
    iintro %_ HI
    unfold invI
    icases HI with ⟨Hsp, Hsi, %fo2, Hso, %hdone2⟩
    sl_exec
    sl_unfold_run_names
    sl_step
    have htr2 : Scf.trips k0_t2_loop.lb k0_t2_loop.ub k0_t2_loop.st = 128 := by decide
    isplitl [Hmw]; · iexact Hmw
    isplitl [Hx]; · iexact Hx
    isplitl [Hsp]
    · iexists fv; isplitl [Hsp]; · iexact Hsp
      ipureintro; exact hfv
    isplitl [Hsi]; · iexists _; iexact Hsi
    isplitl [Hso]; · iexists _; iexact Hso
    isplitl [HsemI]; · iexact HsemI
    isplitl [HsemO]; · iexact HsemO
    isplitl [Hob Hrest]
    · ihave Hb := (Entails.of_eq ((pointsTo_congr (block_value (F := F) m X d L k fv hfv fo2 (htr2 ▸ hdone2)
        (ReadAs.same.apply (View.read (Elt F) (sO).view fo2)) (fun _ => rfl))).trans
        (pts_oBlk (F := F) d L k _))) $$ Hob
      iapply (Entails.of_eq (outAt_put (F := F) m X d L k.val (trips_lt k)))
      isplitl [Hb]; · iexact Hb
      iexact Hrest
    iexists _; isplitr
    swap
    · iexact HO
    · ipureintro; intro p hp
      rcases Finset.mem_insert.mp hp with rfl | hp
      · exact .inr rfl
      rcases Finset.mem_insert.mp hp with rfl | hp
      · exact .inr rfl
      · exact hW' p hp
  · unfold invO
    isplitl [Hmw]; · iexact Hmw
    isplitl [Hx']; · iexact Hx'
    isplitl [Hsp']
    · iexists _; isplitl [Hsp']; · iexact Hsp'
      ipureintro; intro j
      exact congrFun (View.write_whole_univ cc0_scratch0 fp (m (pLoc d))) j
    isplitl [Hsi']; · iexists _; iexact Hsi'
    isplitl [Hso']; · iexists _; iexact Hso'
    isplitl [HsemI]; · iexact HsemI
    isplitl [HsemO]; · iexact HsemO
    isplitl [Ho]
    · iapply (Entails.of_eq (outAt_zero (F := F) m X d L).symm); iexact Ho
    iexists _; isplitr
    swap
    · iexact HO
    · ipureintro; intro p hp
      rcases Finset.mem_insert.mp hp with rfl | hp
      · exact .inr rfl
      · exact .inl hp
  iintro %_ HI
  unfold invO
  have htr1 : Scf.trips k0_t1_loop.lb k0_t1_loop.ub k0_t1_loop.st = 64 := by decide
  icases HI with ⟨-, Hx, ⟨%fv, Hsp, -⟩, ⟨%fi2, Hsi⟩, ⟨%fo2, Hso⟩, HsemI, HsemO, Hout, %W', %hW', HO⟩
  sl_step
  isplitl [Hx Hp' Hout]
  · isplitl [Hx]; · iapply (Entails.of_eq (pts_x (F := F) d L _ _)); iexact Hx
    isplitl [Hp']; · iapply (Entails.of_eq (pts_p (F := F) d L _ _)); iexact Hp'
    iapply (Entails.of_eq (htr1 ▸ outAt_full (F := F) m X d L)); iexact Hout
  isplitl [Hsp Hsi Hso Hbufs]
  · isplitl [Hsp]; · iexists _; iexact Hsp
    isplitl [Hsi]; · iexists _; iexact Hsi
    isplitl [Hso]; · iexists _; iexact Hso
    iexact Hbufs
  isplitl [HsemI HsemO HsemP Hsems]
  · isplitl [HsemI]; · iexact HsemI
    isplitl [HsemO]; · iexact HsemO
    isplitl [HsemP]; · iexact HsemP
    iexact Hsems
  iexists W'; isplitr
  · ipureintro; exact hW'
  · iexact HO

end Tile

end Cert.Proof.PermI

end
-- ==== Proof.LaunchI.lean ====
/-
  The launch of the column permutation on the SparseCore: from one vector subcore's task (assumed here, `TileSpec`) to
  every weakly fair execution of the whole program.

  The TensorCore flattens `x`, hands each of the two SparseCores a read share of the flat input and of `p` and, outright,
  the 1024 blocks of the flat result its sixteen vector subcores write; each SparseCore deals its shares and blocks on to
  its subcores, sixty-four blocks each. The 2048 blocks tile the flat result, and block number `128 s + 64 c + k` runs over
  all of them exactly once as `c < 2`, `s < 16`, `k < 64` do; every block comes back at the one function the specification
  names, so the blocks join to the whole flat result at it. The TensorCore then reshapes the flat result and writes the
  constant. Last, the one index computation: the flattening sends `(r, j)` to `2048 r + j`, whose quotient and remainder by
  2048 are `r` and `j`, so reshaping the flat specification of the flattened `x` is the permutation of `x`'s columns.
-/
import proofs.«213035_g51874615001668_cont_8to1_c_141_4_alg».proof.Proof.CommonI
import Idealize.ShloMosaic.Lib.Pipeline.Value

noncomputable section

namespace Cert.Proof.PermI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.ValueIdx

variable {F : FTy → Type}

local notation "𝕄" => MT nD τ sig (HIx 1) (Elt F) ℕ UU ℕ

/-! ## The two reshapes, read at an index, and the value -/

theorem flat_lt (r : Fin 32768) (j : Fin 2048) : r.val * 2048 + j.val < 67108864 := by
  have := r.isLt; have := j.isLt; omega

/-- The flattening at flat index `2048 r + j` is entry `(r, j)`. -/
theorem flatten_apply {α : Type} (x : S32768x2048.Idx → α) (r : Fin 32768) (j : Fin 2048) :
    shapeCast S67108864 x shapeCasts_S32768x2048_S67108864 (ix1 (n := 67108864) ⟨r.val * 2048 + j.val, flat_lt r j⟩) = x (ix2 r j) := by
  refine shapeCast_apply _ _ _ (ix2 r j) ?_
  rw [Shape.rowMajor_val_two, Shape.rowMajor_val_one]
  rfl

/-- Entry `(r, j)` of the unflattening is flat entry `2048 r + j`. -/
theorem unflatten_apply {α : Type} (y : S67108864.Idx → α) (r : Fin 32768) (j : Fin 2048) :
    shapeCast S32768x2048 y shapeCasts_S67108864_S32768x2048 (ix2 r j) = y (ix1 (n := 67108864) ⟨r.val * 2048 + j.val, flat_lt r j⟩) := by
  refine shapeCast_apply _ _ _ (ix1 (n := 67108864) ⟨r.val * 2048 + j.val, flat_lt r j⟩) ?_
  rw [Shape.rowMajor_val_two, Shape.rowMajor_val_one]
  rfl

/-- THE VALUE: the flat specification of the flattened matrix, unflattened, is the permutation of the matrix's columns. -/
theorem unflatten_permFlat_flatten {α : Type} (x : S32768x2048.Idx → α) (p : S2048.Idx → BitVec 32) :
    shapeCast S32768x2048 (permFlat (shapeCast S67108864 x shapeCasts_S32768x2048_S67108864) p) shapeCasts_S67108864_S32768x2048
      = Cert.Proof.Spec.permCols x p := by
  funext i
  obtain ⟨r, j, rfl⟩ : ∃ (r : Fin 32768) (j : Fin 2048), i = ix2 r j := ⟨i 0, i 1, eq_ix2 i⟩
  rw [Cert.Proof.Spec.permCols_apply, unflatten_apply]
  have hr : (r.val * 2048 + j.val) / 2048 = r.val := by have := j.isLt; omega
  have hj : (ix1 (n := 2048) ⟨(r.val * 2048 + j.val) % 2048, Nat.mod_lt _ (by decide)⟩) = ix1 j :=
    congrArg ix1 (Fin.ext (by have := j.isLt; show (r.val * 2048 + j.val) % 2048 = j.val; omega))
  unfold permFlat
  refine Eq.trans (congrArg _ (congrArg ix1 (Fin.ext ?_))) (flatten_apply x r (Cert.Proof.Spec.col p j))
  show (r.val * 2048 + j.val) / 2048 * 2048 + (p (ix1 (n := 2048) ⟨(r.val * 2048 + j.val) % 2048, Nat.mod_lt _ (by decide)⟩)).toNat % 2048
    = r.val * 2048 + (Cert.Proof.Spec.col p j).val
  rw [hr, hj]
  rfl

/-! ## The flat input as the kernel finds it -/

/-- The flat input as the kernel finds it: @main's first reshape of `x`. -/
def Xof (m : (ℓ : Loc nD τ sig) → Buf (Elt F) ℓ) (d : Dev nD) : Buf (Elt F) (xLoc d) :=
  shapeCast S67108864 (m ((SparseCore.T d).loc main_arg0)) shapeCasts_S32768x2048_S67108864

section Launch

variable (m : (ℓ : Loc nD τ sig) → Buf (Elt F) ℓ) (ρ : Dev nD → PrngReg)

/-! ## One vector subcore's task, in the launch theorem's spelling -/

theorem defs₀_vector (c : Fin τ.nSC) (s : Fin τ.nSub) [FloatOps F] :
    defs₀ (F := F) (.scVector c s) 0 ()
      = SparseCore.onTile hcore0 hsub0 (fun c s => cc0__permute_body (coordsV c s)
          (Memref.whole main_v0_scv) (Memref.isWhole_whole _) (Memref.whole main_arg1_scv) (Memref.isWhole_whole _)
          (Memref.whole main_v1_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scoped0) ⟨⟩ c s := rfl

/-- A task that waits only on its own semaphores may also be said to wait on them or on the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (X : (d : Dev nD) → Buf (Elt F) (xLoc d))

/-- The task of vector subcore `i` of SparseCore `c` of the call's grid is the assumed one at the grid coordinates
    `(c, i)`: the SparseCore's and the subcore's numbers in the device are those coordinates. -/
theorem tileObl [FloatOps F] (htile : ∀ (d : Dev nD) (L : grid0.Coords), TileSpec m X d L) :
    (K (F := F)).TileObl (D (F := F)) 𝒱 (P m X) v₀ 0 := by
  intro d c i O W hO _ _
  simp only [show (P m X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) O W hO).trans (wp_mono frame _ _ fun _ => obl_post)

/-! ## A SparseCore's operands split among its sixteen vector subcores -/

/-- A family over the first `n` numbers, indexed by `Fin n` or by the range. -/
theorem bigSep_fin_range {n : ℕ} (Φ : ℕ → sProp 𝕄) :
    (bigSep (Finset.univ : Finset (Fin n)) fun i => Φ i.val) = bigSep (Finset.range n) Φ := by
  rw [← Nat.Iio_eq_range, ← Fin.map_valEmbedding_univ, bigSep_map]; rfl

/-- A SparseCore's read share splits into its subcores' sixteen tokens and a remainder, which waits inside the wand for
    the tokens to come back; the blocks are already grouped by subcore. -/
theorem vecSplit : (K (F := F)).VecSplit' (P m X) 0 := by
  intro d c
  show forCore m X d c.val (m (oLoc d)) ⊢ |={Set.univ}=> iprop(
      (bigSep (Finset.univ : Finset (Fin 16)) fun i => forTile m X d c.val i.val (m (oLoc d)))
      ∗ ((bigSep (Finset.univ : Finset (Fin 16)) fun i => forTile m X d c.val i.val (G m X d)) -∗ forCore m X d c.val (G m X d)))
  rw [bigSep_fin_range (F := F) (fun i => forTile m X d c.val i (m (oLoc d))), bigSep_fin_range (F := F) (fun i => forTile m X d c.val i (G m X d))]
  unfold forCore forTile
  rw [bigSep_sep', bigSep_sep', bigSep_sep', bigSep_sep']
  iintro ⟨Hx, Hp, Ho⟩
  ihave Hx' := (Transfers.pointsTo_toks_range (qC c.val) 16).1 $$ Hx
  icases Hx' with ⟨Hxd, Hxt⟩
  ihave Hp' := (Transfers.pointsTo_toks_range (qC c.val) 16).1 $$ Hp
  icases Hp' with ⟨Hpd, Hpt⟩
  imodintro
  isplitl [Hxt Hpt Ho]
  · isplitl [Hxt]; · iexact Hxt
    isplitl [Hpt]; · iexact Hpt
    iexact Ho
  iintro ⟨Hxt, Hpt, Ho⟩
  isplitl [Hxd Hxt]
  · iapply (Transfers.pointsTo_toks_range (qC c.val) 16).2
    isplitl [Hxd]; · iexact Hxd
    iexact Hxt
  isplitl [Hpd Hpt]
  · iapply (Transfers.pointsTo_toks_range (qC c.val) 16).2
    isplitl [Hpd]; · iexact Hpd
    iexact Hpt
  iexact Ho

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m X).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The flat result as its 2048 blocks, grouped by SparseCore, vector subcore and trip -/

/-- Block number `128 s + 64 c + k` as a function of the triple. -/
def blockOf (t : ℕ × ℕ × ℕ) : ℕ := blockNo t.1 t.2.1 t.2.2
abbrev triples : Finset (ℕ × ℕ × ℕ) := Finset.range 2 ×ˢ (Finset.range 16 ×ˢ Finset.range 64)

theorem mem_triples (t : ℕ × ℕ × ℕ) : t ∈ triples ↔ t.1 < 2 ∧ t.2.1 < 16 ∧ t.2.2 < 64 := by
  simp only [triples, Finset.mem_product, Finset.mem_range]

theorem blockOf_injOn : Set.InjOn blockOf (triples : Set (ℕ × ℕ × ℕ)) := by
  rintro ⟨c, s, k⟩ h ⟨c', s', k'⟩ h' e
  have h1 := (mem_triples _).1 (Finset.mem_coe.1 h)
  have h2 := (mem_triples _).1 (Finset.mem_coe.1 h')
  obtain ⟨rfl, rfl, rfl⟩ := blockNo_inj h1.1 h1.2.2 h2.1 h2.2.2 e
  rfl

/-- The triples' block numbers are exactly the numbers below 2048: `n` is the block of `(n / 64 mod 2, n / 128, n mod 64)`. -/
theorem image_blockOf : triples.image blockOf = Finset.range 2048 := by
  ext n
  rw [Finset.mem_image, Finset.mem_range]
  constructor
  · rintro ⟨t, ht, rfl⟩
    have := (mem_triples t).1 ht
    exact blockNo_lt this.1 this.2.1 this.2.2
  · intro hn
    refine ⟨(n / 64 % 2, n / 128, n % 64), (mem_triples _).2 ⟨show n / 64 % 2 < 2 by omega, show n / 128 < 16 by omega, show n % 64 < 64 by omega⟩, ?_⟩
    show 128 * (n / 128) + 64 * (n / 64 % 2) + n % 64 = n
    omega

theorem bigSep_blocks (Φ : ℕ → sProp 𝕄) :
    bigSep (Finset.range 2048) Φ
      = bigSep (Finset.range 2) fun c => bigSep (Finset.range 16) fun s => bigSep (Finset.range 64) fun k => Φ (blockNo c s k) := by
  rw [← image_blockOf, SparseCore.bigSep_image_of_injOn blockOf_injOn, SparseCore.bigSep_product]
  refine bigSep_congr fun c _ => ?_
  rw [SparseCore.bigSep_product]
  rfl

/-- The whole flat result is its 2048 blocks … -/
theorem oPts_fin (d : Dev nD) (f : Buf (Elt F) (oLoc d)) :
    (oLoc d ↦{fullShare} f : sProp 𝕄) = bigSep Finset.univ fun n : Fin 2048 => oLoc d ↦[blockSet n]{fullShare} f := by
  rw [← pointsTo_biUnion Finset.univ (ℓ := oLoc d) blockSet blocks_disjoint, blocks_cover]; try rfl

/-- … grouped as the two SparseCores' sixteen subcores' sixty-four. -/
theorem oPts_blocks (d : Dev nD) (f : Buf (Elt F) (oLoc d)) :
    (oLoc d ↦{fullShare} f : sProp 𝕄) = bigSep (Finset.range 2) fun c => bigSep (Finset.range 16) fun s => tileOut d c s f := by
  have h1 : (bigSep Finset.univ fun n : Fin 2048 => (oLoc d ↦[blockSet n]{fullShare} f : sProp 𝕄))
      = bigSep (Finset.range 2048) fun n : ℕ => (oLoc d ↦[blockSetN n]{fullShare} f : sProp 𝕄) := by
    rw [← bigSep_fin_range (F := F) (fun n : ℕ => (oLoc d ↦[blockSetN n]{fullShare} f : sProp 𝕄))]
    exact bigSep_congr fun n _ => by rw [blockSetN_eq n.isLt]
  rw [oPts_fin, h1, bigSep_blocks]
  rfl

/-! ## Read shares for the two SparseCores -/

theorem share_two {ℓ : Loc nD τ sig} {f : Buf (Elt F) ℓ} :
    (ℓ ↦{fullShare} f : sProp 𝕄) ⊣⊢ iprop((ℓ ↦{Transfers.shareDrop fullShare 2} f) ∗ (ℓ ↦{qC 0} f) ∗ ℓ ↦{qC 1} f) := by
  have h := Transfers.pointsTo_toks_range (ℓ := ℓ) (S := Finset.univ) (f := f) (Val := Elt F) (Ix := HIx 1) (Name := ℕ) (U := UU) (Lvl := ℕ) fullShare 2
  rw [show Finset.range 2 = {0, 1} from by decide, SparseCore.bigSep_insert' (by decide), bigSep_singleton] at h
  exact h

theorem oPts_blocks2 (d : Dev nD) (f : Buf (Elt F) (oLoc d)) :
    (oLoc d ↦{fullShare} f : sProp 𝕄)
      = iprop((bigSep (Finset.range 16) fun s => tileOut d 0 s f) ∗ bigSep (Finset.range 16) fun s => tileOut d 1 s f) := by
  rw [oPts_blocks, show Finset.range 2 = {0, 1} from by decide, SparseCore.bigSep_insert' (by decide), bigSep_singleton]

/-! ## @main on the TensorCore -/

abbrev a0Loc (d : Dev nD) : Loc nD τ sig := (SparseCore.T d).loc main_arg0
abbrev rLoc (d : Dev nD) : Loc nD τ sig := (SparseCore.T d).loc main_v2
abbrev cLoc (d : Dev nD) : Loc nD τ sig := (SparseCore.T d).loc main_c

abbrev a0' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev c' : DevRef τ sig := Proc.devRef .tc (main_c : Ref sig .tc)

/-- @main's three host operations: the flattening, the unflattening, the constant. -/
abbrev opIn : HloOp τ sig (Elt F) := StableHlo.reshape main_arg0 main_v0 rfl shapeCasts_S32768x2048_S67108864
abbrev opOut : HloOp τ sig (Elt F) := StableHlo.reshape main_v1 main_v2 rfl shapeCasts_S67108864_S32768x2048
abbrev opC : HloOp τ sig (Elt F) := StableHlo.nullary main_c (constantI S_ 32 0#32)

/-- The buffers each touches. -/
abbrev Sin : Finset (DevRef τ sig) := {a0', x'}
abbrev Sout : Finset (DevRef τ sig) := {o', r'}
abbrev Sc : Finset (DevRef τ sig) := {c'}

theorem hIn : (opIn (F := F)).bufs ⊆ Sin := show ({a0', x'} : Finset (DevRef τ sig)) ⊆ Sin by decide
theorem hOut : (opOut (F := F)).bufs ⊆ Sout := show ({o', r'} : Finset (DevRef τ sig)) ⊆ Sout by decide
theorem hC : (opC (F := F)).bufs ⊆ Sc := show ({c'} : Finset (DevRef τ sig)) ⊆ Sc by decide

theorem held_Sin (d : Dev nD) (W : Valuation τ sig (Elt F)) :
    (held (T d) Sin W : sProp 𝕄) = iprop((a0Loc d ↦{fullShare} W a0') ∗ xLoc d ↦{fullShare} W x') := by
  unfold held Sin
  rw [SparseCore.bigSep_insert' (by decide), bigSep_singleton]
theorem held_Sout (d : Dev nD) (W : Valuation τ sig (Elt F)) :
    (held (T d) Sout W : sProp 𝕄) = iprop((oLoc d ↦{fullShare} W o') ∗ rLoc d ↦{fullShare} W r') := by
  unfold held Sout
  rw [SparseCore.bigSep_insert' (by decide), bigSep_singleton]
theorem held_Sc (d : Dev nD) (W : Valuation τ sig (Elt F)) :
    (held (T d) Sc W : sProp 𝕄) = (cLoc d ↦{fullShare} W c') := by
  unfold held Sc
  rw [bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (pLoc d ↦{fullShare} W main_arg1) ∗ (xLoc d ↦{fullShare} W main_v0)
      ∗ (oLoc d ↦{fullShare} W main_v1) ∗ (rLoc d ↦{fullShare} W main_v2) ∗ cLoc d ↦{fullShare} W main_c) := by
  unfold unscopedBufs
  rw [show (Finset.univ.filter fun b : Ref sig .tc => ¬ b.isScoped) = {main_arg0, main_arg1, main_v0, main_v1, main_v2, main_c} by decide,
    SparseCore.bigSep_insert' (by decide), SparseCore.bigSep_insert' (by decide), SparseCore.bigSep_insert' (by decide),
    SparseCore.bigSep_insert' (by decide), SparseCore.bigSep_insert' (by decide), bigSep_singleton]

/-- The launch valuation; the same with the flat result at `g`. -/
def V0 (d : Dev nD) : Valuation τ sig (Elt F) := fun b => m (d, b)
def Vo (d : Dev nD) (g : Buf (Elt F) (oLoc d)) : Valuation τ sig (Elt F) := Function.update (V0 m d) o' g

theorem Vo_o (d : Dev nD) (g : Buf (Elt F) (oLoc d)) : Vo m d g o' = g := Function.update_self _ _ _
theorem Vo_r (d : Dev nD) (g : Buf (Elt F) (oLoc d)) : Vo m d g r' = m (rLoc d) := Function.update_of_ne (show r' ≠ o' by decide) _ _

/-- After the flattening: `x` as it was, the flat input at the flattening of `x`. -/
theorem held_in_after (d : Dev nD) :
    (held (T d) Sin ((opIn (F := F)).result (V0 m d)) : sProp 𝕄) = iprop((a0Loc d ↦{fullShare} m (a0Loc d)) ∗ xLoc d ↦{fullShare} Xof m d) := by
  rw [held_Sin, (opIn (F := F)).result_of_not_mem (V0 m d) (b := a0') (show a0' ∉ ({x'} : Finset (DevRef τ sig)) by decide),
    show (opIn (F := F)).result (V0 m d) x' = Xof m d from
      StableHlo.reshape_result main_arg0 main_v0 rfl shapeCasts_S32768x2048_S67108864 _ _ (V0 m d)]
  rfl

/-- After the unflattening: the result at the unflattening of the flat result. -/
theorem held_out_after (d : Dev nD) (g : Buf (Elt F) (oLoc d)) :
    (held (T d) Sout ((opOut (F := F)).result (Vo m d g)) : sProp 𝕄)
      = iprop((oLoc d ↦{fullShare} g) ∗ rLoc d ↦{fullShare} (shapeCast S32768x2048 g shapeCasts_S67108864_S32768x2048 : Buf (Elt F) (rLoc d))) := by
  rw [held_Sout, (opOut (F := F)).result_of_not_mem (Vo m d g) (b := o') (show o' ∉ ({r'} : Finset (DevRef τ sig)) by decide),
    show (opOut (F := F)).result (Vo m d g) r' = (shapeCast S32768x2048 (Vo m d g o') shapeCasts_S67108864_S32768x2048 : Buf (Elt F) (rLoc d)) from
      StableHlo.reshape_result main_v1 main_v2 rfl shapeCasts_S67108864_S32768x2048 _ _ (Vo m d g), Vo_o]

/-- After the constant. -/
theorem held_c_after (d : Dev nD) :
    (held (T d) Sc ((opC (F := F)).result (V0 m d)) : sProp 𝕄) = (cLoc d ↦{fullShare} (constantI S_ 32 0#32 : Buf (Elt F) (cLoc d))) := by
  rw [held_Sc, show (opC (F := F)).result (V0 m d) c' = (constantI S_ 32 0#32 : Buf (Elt F) (cLoc d)) from
    StableHlo.nullary_result main_c (constantI S_ 32 0#32) _ (V0 m d)]

/-- The two SparseCores' operands, spelt out. -/
theorem forCore_two (d : Dev nD) (X : (d : Dev nD) → Buf (Elt F) (xLoc d)) (f : Buf (Elt F) (oLoc d)) :
    (bigSep (Finset.univ : Finset (Fin 2)) fun c => forCore m X d c.val f)
      = iprop(((xLoc d ↦{qC 0} X d) ∗ (pLoc d ↦{qC 0} m (pLoc d)) ∗ bigSep (Finset.range 16) fun s => tileOut d 0 s f)
          ∗ ((xLoc d ↦{qC 1} X d) ∗ (pLoc d ↦{qC 1} m (pLoc d)) ∗ bigSep (Finset.range 16) fun s => tileOut d 1 s f)) := by
  rw [show (Finset.univ : Finset (Fin 2)) = {0, 1} by decide, SparseCore.bigSep_insert' (by decide), bigSep_singleton]
  rfl

/-- What the call takes for the two SparseCores, and what it hands back. -/
theorem st0_eq (d : Dev nD) (X : (d : Dev nD) → Buf (Elt F) (xLoc d)) :
    (bigSep Finset.univ fun c : Fin ((K (F := F)).nCore 0) => (P m X).st 0 d c)
      = iprop(((xLoc d ↦{qC 0} X d) ∗ (pLoc d ↦{qC 0} m (pLoc d)) ∗ bigSep (Finset.range 16) fun s => tileOut d 0 s (m (oLoc d)))
          ∗ ((xLoc d ↦{qC 1} X d) ∗ (pLoc d ↦{qC 1} m (pLoc d)) ∗ bigSep (Finset.range 16) fun s => tileOut d 1 s (m (oLoc d)))) :=
  forCore_two m d X (m (oLoc d))
theorem dn0_eq (d : Dev nD) (X : (d : Dev nD) → Buf (Elt F) (xLoc d)) :
    (bigSep Finset.univ fun c : Fin ((K (F := F)).nCore 0) => (P m X).dn 0 d c)
      = iprop(((xLoc d ↦{qC 0} X d) ∗ (pLoc d ↦{qC 0} m (pLoc d)) ∗ bigSep (Finset.range 16) fun s => tileOut d 0 s (G m X d))
          ∗ ((xLoc d ↦{qC 1} X d) ∗ (pLoc d ↦{qC 1} m (pLoc d)) ∗ bigSep (Finset.range 16) fun s => tileOut d 1 s (G m X d))) :=
  forCore_two m d X (G m X d)

/-- What @main leaves the claim: `x` and (a share of) `p` at their launch contents, the result at the unflattening of the
    flat specification, the second result at the constant. -/
abbrev FIN (d : Dev nD) : sProp 𝕄 :=
  iprop((a0Loc d ↦{fullShare} m (a0Loc d)) ∗ (pLoc d ↦{Transfers.shareDrop fullShare 2} m (pLoc d))
    ∗ (rLoc d ↦{fullShare} (shapeCast S32768x2048 (G m (Xof m) d) shapeCasts_S67108864_S32768x2048 : Buf (Elt F) (rLoc d)))
    ∗ cLoc d ↦{fullShare} (constantI S_ 32 0#32 : Buf (Elt F) (cLoc d)))

variable [FloatOps F]

/-- @main on device `d`'s TensorCore: the flattening; the call, each SparseCore handed its read shares and its 1024 blocks
    of the flat result and handing them back at the specification; the unflattening; the constant. -/
theorem hmain (κ : GSem nD τ sig → ℕ) (d : Dev nD) :
    iprop((K (F := F)).ctx EH (P m (Xof m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Hp, Hx, Ho, Hr, Hc⟩, -, -⟩, -⟩
  -- the flattening
  iapply (wp_hlo_within 𝒱 (SparseCore.T d) none Set.univ (op := opIn) (S := Sin) hIn (V := V0 m d)) $$ [Hb Ha0 Hx]
  · isplitl [Hb]; · iexact Hb
    rw [held_Sin]
    isplitl [Ha0]; · iexact Ha0
    iexact Hx
  iintro ⟨Hb, Hheld⟩
  ihave Hh := (Entails.of_eq (held_in_after (F := F) m d)) $$ Hheld
  icases Hh with ⟨Ha0, Hx⟩
  rw [wp_ret]; imodintro
  -- the call: a read share of the flat input and of `p` and 1024 blocks of the flat result to each SparseCore
  ihave Hx2 := (share_two (F := F)).1 $$ Hx
  icases Hx2 with ⟨-, Hx0, Hx1⟩
  ihave Hp2 := (share_two (F := F)).1 $$ Hp
  icases Hp2 with ⟨Hpd, Hp0, Hp1⟩
  ihave Ho2 := (Entails.of_eq (oPts_blocks2 (F := F) d _)) $$ Ho
  icases Ho2 with ⟨Ho0, Ho1⟩
  iapply ((K (F := F)).wp_run (D (F := F)) 𝒱 (EH := EH) (P := P m (Xof m)) κ d 0) $$ [Hst Hx0 Hx1 Hp0 Hp1 Ho0 Ho1 Hb Ha0 Hpd Hr Hc]
  isplitr; · iexact Hctx
  isplitl [Hst]; · iexact Hst
  isplitl [Hx0 Hx1 Hp0 Hp1 Ho0 Ho1]
  · rw [st0_eq]
    isplitl [Hx0 Hp0 Ho0]
    · isplitl [Hx0]; · iexact Hx0
      isplitl [Hp0]; · iexact Hp0
      iexact Ho0
    · isplitl [Hx1]; · iexact Hx1
      isplitl [Hp1]; · iexact Hp1
      iexact Ho1
  iintro ⟨Hst, Hdn⟩
  ihave Hdn' := (Entails.of_eq (dn0_eq (F := F) m d (Xof m))) $$ Hdn
  icases Hdn' with ⟨⟨-, -, Ho0⟩, -, -, Ho1⟩
  ihave Ho := (Entails.of_eq (oPts_blocks2 (F := F) d (G m (Xof m) d)).symm) $$ [Ho0 Ho1]
  · isplitl [Ho0]; · iexact Ho0
    iexact Ho1
  -- the unflattening
  iapply (wp_hlo_within 𝒱 (SparseCore.T d) none Set.univ (op := opOut) (S := Sout) hOut (V := Vo m d (G m (Xof m) d))) $$ [Hb Ho Hr]
  · isplitl [Hb]; · iexact Hb
    rw [held_Sout, Vo_o, Vo_r]
    isplitl [Ho]; · iexact Ho
    iexact Hr
  iintro ⟨Hb, Hheld⟩
  ihave Hh := (Entails.of_eq (held_out_after (F := F) m d _)) $$ Hheld
  icases Hh with ⟨-, Hr⟩
  rw [wp_ret]; imodintro
  -- the constant
  iapply (wp_hlo_within 𝒱 (SparseCore.T d) none Set.univ (op := opC) (S := Sc) hC (V := V0 m d)) $$ [Hb Hc]
  · isplitl [Hb]; · iexact Hb
    rw [held_Sc]
    iexact Hc
  iintro ⟨Hb, Hheld⟩
  ihave Hc := (Entails.of_eq (held_c_after (F := F) m d)) $$ Hheld
  rw [wp_ret]; imodintro; imodintro
  isplitl [Hst]; · iexact Hst
  isplitl [Ha0]; · iexact Ha0
  isplitl [Hpd]; · iexact Hpd
  isplitl [Hr]; · iexact Hr
  iexact Hc

/-- What the claim reads off the final memory of device `d`. -/
def fq (d : Dev nD) (s' : Phys nD τ sig (Elt F)) : Prop :=
  s'.mem.mem (rLoc d) = (shapeCast S32768x2048 (G m (Xof m) d) shapeCasts_S67108864_S32768x2048 : Buf (Elt F) (rLoc d))
  ∧ s'.mem.mem (cLoc d) = (constantI S_ 32 0#32 : Buf (Elt F) (cLoc d))
  ∧ s'.mem.mem (a0Loc d) = m (a0Loc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Ha0, Hp, Hr, Hc⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := pLoc d) (I := Finset.univ) (q := Transfers.shareDrop fullShare 2) (f := m (pLoc d)))) $$ [HSI Hp]
  · isplitl [HSI] <;> iassumption
  icases H with ⟨%h2, HSI, -⟩
  ihave H := (persistent_entails_right (SI_pointsTo_agree (st := s') (ℓ := rLoc d) (I := Finset.univ) (q := fullShare)
    (f := (shapeCast S32768x2048 (G m (Xof m) d) shapeCasts_S67108864_S32768x2048 : Buf (Elt F) (rLoc d))))) $$ [HSI Hr]
  · isplitl [HSI] <;> iassumption
  icases H with ⟨%h3, HSI, -⟩
  ihave H := (SI_pointsTo_agree (st := s') (ℓ := cLoc d) (I := Finset.univ) (q := fullShare) (f := (constantI S_ 32 0#32 : Buf (Elt F) (cLoc d)))) $$ [HSI Hc]
  · isplitl [HSI] <;> iassumption
  icases H with %h4
  ipureintro
  exact ⟨funext fun i => h3 i (Finset.mem_univ i), funext fun i => h4 i (Finset.mem_univ i),
    funext fun i => h1 i (Finset.mem_univ i), funext fun i => h2 i (Finset.mem_univ i)⟩

end Launch

/-! ## The program's run -/

variable [FloatOps F]

theorem run_main [∀ e, Nonempty (Elt F e)] (m : (ℓ : Loc nD τ sig) → Buf (Elt F) ℓ) (ρ : Dev nD → PrngReg)
    (htile : ∀ (d : Dev nD) (L : grid0.Coords), TileSpec m (Xof m) d L) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (Xof m)) facts v₀
    (fun q hq => match q with | 0 => nomatch hq)
    (fun q _ => match q with | 0 => tileObl m (Xof m) htile)
    (fun q _ => match q with | 0 => SparseCore.Cfg.VecSplit.of_plain (vecSplit m (Xof m)))
    m ρ main (fun _ => iprop(emp)) (FIN m) (u₀ (F := F)) (sep_elim_left.trans (hu₀ m (Xof m))) (hmain m ρ) (fq m) (hfin m) (QC m)
    (fun s' h c => ⟨(h c).1.trans (unflatten_permFlat_flatten _ _), (h c).2.1, (h c).2.2.1, (h c).2.2.2⟩)

end Cert.Proof.PermI

end
-- ==== Proof.CommonB.lean ====
/-
  A permutation of columns on the SparseCore: the set-up shared by the proofs about this program.

  The program flattens `x` (32768 rows of 2048 words) to one array of 67108864 words, runs one vector-subcore
  kernel on 2 SparseCores × 16 vector subcores, and reshapes the kernel's flat result back. Vector subcore `s` of
  SparseCore `c` owns the 64 consecutive blocks of 32768 words (16 rows) that start at block `128 s + 64 c`; for each
  block it copies the block in, permutes each of its 16 rows by `p`, and copies the block out. So word `j` of the
  flat result is word `(j / 2048) · 2048 + p (j mod 2048)` of the flat input (`permFlat`).

  Stated here: the 2048 output blocks as the parts of the flat array, which tile it; which block a subcore writes
  at which trip; the flat specification; and what the TensorCore's call hands each SparseCore and each vector
  subcore and takes back: a read share of the flat input and of `p` (each subcore reads `p` whole and its own
  blocks of the input) and, outright, the subcore's 64 blocks of the result — at the launch contents on the way
  in, at the specification on the way back.
-/
import proofs.«213035_g51874615001668_cont_8to1_c_141_4_alg».proof.Defs
import proofs.«213035_g51874615001668_cont_8to1_c_141_4_alg».proof.Proof.Gen.Kernel
import proofs.«213035_g51874615001668_cont_8to1_c_141_4_alg».proof.Proof.Gen.Kernel.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«213035_g51874615001668_cont_8to1_c_141_4_alg».proof.Proof.Spec

noncomputable section

namespace Cert.Proof.PermB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat input, `p`, the flat result: as locations of device `d`. -/
abbrev xLoc (d : Dev nD) : Loc nD τ sig := (SparseCore.T d).loc main_v0
abbrev pLoc (d : Dev nD) : Loc nD τ sig := (SparseCore.T d).loc main_arg1
abbrev oLoc (d : Dev nD) : Loc nD τ sig := (SparseCore.T d).loc main_v1

/-! ## The blocks of the flat result -/

theorem hdiv : 2048 ∣ S67108864.size 0 := ⟨32768, rfl⟩

/-- Block `n` of the flat array: words `32768 n` to `32768 n + 32767`. -/
abbrev blockR (n : Fin 2048) : Rect S67108864 := Rect.part (s := S67108864) (a₀ := 0) hdiv n
abbrev blockSet (n : Fin 2048) : Finset S67108864.Idx := (blockR n).set

theorem blocks_disjoint : ∀ i ∈ (Finset.univ : Finset (Fin 2048)), ∀ j ∈ (Finset.univ : Finset (Fin 2048)), i ≠ j → Disjoint (blockSet i) (blockSet j) :=
  fun _ _ _ _ h => Rect.part_disjoint hdiv h
theorem blocks_cover : (Finset.univ : Finset (Fin 2048)).biUnion blockSet = Finset.univ := Rect.biUnion_part hdiv

/-- The number of the block that vector subcore `s` of SparseCore `c` moves at trip `k`. -/
def blockNo (c s k : ℕ) : ℕ := 128 * s + 64 * c + k
theorem blockNo_lt {c s k : ℕ} (hc : c < 2) (hs : s < 16) (hk : k < 64) : blockNo c s k < 2048 := by unfold blockNo; omega
theorem blockNo_inj {c s k c' s' k' : ℕ} (hc : c < 2) (hk : k < 64) (hc' : c' < 2) (hk' : k' < 64)
    (h : blockNo c s k = blockNo c' s' k') : c = c' ∧ s = s' ∧ k = k' := by unfold blockNo at h; omega

/-! ## The specification on the flat arrays -/

theorem permFlat_lt (j r : ℕ) (hj : j < 67108864) (hr : r < 2048) : j / 2048 * 2048 + r < 67108864 := by omega

/-- Word `j` of the flat result is the word of the flat input in the same row (`j / 2048`) at the column `p` names for
    `j`'s column (`j mod 2048`); a word of `p` read modulo 2048, which changes nothing where it is below 2048. -/
def permFlat {α : Type} (X : S67108864.Idx → α) (p : S2048.Idx → BitVec 32) : S67108864.Idx → α :=
  fun j => X (ValueIdx.ix1 (n := 67108864) ⟨(j 0).val / 2048 * 2048 + (p (ValueIdx.ix1 (n := 2048) ⟨(j 0).val % 2048, Nat.mod_lt _ (by decide)⟩)).toNat % 2048,
    permFlat_lt _ _ (j 0).isLt (Nat.mod_lt _ (by decide))⟩)

/-! ## What the handshakes carry -/

variable (m : (ℓ : Loc nD τ sig) → Buf (Elt F) ℓ)
-- the flat input as the kernel finds it (what @main's first reshape wrote), per device
variable (X : (d : Dev nD) → Buf (Elt F) (xLoc d))

/-- The read share of SparseCore `c`, and of its vector subcore `i`: tokens split off the whole. -/
abbrev qC (c : ℕ) : PosShare TreeShare := Transfers.shareTokN fullShare c
abbrev qT (c i : ℕ) : PosShare TreeShare := Transfers.shareTokN (qC c) i

/-- Block number `n`'s words; nothing for a number that names no block. -/
def blockSetN (n : ℕ) : Finset S67108864.Idx := if h : n < 2048 then blockSet ⟨n, h⟩ else ∅
theorem blockSetN_eq {n : ℕ} (h : n < 2048) : blockSetN n = blockSet ⟨n, h⟩ := dif_pos h

/-- The flat result by the specification. -/
abbrev G (d : Dev nD) : Buf (Elt F) (oLoc d) := permFlat (X d) (m (pLoc d))

/-- The 64 blocks of the flat result that vector subcore `s` of SparseCore `c` writes, held outright at contents `f`. -/
def tileOut (d : Dev nD) (c s : ℕ) (f : Buf (Elt F) (oLoc d)) : sProp 𝕄 :=
  bigSep (Finset.range 64) fun k => oLoc d ↦[blockSetN (blockNo c s k)]{fullShare} f

/-- What a vector subcore is handed and hands back: its read shares of the flat input and of `p`, its blocks at `f`. -/
def forTile (d : Dev nD) (c s : ℕ) (f : Buf (Elt F) (oLoc d)) : sProp 𝕄 :=
  iprop((xLoc d ↦{qT c s} X d) ∗ (pLoc d ↦{qT c s} m (pLoc d)) ∗ tileOut d c s f)
/-- The same for a SparseCore: its read shares and its sixteen subcores' blocks. -/
def forCore (d : Dev nD) (c : ℕ) (f : Buf (Elt F) (oLoc d)) : sProp 𝕄 :=
  iprop((xLoc d ↦{qC c} X d) ∗ (pLoc d ↦{qC c} m (pLoc d)) ∗ bigSep (Finset.range 16) fun s => tileOut d c s f)

instance tileOut_storable (d : Dev nD) (c s : ℕ) (f : Buf (Elt F) (oLoc d)) : BI.Storable (upEmb : UEmb _ 𝕄) (tileOut d c s f) := by
  unfold tileOut; infer_instance
instance forTile_storable (d : Dev nD) (c s : ℕ) (f : Buf (Elt F) (oLoc d)) : BI.Storable (upEmb : UEmb _ 𝕄) (forTile m X d c s f) := by
  unfold forTile; infer_instance
instance forCore_storable (d : Dev nD) (c : ℕ) (f : Buf (Elt F) (oLoc d)) : BI.Storable (upEmb : UEmb _ 𝕄) (forCore m X d c f) := by
  unfold forCore; infer_instance

/-- The one call: in at the launch contents of the flat result, back at the specification. -/
def P : (K (F := F)).Pay (nD := nD) (Val := Elt F) (Name := ℕ) (U := UU) where
  st := fun _ d c => forCore m X d c.val (m (oLoc d))
  dn := fun _ d c => forCore m X d c.val (G m X d)
  go := fun _ d c i => forTile m X d c.val i.val (m (oLoc d))
  td := fun _ d c i => forTile m X d c.val i.val (G m X d)
  x := fun _ _ => iprop(emp)

instance P_storable : (P (F := F) m X).IsStorable where
  st _ d c := by unfold P; infer_instance
  dn _ d c := by unfold P; infer_instance
  go _ _ _ _ := by unfold P; infer_instance
  td _ _ _ _ := by unfold P; infer_instance

/-! ## A vector subcore's coordinates and thread -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## What one vector subcore's task does, and what the whole program leaves -/

/-- The task of vector subcore `(L 0, L 1)` of device `d`: from its read shares and its 64 blocks of the flat result as
    the launch left them, its scratch and its semaphores at zero, it ends with the blocks at the specification and
    everything else as it found it; it waits only on its own semaphores. -/
def TileSpec [FloatOps F] (d : Dev nD) (L : grid0.Coords) : Prop :=
  ∀ (O : CellTallies nD τ sig (HIx 1)) (W : Waits sig (HIx 1)), (∀ g, O g none = 0) →
    iprop(levAts (K (F := F)).L (K (F := F)).lev ∗ emp ∗ forTile m X d (L 0).val (L 1).val (m (oLoc d))
        ∗ scopedBufs (thr d L) ∗ scopedSems0 (thr d L) ∗ owes (thr d L) O W)
      ⊢ wp frame (wpE (defs₀ (F := F)) 𝒱₀ (thr d L) none) Set.univ
          (cc0__permute_body L (Memref.whole main_v0_scv) (Memref.isWhole_whole _) (Memref.whole main_arg1_scv) (Memref.isWhole_whole _)
            (Memref.whole main_v1_scv) (Memref.isWhole_whole _) (Memref.whole cc0_scratch0) (Memref.isWhole_whole _)
            (Memref.whole cc0_scratch1) (Memref.isWhole_whole _) (Memref.whole cc0_scratch2) (Memref.isWhole_whole _) cc0_scratch3 cc0_scratch4 cc0_scoped0)
          fun _ => iprop(forTile m X d (L 0).val (L 1).val (G m X d) ∗ scopedBufs (thr d L) ∗ scopedSems0 (thr d L)
            ∗ ∃ W', ⌜∀ p ∈ W', p ∈ W ∨ p.2 = none⌝ ∗ owes (thr d L) O W')

/-- What every execution ends with, on every device: the result the column permutation of the arguments, the second
    result the constant zero, the arguments unchanged. -/
def QC : PUnit × MemSt nD τ sig (Elt F) → Prop := fun r => ∀ c : Dev nD,
  r.2.mem ((SparseCore.T c).loc main_v2) = Cert.Proof.Spec.permCols (m ((SparseCore.T c).loc main_arg0)) (m ((SparseCore.T c).loc main_arg1))
  ∧ r.2.mem ((SparseCore.T c).loc main_c) = (constantI S_ 32 0#32)
  ∧ r.2.mem ((SparseCore.T c).loc main_arg0) = m ((SparseCore.T c).loc main_arg0)
  ∧ r.2.mem ((SparseCore.T c).loc main_arg1) = m ((SparseCore.T c).loc main_arg1)

end Cert.Proof.PermB

end
-- ==== Proof.ChunkB.lean ====
/-
  One chunk of the row permutation, as pure facts about lists of stores.

  A block is 16 rows of 2048 words, flat. Chunk `j` writes, in every row `r`, the 16 words at columns `16 j … 16 j + 15`:
  the word at column `c` is the row's word at column `p c`. Stated here: the block permuted row by row (`rowG`); what
  the out scratch holds after `j` chunks (`ChunkDone`: columns below `16 j` of every row are done); what one of a
  chunk's 16 stores is (`PieceAt`: the 16 words of row `r` from column `16 j`, holding `rowG` there); and that 16 such
  stores, one per row, take `ChunkDone j` to `ChunkDone (j + 1)`.
-/
import proofs.«213035_g51874615001668_cont_8to1_c_141_4_alg».proof.Proof.CommonB
import Idealize.ShloMosaic.Lib.Writes

noncomputable section

namespace Cert.Proof.PermB

open Cert.Kernel
open Idealize.ShloMosaic

variable {F : FTy → Type}

theorem rowG_lt (y r : ℕ) (hy : y < 32768) (hr : r < 2048) : 2048 * (y / 2048) + r < 32768 := by omega

/-- The block permuted row by row: word `y` is the word of `y`'s row (`y / 2048`) at the column `fv` names for `y`'s
    column (`y mod 2048`), a word of `fv` read modulo 2048. -/
def rowG (fv : S2048.Idx → BitVec 32) (fin : S32768.Idx → Elt F .f32) : S32768.Idx → Elt F .f32 :=
  fun y => fin (ValueIdx.ix1 (n := 32768) ⟨2048 * ((y 0).val / 2048) + (fv (ValueIdx.ix1 (n := 2048) ⟨(y 0).val % 2048, Nat.mod_lt _ (by decide)⟩)).toNat % 2048,
    rowG_lt _ _ (y 0).isLt (Nat.mod_lt _ (by decide))⟩)

/-- After `j` chunks the words at columns below `16 j` of every row are the permuted block's. -/
def ChunkDone (fv : S2048.Idx → BitVec 32) (fin fo : S32768.Idx → Elt F .f32) (j : ℕ) : Prop :=
  ∀ y : S32768.Idx, (y 0).val % 2048 < 16 * j → fo y = rowG (F := F) fv fin y

/-- A store of chunk `j` into row `r`: through the 16 words from column `16 j` of that row, of the permuted block's words there. -/
def PieceAt (fv : S2048.Idx → BitVec 32) (fin : S32768.Idx → Elt F .f32) (j r : ℕ) (p : View.Piece (Elt F) S32768 .f32) : Prop :=
  (∃ inb, p.1 = Rect.unit (s := S32768) ![16 * j + 2048 * r] S16.size inb) ∧ ∀ x, p.2 x = rowG (F := F) fv fin (p.1.emb x)

/-- The words a store of chunk `j` into row `r` covers: those of row `r` at columns `16 j … 16 j + 15`. -/
theorem PieceAt.mem_iff {fv : S2048.Idx → BitVec 32} {fin : S32768.Idx → Elt F .f32} {j r : ℕ} {p : View.Piece (Elt F) S32768 .f32}
    (h : PieceAt fv fin j r p) (y : S32768.Idx) : y ∈ p.1.set ↔ 16 * j + 2048 * r ≤ (y 0).val ∧ (y 0).val < 16 * j + 2048 * r + 16 := by
  obtain ⟨⟨inb, e⟩, -⟩ := h
  rw [e, Rect.mem_set_unit]
  constructor
  · intro h; exact h 0
  · intro h a; obtain rfl : a = 0 := Subsingleton.elim _ _; exact h

theorem col_lt (j x : ℕ) (hj : j < 128) (hx : x < 16) : 16 * j + x < 2048 := by omega

/-- One of a chunk's stores is a `PieceAt`: its rectangle starts at column `16 j` of row `r` (the printed offset in closed
    form), and its payload is the gather from the input block at the chunk's 16 words of `p`, each moved `r` rows down —
    lane `x` reads word `2048 r + p (16 j + x)`, which is the permuted block's word at `2048 r + 16 j + x`. -/
theorem pieceAt_mk (fv : S2048.Idx → BitVec 32) (fin : S32768.Idx → Elt F .f32) (j r c : ℕ) (hj : j < 128) (hr : r < 16) (hc : c = 2048 * r)
    (off : Fin 1 → ℕ) (inb : ∀ a, off a + S16.size a ≤ S32768.size a) (hoff : off = ![16 * j + c])
    (hfv : ∀ i, (fv i).toNat < 2048)
    (v18 : IVec S16 32) (hv18 : ∀ x : S16.Idx, v18 x = fv (ValueIdx.ix1 (n := 2048) ⟨16 * j + (x 0).val, col_lt j _ hj (x 0).isLt⟩))
    (v : IVec S16 32) (hv : v = addi v18 (broadcast S16 (BitVec.ofNat 32 c)))
    (fin' : Vec F S32768 .f32) (hfin : ∀ y, fin' y = fin y)
    (h : ∀ a x, ((![v] : Fin 1 → IVec S16 32) a x).toNat < S32768.size a) :
    PieceAt (F := F) fv fin j r ⟨Rect.unit (s := S32768) off S16.size inb, loadIdx fin' ![v] h⟩ := by
  subst hoff hv hc
  refine ⟨⟨inb, rfl⟩, fun x => ?_⟩
  have hx : (x 0).val < 16 := (x 0).isLt
  have hfx := hfv (ValueIdx.ix1 (n := 2048) ⟨16 * j + (x 0).val, col_lt j _ hj (x 0).isLt⟩)
  show fin' (idxAt _ h x) = _
  rw [hfin]
  unfold rowG
  congr 1
  funext a
  obtain rfl : a = 0 := Subsingleton.elim _ _
  apply Fin.ext
  have hvx : (v18 x).toNat < 2048 := by rw [hv18 x]; exact hfx
  have e1 : (16 * j + 2048 * r + 1 * (x 0).val) / 2048 = r := by omega
  have e2 : (16 * j + 2048 * r + 1 * (x 0).val) % 2048 = 16 * j + (x 0).val := by omega
  have e3 : fv (ValueIdx.ix1 (n := 2048) ⟨(16 * j + 2048 * r + 1 * (x 0).val) % 2048, Nat.mod_lt _ (by decide)⟩) = v18 x := by
    rw [hv18 x]; exact congrArg fv (congrArg (ValueIdx.ix1 (n := 2048)) (Fin.ext e2))
  show (IntOp.addi (v18 x) (BitVec.ofNat 32 (2048 * r))).toNat
    = 2048 * ((16 * j + 2048 * r + 1 * (x 0).val) / 2048)
      + (fv (ValueIdx.ix1 (n := 2048) ⟨(16 * j + 2048 * r + 1 * (x 0).val) % 2048, Nat.mod_lt _ (by decide)⟩)).toNat % 2048
  rw [e3, e1]
  simp only [IntOp.addi, BitVec.toNat_add, BitVec.toNat_ofNat]
  omega

local notation "vO" => Memref.view (Memref.whole Cert.Kernel.cc0_scratch2 : Memref Cert.Kernel.sig Kind.scVector Space.vmem Cert.Kernel.S32768 EltTy.f32)

/-- Sixteen stores of chunk `j`, one per row (the list's entry `i` into row `15 - i`), over a scratch whose columns below
    `16 j` are done leave its columns below `16 (j + 1)` done: a word at a column below `16 j` is under none of the
    stores; one at a column from `16 j` to `16 j + 15` is under its row's store, which holds the permuted block there. -/
theorem chunk_step (fv : S2048.Idx → BitVec 32) (fin fo : S32768.Idx → Elt F .f32) (j : ℕ) (hj : j < 128)
    (hdone : ChunkDone (F := F) fv fin fo j) (Lst : List (View.Piece (Elt F) S32768 .f32)) (hlen : Lst.length = 16)
    (hL : ∀ i : Fin 16, PieceAt fv fin j (15 - i.val) (Lst.get (i.cast hlen.symm))) :
    ChunkDone (F := F) fv fin ((Memref.whole cc0_scratch2 : Memref sig .scVector .vmem S32768 .f32).view.writes (Elt F) fo Lst) (j + 1) := by
  intro y hy
  have hy0 : (y 0).val < 32768 := (y 0).isLt
  show (Memref.whole cc0_scratch2 : Memref sig .scVector .vmem S32768 .f32).view.read (Elt F)
    ((Memref.whole cc0_scratch2 : Memref sig .scVector .vmem S32768 .f32).view.writes (Elt F) fo Lst) y = _
  by_cases hc : (y 0).val % 2048 < 16 * j
  · refine (View.read_writes_apply_of_forall_not_mem vO fo y Lst ?_).trans (hdone y hc)
    · intro p hp hmem
      obtain ⟨n, rfl⟩ := List.mem_iff_get.mp hp
      have hn : n.val < 16 := hlen ▸ n.isLt
      have h1 := ((hL ⟨n.val, hn⟩).mem_iff y).mp hmem
      simp only at h1
      omega
  · have hr : (y 0).val / 2048 < 16 := by omega
    have hpi := hL ⟨15 - (y 0).val / 2048, by omega⟩
    have e15 : 15 - (15 - (y 0).val / 2048) = (y 0).val / 2048 := by omega
    simp only [e15] at hpi
    refine View.read_writes_apply_of_pieces vO fo (rowG (F := F) fv fin) Lst (fun p hp x => ?_) y
      ⟨_, List.get_mem _ _, (hpi.mem_iff y).mpr ⟨by omega, by omega⟩⟩
    obtain ⟨n, rfl⟩ := List.mem_iff_get.mp hp
    have hn : n.val < 16 := hlen ▸ n.isLt
    exact (hL ⟨n.val, hn⟩).2 x

end Cert.Proof.PermB

end
-- ==== Proof.BlockB.lean ====
/-
  The blocks of the flat arrays as the kernel slices them, and what a finished block holds.
-/
import proofs.«213035_g51874615001668_cont_8to1_c_141_4_alg».proof.Proof.CommonB
import proofs.«213035_g51874615001668_cont_8to1_c_141_4_alg».proof.Proof.ChunkB

noncomputable section

namespace Cert.Proof.PermB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)
variable (X : (d : Dev nD) → Buf (Elt F) (xLoc d))
variable [FloatOps F]

local notation "xW" => (Memref.whole Cert.Kernel.main_v0_scv : Memref Cert.Kernel.sig Kind.scVector Space.hbm Cert.Kernel.S67108864 EltTy.f32)
local notation "oW" => (Memref.whole Cert.Kernel.main_v1_scv : Memref Cert.Kernel.sig Kind.scVector Space.hbm Cert.Kernel.S67108864 EltTy.f32)

variable (d : Dev nD) (L : grid0.Coords)

/-! ### The blocks as the kernel slices them -/

/-- The block of the flat result (and of the flat input) the subcore moves at trip `k`, as the program slices it. -/
abbrev oBlk (k : Fin k0_t1_loop.trips) : Memref sig .scVector .hbm S32768 .f32 :=
  (oW).slice (Rect.unit (s := S67108864) (k0_off1 L k) S32768.size (k0_off1_inb L k)) (fun _ => rfl)
abbrev xBlk (k : Fin k0_t1_loop.trips) : Memref sig .scVector .hbm S32768 .f32 :=
  (xW).slice (Rect.unit (s := S67108864) (k0_off1 L k) S32768.size (k0_off1_inb L k)) (fun _ => rfl)

theorem trips_lt (k : Fin k0_t1_loop.trips) : k.val < 64 := Nat.lt_of_lt_of_le k.isLt k0_t1_abs.2.1

theorem blockNo_L_lt (k : Fin k0_t1_loop.trips) : blockNo (L 0).val (L 1).val k.val < 2048 :=
  blockNo_lt (L 0).isLt (L 1).isLt (trips_lt k)

omit [FloatOps F] in
/-- The trip's rectangle is the part of the flat array its block number names: the printed offset is `32768` times it. -/
theorem rect_eq (k : Fin k0_t1_loop.trips) :
    Rect.unit (s := S67108864) (k0_off1 L k) S32768.size (k0_off1_inb L k) = blockR ⟨blockNo (L 0).val (L 1).val k.val, blockNo_L_lt L k⟩ := by
  unfold blockR Rect.part Rect.block
  congr 1 <;> funext a
  · rw [k0_off1_eq]
    match a with
    | 0 => simp [Shape.partIx, Shape.partSize, blockNo]; omega
  · match a with
    | 0 => simp [Shape.partSize]

omit [FloatOps F] in
theorem set_oBlk (k : Fin k0_t1_loop.trips) : (oBlk L k).view.set = blockSetN (blockNo (L 0).val (L 1).val k.val) := by
  rw [blockSetN_eq (blockNo_L_lt L k)]
  show ((View.whole (main_v1_scv : Ref sig .scVector)).slice (Rect.unit (s := S67108864) (k0_off1 L k) S32768.size (k0_off1_inb L k))).set = _
  rw [View.set_slice, rect_eq]; exact Finset.map_refl

omit [FloatOps F] in
theorem pts_oBlk (k : Fin k0_t1_loop.trips) (f : Buf (Elt F) (oLoc d)) :
    ((oBlk L k).view.loc (thr d L) ↦[(oBlk L k).view.set]{fullShare} f : sProp 𝕄)
      = oLoc d ↦[blockSetN (blockNo (L 0).val (L 1).val k.val)]{fullShare} f := by
  rw [set_oBlk]

/-- The block of the flat input the subcore has in its scratch at trip `k`. -/
abbrev blkIn (k : Fin k0_t1_loop.trips) : Vec F S32768 .f32 := (xBlk L k).view.read (Elt F) (X d)

/-- Once every chunk is done and the out scratch is copied out, the trip's block of the flat result is the specification's:
    word `y` of the block is the permuted input block's word `y`, the input block is the flat input from the block's first
    word on, and the block starts at a multiple of 2048 words, so rows and columns of the block are rows and columns of
    the flat arrays. -/
theorem block_value (k : Fin k0_t1_loop.trips) (fv : S2048.Idx → BitVec 32) (hfv : ∀ j, fv j = m (pLoc d) j)
    (fo2 : S32768.Idx → Elt F .f32) (hdone : ChunkDone (F := F) fv (blkIn X d L k) fo2 128)
    (w : S32768.Idx → Elt F .f32) (hw : ∀ y, w y = fo2 y) :
    ∀ i ∈ (oBlk L k).view.set, ((oBlk L k).view.writes (Elt F) (m (oLoc d)) [⟨Rect.whole S32768, w⟩]) i = G m X d i := by
  intro i hi
  obtain ⟨y, -, rfl⟩ := Finset.mem_map.mp hi
  have hy0 : (y 0).val < 32768 := (y 0).isLt
  -- the whole rectangle embeds an index as itself
  have hye : (Rect.whole S32768).emb y = y := funext fun (a : Fin 1) => Fin.ext (by
    obtain rfl : a = 0 := Subsingleton.elim _ _
    show 0 + 1 * (y 0).val = (y 0).val
    simp)
  -- after the write the block's word `y` is the out scratch's
  have h1 := View.read_writes_cons_emb (oBlk L k).view (m (oLoc d)) (Rect.whole S32768) w [] y
  rw [hye, View.read_apply, cast_eq] at h1
  refine h1.trans ?_
  rw [hw, hdone y (by omega)]
  unfold rowG G permFlat blkIn
  rw [View.read_apply, cast_eq]
  refine congrArg (X d) (funext fun (a : Fin 1) => Fin.ext ?_)
  obtain rfl : a = 0 := Subsingleton.elim _ _
  -- the block's first word, a multiple of 2048
  have hoff : k0_off1 L k 0 = 4194304 * (L 1).val + 2097152 * (L 0).val + 32768 * k.val := by rw [k0_off1_eq]; rfl
  have hAB : BitVec.toNat (m (pLoc d) (ValueIdx.ix1 (n := 2048) ⟨(k0_off1 L k 0 + 1 * (y 0).val) % 2048, Nat.mod_lt _ (by decide)⟩))
      = (fv (ValueIdx.ix1 (n := 2048) ⟨(y 0).val % 2048, Nat.mod_lt _ (by decide)⟩)).toNat := by
    rw [hfv]
    refine congrArg (fun z => BitVec.toNat (m (pLoc d) z)) (congrArg (ValueIdx.ix1 (n := 2048)) (Fin.ext ?_))
    show (k0_off1 L k 0 + 1 * (y 0).val) % 2048 = (y 0).val % 2048
    rw [hoff]; omega
  show k0_off1 L k 0 + 1 * (2048 * ((y 0).val / 2048) + (fv (ValueIdx.ix1 (n := 2048) ⟨(y 0).val % 2048, Nat.mod_lt _ (by decide)⟩)).toNat % 2048)
    = (k0_off1 L k 0 + 1 * (y 0).val) / 2048 * 2048
      + BitVec.toNat (m (pLoc d) (ValueIdx.ix1 (n := 2048) ⟨(k0_off1 L k 0 + 1 * (y 0).val) % 2048, Nat.mod_lt _ (by decide)⟩)) % 2048
  rw [hAB, hoff]
  omega

end Cert.Proof.PermB

end
-- ==== Proof.TileB.lean ====
/-
  One vector subcore's task of the column permutation.

  The subcore first copies `p` whole into its scratch and waits for the copy. Then, for each of its 64 blocks: it copies
  the block of the flat input into the in scratch and waits; runs over the block's 128 chunks of 16 columns; copies the
  out scratch to the block of the flat result and waits. One copy is outstanding on a semaphore at a time, and the
  subcore touches neither end of a copy before its wait, so what a wait hands back is exactly what the copy moved.

  The loop over chunks keeps: `p` and the input block in their scratches, and the out scratch with columns below
  `16 j` of every row done (`ChunkDone`). A chunk loads its 16 words of `p`, and for each of the 16 rows gathers the
  input block at those words moved down by the row's 2048 words — in range, as every word of `p` is below 2048 — and
  stores the 16 gathered words at the row's columns `16 j … 16 j + 15`; the 16 stores are the pieces of `chunk_step`.

  The loop over blocks keeps: the read share of the flat input, `p` in its scratch at the launch's `p`, both
  semaphores at zero, and the subcore's blocks of the flat result — those of the trips before `k` at the
  specification, the rest as the launch left them (`outAt`). After the chunks the out scratch is the input block
  permuted row by row, and copied out it is the specification on the block (`block_value`).
-/
import proofs.«213035_g51874615001668_cont_8to1_c_141_4_alg».proof.Proof.CommonB
import proofs.«213035_g51874615001668_cont_8to1_c_141_4_alg».proof.Proof.ChunkB
import proofs.«213035_g51874615001668_cont_8to1_c_141_4_alg».proof.Proof.BlockB

noncomputable section

namespace Cert.Proof.PermB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable (X : (d : Dev nD) → Buf (Elt F) (xLoc d))
variable [FloatOps F]

-- the kernel's memrefs, spelt as the body table passes them
local notation "xW" => (Memref.whole Cert.Kernel.main_v0_scv : Memref Cert.Kernel.sig Kind.scVector Space.hbm Cert.Kernel.S67108864 EltTy.f32)
local notation "pW" => (Memref.whole Cert.Kernel.main_arg1_scv : Memref Cert.Kernel.sig Kind.scVector Space.hbm Cert.Kernel.S2048 EltTy.i32)
local notation "oW" => (Memref.whole Cert.Kernel.main_v1_scv : Memref Cert.Kernel.sig Kind.scVector Space.hbm Cert.Kernel.S67108864 EltTy.f32)
local notation "sP" => (Memref.whole Cert.Kernel.cc0_scratch0 : Memref Cert.Kernel.sig Kind.scVector Space.vmem Cert.Kernel.S2048 EltTy.i32)
local notation "sI" => (Memref.whole Cert.Kernel.cc0_scratch1 : Memref Cert.Kernel.sig Kind.scVector Space.vmem Cert.Kernel.S32768 EltTy.f32)
local notation "sO" => (Memref.whole Cert.Kernel.cc0_scratch2 : Memref Cert.Kernel.sig Kind.scVector Space.vmem Cert.Kernel.S32768 EltTy.f32)

section Tile

variable (d : Dev nD) (L : grid0.Coords)

abbrev semIn : GSem nD τ sig := (thr d L, .dma cc0_scratch3.sem)
abbrev semOut : GSem nD τ sig := (thr d L, .dma cc0_scratch4.sem)
abbrev semP : GSem nD τ sig := (thr d L, .dma cc0_scoped0.sem)

omit [FloatOps F] in
theorem ownSems0_V :
    (ownSems0 (thr d L) : sProp 𝕄)
      = iprop(semVal (semIn d L) 0 ∗ semVal (semOut d L) 0 ∗ semVal (semP d L) 0
          ∗ bigSep ((((ownCells (thr d L)).erase (semIn d L)).erase (semOut d L)).erase (semP d L)) fun g => semVal g 0) := by
  unfold SparseCore.Cfg.ownSems0
  rw [SparseCore.bigSep_erase' ((mem_ownCells (g := semIn d L)).mpr ⟨rfl, by
      show (SemLoc.dma cc0_scratch3.sem : SemLoc sig).isScoped .scVector = true; decide⟩),
    SparseCore.bigSep_erase' (Finset.mem_erase.mpr ⟨by simp [semIn, semOut]; decide, (mem_ownCells (g := semOut d L)).mpr ⟨rfl, by
      show (SemLoc.dma cc0_scratch4.sem : SemLoc sig).isScoped .scVector = true; decide⟩⟩),
    SparseCore.bigSep_erase' (Finset.mem_erase.mpr ⟨by simp [semOut, semP]; decide, Finset.mem_erase.mpr ⟨by simp [semIn, semP]; decide,
      (mem_ownCells (g := semP d L)).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem pts_x (q : PosShare TreeShare) (f : Buf (Elt F) (xLoc d)) :
    ((xW).view.loc (thr d L) ↦{q} f : sProp 𝕄) = xLoc d ↦{q} f := by
  simp only [Memref.view_whole, View.set_whole]
omit [FloatOps F] in
theorem pts_p (q : PosShare TreeShare) (f : Buf (Elt F) (pLoc d)) :
    ((pW).view.loc (thr d L) ↦{q} f : sProp 𝕄) = pLoc d ↦{q} f := by
  simp only [Memref.view_whole, View.set_whole]

omit [FloatOps F] in
theorem pts_sP (f : Buf (Elt F) ((thr d L).loc cc0_scratch0)) :
    ((sP).view.loc (thr d L) ↦{fullShare} f : sProp 𝕄) = (thr d L).loc cc0_scratch0 ↦{fullShare} f := rfl
omit [FloatOps F] in
theorem pts_sI (f : Buf (Elt F) ((thr d L).loc cc0_scratch1)) :
    ((sI).view.loc (thr d L) ↦{fullShare} f : sProp 𝕄) = (thr d L).loc cc0_scratch1 ↦{fullShare} f := rfl
omit [FloatOps F] in
theorem pts_sO (f : Buf (Elt F) ((thr d L).loc cc0_scratch2)) :
    ((sO).view.loc (thr d L) ↦{fullShare} f : sProp 𝕄) = (thr d L).loc cc0_scratch2 ↦{fullShare} f := rfl

/-! ### The loop over a block's chunks of 16 columns -/

/-- An indexed load that ends a program is the load of the whole scratch followed by the return of the gathered lanes. -/
theorem vectorLoadIdx_tail {s t : Shape} {e : EltTy} (c : Thread nD τ) (base : Memref sig c.2.kind .vmem s e) (idxs : Fin s.rank → IVec t 32)
    (h : ∀ a x, (idxs a x).toNat < s.size a) (hl : base.view.Loads) :
    (SparseCore.vectorLoadIdx base idxs h hl : Prog (TpuEff nD τ sig (Elt F) Λ₀ c.2) (Vec F t e))
      = .op (.load base (.whole s) (View.loadsAt_whole hl)) fun f => .ret (loadIdx f idxs h) := rfl

/-- Every gather index is inside the block scratch: a column number below 2048 plus a row offset of at most 15 rows. -/
theorem chk_ok (v : IVec S16 32) (hv : ∀ x, (v x).toNat < 2048) (c : BitVec 32) (hc : c.toNat ≤ 30720) :
    ∀ a x, ((![addi v (broadcast S16 c)] : Fin 1 → IVec S16 32) a x).toNat < S32768.size a := by
  intro a x
  obtain rfl : a = 0 := Subsingleton.elim _ _
  show (IntOp.addi (v x) c).toNat < 32768
  have h1 := hv x
  simp only [IntOp.addi, BitVec.toNat_add]
  omega

/-- Before chunk `j`: `p` and the input block in their scratches, the out scratch with its first `16 j` columns done. -/
def invI (fv : Buf (Elt F) ((sP).view.loc (thr d L))) (fin : Buf (Elt F) ((sI).view.loc (thr d L))) (j : Nat) (_ : PUnit) : sProp 𝕄 :=
  iprop(((sP).view.loc (thr d L) ↦{fullShare} fv) ∗ ((sI).view.loc (thr d L) ↦{fullShare} fin)
    ∗ ∃ fo, ((sO).view.loc (thr d L) ↦{fullShare} fo) ∗ ⌜ChunkDone (F := F) fv fin fo j⌝)

/-! ### The loop over the subcore's blocks -/

/-- The subcore's blocks of the flat result before trip `k`: those of the trips before it at the specification, the rest
    as the launch left them. -/
def outAt (k : ℕ) : sProp 𝕄 :=
  bigSep (Finset.range 64) fun k' => oLoc d ↦[blockSetN (blockNo (L 0).val (L 1).val k')]{fullShare} (if k' < k then G m X d else m (oLoc d))

/-- The other blocks at trip `k`. -/
def outRest (k : ℕ) : sProp 𝕄 :=
  bigSep ((Finset.range 64).erase k) fun k' => oLoc d ↦[blockSetN (blockNo (L 0).val (L 1).val k')]{fullShare} (if k' < k then G m X d else m (oLoc d))

omit [FloatOps F] in
/-- Before trip `k` its own block is as the launch left it; -/
theorem outAt_take (k : ℕ) (hk : k < 64) :
    outAt m X d L k = iprop((oLoc d ↦[blockSetN (blockNo (L 0).val (L 1).val k)]{fullShare} m (oLoc d)) ∗ outRest m X d L k) := by
  unfold outAt outRest
  rw [SparseCore.bigSep_erase' (Finset.mem_range.mpr hk), if_neg (Nat.lt_irrefl k)]

omit [FloatOps F] in
/-- and once it is at the specification the family is the next trip's. -/
theorem outAt_put (k : ℕ) (hk : k < 64) :
    iprop((oLoc d ↦[blockSetN (blockNo (L 0).val (L 1).val k)]{fullShare} G m X d) ∗ outRest m X d L k) = outAt m X d L (k + 1) := by
  unfold outAt outRest
  rw [SparseCore.bigSep_erase' (Finset.mem_range.mpr hk) (Φ := fun k' => oLoc d ↦[blockSetN (blockNo (L 0).val (L 1).val k')]{fullShare} (if k' < k + 1 then G m X d else m (oLoc d))),
    if_pos (Nat.lt_succ_self k)]
  congr 1
  refine bigSep_congr fun k' hk' => ?_
  have hne : k' ≠ k := (Finset.mem_erase.mp hk').1
  have : (k' < k) ↔ (k' < k + 1) := by omega
  simp only [this]

omit [FloatOps F] in
/-- Before the first trip every block is as the launch left it; after the last every block is at the specification. -/
theorem outAt_zero : outAt m X d L 0 = tileOut d (L 0).val (L 1).val (m (oLoc d)) := by
  unfold outAt tileOut
  exact bigSep_congr fun k' _ => by rw [if_neg (Nat.not_lt_zero k')]
omit [FloatOps F] in
theorem outAt_full : outAt m X d L 64 = tileOut d (L 0).val (L 1).val (G m X d) := by
  unfold outAt tileOut
  exact bigSep_congr fun k' hk' => by rw [if_pos (Finset.mem_range.mp hk')]

/-- Before trip `k` of the loop over blocks: the flat input (a read share), `p` in its scratch, the two block scratches at
    some contents, both semaphores at zero, the result's blocks (`outAt`), and what the subcore owes the launch. -/
def invO (O : CellTallies nD τ sig (HIx 1)) (W : Waits sig (HIx 1)) (k : Nat) (_ : PUnit) : sProp 𝕄 :=
  iprop(Transfers.MayWaits (thr d L) (none : HIx 1) O
    ∗ ((xW).view.loc (thr d L) ↦{qT (L 0).val (L 1).val} X d)
    ∗ (∃ fv, ((sP).view.loc (thr d L) ↦{fullShare} fv) ∗ ⌜∀ j, fv j = m (pLoc d) j⌝)
    ∗ (∃ f, (sI).view.loc (thr d L) ↦{fullShare} f)
    ∗ (∃ f, (sO).view.loc (thr d L) ↦{fullShare} f)
    ∗ semVal (semIn d L) 0 ∗ semVal (semOut d L) 0
    ∗ outAt m X d L k
    ∗ ∃ W', ⌜∀ p ∈ W', p ∈ W ∨ p.2 = none⌝ ∗ owes (thr d L) O W')

/-- The task on vector subcore `(L 0, L 1)` of device `d`. -/
theorem tile_body (hp : ∀ j, (m (pLoc d) j).toNat < 2048) : TileSpec m X d L := by
  intro O W hO
  have hF : (K (F := F)).Facts := facts
  simp only [cc0__permute_body_eq_skeleton]; unfold cc0__permute_body_skel
  rw [(K (F := F)).scopedBufs_V hF d (cV L) (jV L), SparseCore.Cfg.scopedSems0_V (Val := Elt F) d (cV L) (jV L), ownSems0_V, ownBufs_V]
  unfold forTile
  iintro ⟨#Hlv, -, ⟨Hx, Hp, Ho⟩, ⟨⟨%fp, Hsp⟩, ⟨%fi, Hsi⟩, ⟨%fo, Hso⟩, Hbufs⟩, ⟨HsemI, HsemO, HsemP, Hsems⟩, HO⟩
  ihave Hmw := ((K (F := F)).mayWaits_none (thr := thr d L) hO) $$ Hlv
  ihave Hx' := (Entails.of_eq (pts_x (F := F) d L _ _).symm) $$ Hx
  ihave Hp' := (Entails.of_eq (pts_p (F := F) d L _ _).symm) $$ Hp
  ihave Hsp' := (Entails.of_eq (pts_sP (F := F) d L _).symm) $$ Hsp
  ihave Hsi' := (Entails.of_eq (pts_sI (F := F) d L _).symm) $$ Hsi
  ihave Hso' := (Entails.of_eq (pts_sO (F := F) d L _).symm) $$ Hso
  sl_exec
  sl_for (invO m X d L O W) $$ [Hmw Hx' Hsp' Hsi' Hso' HsemI HsemO Ho HO]
  case region =>
    intro k _
    unfold invO
    iintro ⟨Hmw, Hx, ⟨%fv, Hsp, %hfv⟩, ⟨%fi', Hsi⟩, ⟨%fo', Hso⟩, HsemI, HsemO, Hout, %W', %hW', HO⟩
    ihave Hout' := (Entails.of_eq (outAt_take (F := F) m X d L k.val (trips_lt k))) $$ Hout
    icases Hout' with ⟨Hblk, Hrest⟩
    ihave Hob := (Entails.of_eq (pts_oBlk (F := F) d L k _).symm) $$ Hblk
    sl_exec
    have hfv' : ∀ i, (fv i).toNat < 2048 := fun i => (congrArg BitVec.toNat (hfv i)).trans_lt (hp i)
    sl_unfold_run_names
    have hwr : View.write (Elt F) (sI).view fi' (ReadAs.same.apply (blkIn X d L k)) Finset.univ = blkIn X d L k :=
      View.write_whole_univ cc0_scratch1 fi' _
    ihave Hsi2 := (Entails.of_eq (congrArg (fun w => ((sI).view.loc (thr d L) ↦{fullShare} w : sProp 𝕄)) hwr)) $$ Hsi
    sl_for (invI (F := F) d L fv (blkIn X d L k)) $$ [Hsp Hsi2 Hso]
    case region =>
      intro j _
      unfold invI
      iintro ⟨Hsp, Hsi, %foj, Hso, %hdone⟩
      sl_exec (disch := exact chk_ok _ (fun x => hfv' _) _ (by decide))
      iterate 16 ((first | sl_rw [SparseCore.vectorLoadIdx_bind (thr d L)] | sl_rw [vectorLoadIdx_tail (F := F) (thr d L)]); sl_exec (disch := exact chk_ok _ (fun x => hfv' _) _ (by decide)))
      sl_step
      isplitl [Hsp]; · iexact Hsp
      isplitl [Hsi]; · iexact Hsi
      iexists _; isplitl [Hso]; · iexact Hso
      ipureintro
      have hj128 : j.val < 128 := Nat.lt_of_lt_of_le j.isLt k0_t2_abs.2.1
      -- the chunk's 16 words of `p`, as the load reads them: words `16 j … 16 j + 15`
      have hv18 : ∀ x : S16.Idx, (View.readAt (Elt F) (sP).view (Rect.unit (s := S2048) (k0_off2 j) S16.size (k0_off2_inb j)).toLoadRect fv) x
          = fv (ValueIdx.ix1 (n := 2048) ⟨16 * j.val + (x 0).val, col_lt j.val _ hj128 (x 0).isLt⟩) := by
        intro x
        refine congrArg fv (funext fun (a : Fin 1) => Fin.ext ?_)
        obtain rfl : a = 0 := Subsingleton.elim _ _
        show k0_off2 j 0 + 1 * (x 0).val = 16 * j.val + (x 0).val
        rw [k0_off2_eq]; simp
      -- the input scratch read whole is the block
      have hfin : ∀ y, (View.readAt (Elt F) (sI).view (LoadRect.whole S32768) (View.read (Elt F) (xBlk L k).view (X d))) y = blkIn X d L k y := by
        intro y
        refine congrArg (blkIn X d L k) (funext fun (a : Fin 1) => Fin.ext ?_)
        obtain rfl : a = 0 := Subsingleton.elim _ _
        show 0 + 1 * (y 0).val = (y 0).val
        simp
      refine chunk_step (F := F) fv (blkIn X d L k) foj j.val hj128 hdone _ rfl ?_
      intro i
      fin_cases i
      · exact pieceAt_mk fv _ j.val 15 30720 hj128 (by decide) rfl _ _ (k0_off18_eq j) hfv' _ hv18 _ rfl _ hfin _
      · exact pieceAt_mk fv _ j.val 14 28672 hj128 (by decide) rfl _ _ (k0_off17_eq j) hfv' _ hv18 _ rfl _ hfin _
      · exact pieceAt_mk fv _ j.val 13 26624 hj128 (by decide) rfl _ _ (k0_off16_eq j) hfv' _ hv18 _ rfl _ hfin _
      · exact pieceAt_mk fv _ j.val 12 24576 hj128 (by decide) rfl _ _ (k0_off15_eq j) hfv' _ hv18 _ rfl _ hfin _
      · exact pieceAt_mk fv _ j.val 11 22528 hj128 (by decide) rfl _ _ (k0_off14_eq j) hfv' _ hv18 _ rfl _ hfin _
      · exact pieceAt_mk fv _ j.val 10 20480 hj128 (by decide) rfl _ _ (k0_off13_eq j) hfv' _ hv18 _ rfl _ hfin _
      · exact pieceAt_mk fv _ j.val 9 18432 hj128 (by decide) rfl _ _ (k0_off12_eq j) hfv' _ hv18 _ rfl _ hfin _
      · exact pieceAt_mk fv _ j.val 8 16384 hj128 (by decide) rfl _ _ (k0_off11_eq j) hfv' _ hv18 _ rfl _ hfin _
      · exact pieceAt_mk fv _ j.val 7 14336 hj128 (by decide) rfl _ _ (k0_off10_eq j) hfv' _ hv18 _ rfl _ hfin _
      · exact pieceAt_mk fv _ j.val 6 12288 hj128 (by decide) rfl _ _ (k0_off9_eq j) hfv' _ hv18 _ rfl _ hfin _
      · exact pieceAt_mk fv _ j.val 5 10240 hj128 (by decide) rfl _ _ (k0_off8_eq j) hfv' _ hv18 _ rfl _ hfin _
      · exact pieceAt_mk fv _ j.val 4 8192 hj128 (by decide) rfl _ _ (k0_off7_eq j) hfv' _ hv18 _ rfl _ hfin _
      · exact pieceAt_mk fv _ j.val 3 6144 hj128 (by decide) rfl _ _ (k0_off6_eq j) hfv' _ hv18 _ rfl _ hfin _
      · exact pieceAt_mk fv _ j.val 2 4096 hj128 (by decide) rfl _ _ (k0_off5_eq j) hfv' _ hv18 _ rfl _ hfin _
      · exact pieceAt_mk fv _ j.val 1 2048 hj128 (by decide) rfl _ _ (k0_off4_eq j) hfv' _ hv18 _ rfl _ hfin _
      · exact pieceAt_mk fv _ j.val 0 0 hj128 (by decide) rfl _ _ (k0_off3_eq j) hfv' _ hv18 _ rfl _ hfin _
    · unfold invI
      isplitl [Hsp]; · iexact Hsp
      isplitl [Hsi2]; · iexact Hsi2
      iexists _; isplitl [Hso]; · iexact Hso
      ipureintro
      intro y hy
      exact absurd hy (by omega)
    iintro %_ HI
    unfold invI
    icases HI with ⟨Hsp, Hsi, %fo2, Hso, %hdone2⟩
    sl_exec
    sl_unfold_run_names
    sl_step
    have htr2 : Scf.trips k0_t2_loop.lb k0_t2_loop.ub k0_t2_loop.st = 128 := by decide
    isplitl [Hmw]; · iexact Hmw
    isplitl [Hx]; · iexact Hx
    isplitl [Hsp]
    · iexists fv; isplitl [Hsp]; · iexact Hsp
      ipureintro; exact hfv
    isplitl [Hsi]; · iexists _; iexact Hsi
    isplitl [Hso]; · iexists _; iexact Hso
    isplitl [HsemI]; · iexact HsemI
    isplitl [HsemO]; · iexact HsemO
    isplitl [Hob Hrest]
    · ihave Hb := (Entails.of_eq ((pointsTo_congr (block_value (F := F) m X d L k fv hfv fo2 (htr2 ▸ hdone2)
        (ReadAs.same.apply (View.read (Elt F) (sO).view fo2)) (fun _ => rfl))).trans
        (pts_oBlk (F := F) d L k _))) $$ Hob
      iapply (Entails.of_eq (outAt_put (F := F) m X d L k.val (trips_lt k)))
      isplitl [Hb]; · iexact Hb
      iexact Hrest
    iexists _; isplitr
    swap
    · iexact HO
    · ipureintro; intro p hp
      rcases Finset.mem_insert.mp hp with rfl | hp
      · exact .inr rfl
      rcases Finset.mem_insert.mp hp with rfl | hp
      · exact .inr rfl
      · exact hW' p hp
  · unfold invO
    isplitl [Hmw]; · iexact Hmw
    isplitl [Hx']; · iexact Hx'
    isplitl [Hsp']
    · iexists _; isplitl [Hsp']; · iexact Hsp'
      ipureintro; intro j
      exact congrFun (View.write_whole_univ cc0_scratch0 fp (m (pLoc d))) j
    isplitl [Hsi']; · iexists _; iexact Hsi'
    isplitl [Hso']; · iexists _; iexact Hso'
    isplitl [HsemI]; · iexact HsemI
    isplitl [HsemO]; · iexact HsemO
    isplitl [Ho]
    · iapply (Entails.of_eq (outAt_zero (F := F) m X d L).symm); iexact Ho
    iexists _; isplitr
    swap
    · iexact HO
    · ipureintro; intro p hp
      rcases Finset.mem_insert.mp hp with rfl | hp
      · exact .inr rfl
      · exact .inl hp
  iintro %_ HI
  unfold invO
  have htr1 : Scf.trips k0_t1_loop.lb k0_t1_loop.ub k0_t1_loop.st = 64 := by decide
  icases HI with ⟨-, Hx, ⟨%fv, Hsp, -⟩, ⟨%fi2, Hsi⟩, ⟨%fo2, Hso⟩, HsemI, HsemO, Hout, %W', %hW', HO⟩
  sl_step
  isplitl [Hx Hp' Hout]
  · isplitl [Hx]; · iapply (Entails.of_eq (pts_x (F := F) d L _ _)); iexact Hx
    isplitl [Hp']; · iapply (Entails.of_eq (pts_p (F := F) d L _ _)); iexact Hp'
    iapply (Entails.of_eq (htr1 ▸ outAt_full (F := F) m X d L)); iexact Hout
  isplitl [Hsp Hsi Hso Hbufs]
  · isplitl [Hsp]; · iexists _; iexact Hsp
    isplitl [Hsi]; · iexists _; iexact Hsi
    isplitl [Hso]; · iexists _; iexact Hso
    iexact Hbufs
  isplitl [HsemI HsemO HsemP Hsems]
  · isplitl [HsemI]; · iexact HsemI
    isplitl [HsemO]; · iexact HsemO
    isplitl [HsemP]; · iexact HsemP
    iexact Hsems
  iexists W'; isplitr
  · ipureintro; exact hW'
  · iexact HO

end Tile

end Cert.Proof.PermB

end
-- ==== Proof.LaunchB.lean ====
/-
  The launch of the column permutation on the SparseCore: from one vector subcore's task (assumed here, `TileSpec`) to
  every weakly fair execution of the whole program.

  The TensorCore flattens `x`, hands each of the two SparseCores a read share of the flat input and of `p` and, outright,
  the 1024 blocks of the flat result its sixteen vector subcores write; each SparseCore deals its shares and blocks on to
  its subcores, sixty-four blocks each. The 2048 blocks tile the flat result, and block number `128 s + 64 c + k` runs over
  all of them exactly once as `c < 2`, `s < 16`, `k < 64` do; every block comes back at the one function the specification
  names, so the blocks join to the whole flat result at it. The TensorCore then reshapes the flat result and writes the
  constant. Last, the one index computation: the flattening sends `(r, j)` to `2048 r + j`, whose quotient and remainder by
  2048 are `r` and `j`, so reshaping the flat specification of the flattened `x` is the permutation of `x`'s columns.
-/
import proofs.«213035_g51874615001668_cont_8to1_c_141_4_alg».proof.Proof.CommonB
import Idealize.ShloMosaic.Lib.Pipeline.Value

noncomputable section

namespace Cert.Proof.PermB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.ValueIdx

variable {F : FTy → Type}

local notation "𝕄" => MT nD τ sig (HIx 1) (Elt F) ℕ UU ℕ

/-! ## The two reshapes, read at an index, and the value -/

theorem flat_lt (r : Fin 32768) (j : Fin 2048) : r.val * 2048 + j.val < 67108864 := by
  have := r.isLt; have := j.isLt; omega

/-- The flattening at flat index `2048 r + j` is entry `(r, j)`. -/
theorem flatten_apply {α : Type} (x : S32768x2048.Idx → α) (r : Fin 32768) (j : Fin 2048) :
    shapeCast S67108864 x shapeCasts_S32768x2048_S67108864 (ix1 (n := 67108864) ⟨r.val * 2048 + j.val, flat_lt r j⟩) = x (ix2 r j) := by
  refine shapeCast_apply _ _ _ (ix2 r j) ?_
  rw [Shape.rowMajor_val_two, Shape.rowMajor_val_one]
  rfl

/-- Entry `(r, j)` of the unflattening is flat entry `2048 r + j`. -/
theorem unflatten_apply {α : Type} (y : S67108864.Idx → α) (r : Fin 32768) (j : Fin 2048) :
    shapeCast S32768x2048 y shapeCasts_S67108864_S32768x2048 (ix2 r j) = y (ix1 (n := 67108864) ⟨r.val * 2048 + j.val, flat_lt r j⟩) := by
  refine shapeCast_apply _ _ _ (ix1 (n := 67108864) ⟨r.val * 2048 + j.val, flat_lt r j⟩) ?_
  rw [Shape.rowMajor_val_two, Shape.rowMajor_val_one]
  rfl

/-- THE VALUE: the flat specification of the flattened matrix, unflattened, is the permutation of the matrix's columns. -/
theorem unflatten_permFlat_flatten {α : Type} (x : S32768x2048.Idx → α) (p : S2048.Idx → BitVec 32) :
    shapeCast S32768x2048 (permFlat (shapeCast S67108864 x shapeCasts_S32768x2048_S67108864) p) shapeCasts_S67108864_S32768x2048
      = Cert.Proof.Spec.permCols x p := by
  funext i
  obtain ⟨r, j, rfl⟩ : ∃ (r : Fin 32768) (j : Fin 2048), i = ix2 r j := ⟨i 0, i 1, eq_ix2 i⟩
  rw [Cert.Proof.Spec.permCols_apply, unflatten_apply]
  have hr : (r.val * 2048 + j.val) / 2048 = r.val := by have := j.isLt; omega
  have hj : (ix1 (n := 2048) ⟨(r.val * 2048 + j.val) % 2048, Nat.mod_lt _ (by decide)⟩) = ix1 j :=
    congrArg ix1 (Fin.ext (by have := j.isLt; show (r.val * 2048 + j.val) % 2048 = j.val; omega))
  unfold permFlat
  refine Eq.trans (congrArg _ (congrArg ix1 (Fin.ext ?_))) (flatten_apply x r (Cert.Proof.Spec.col p j))
  show (r.val * 2048 + j.val) / 2048 * 2048 + (p (ix1 (n := 2048) ⟨(r.val * 2048 + j.val) % 2048, Nat.mod_lt _ (by decide)⟩)).toNat % 2048
    = r.val * 2048 + (Cert.Proof.Spec.col p j).val
  rw [hr, hj]
  rfl

/-! ## The flat input as the kernel finds it -/

/-- The flat input as the kernel finds it: @main's first reshape of `x`. -/
def Xof (m : (ℓ : Loc nD τ sig) → Buf (Elt F) ℓ) (d : Dev nD) : Buf (Elt F) (xLoc d) :=
  shapeCast S67108864 (m ((SparseCore.T d).loc main_arg0)) shapeCasts_S32768x2048_S67108864

section Launch

variable (m : (ℓ : Loc nD τ sig) → Buf (Elt F) ℓ) (ρ : Dev nD → PrngReg)

/-! ## One vector subcore's task, in the launch theorem's spelling -/

theorem defs₀_vector (c : Fin τ.nSC) (s : Fin τ.nSub) [FloatOps F] :
    defs₀ (F := F) (.scVector c s) 0 ()
      = SparseCore.onTile hcore0 hsub0 (fun c s => cc0__permute_body (coordsV c s)
          (Memref.whole main_v0_scv) (Memref.isWhole_whole _) (Memref.whole main_arg1_scv) (Memref.isWhole_whole _)
          (Memref.whole main_v1_scv) (Memref.isWhole_whole _) (Memref.whole cc0_scratch0) (Memref.isWhole_whole _)
          (Memref.whole cc0_scratch1) (Memref.isWhole_whole _) (Memref.whole cc0_scratch2) (Memref.isWhole_whole _)
          cc0_scratch3 cc0_scratch4 cc0_scoped0) ⟨⟩ c s := rfl

/-- A task that waits only on its own semaphores may also be said to wait on them or on the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (X : (d : Dev nD) → Buf (Elt F) (xLoc d))

/-- The task of vector subcore `i` of SparseCore `c` of the call's grid is the assumed one at the grid coordinates
    `(c, i)`: the SparseCore's and the subcore's numbers in the device are those coordinates. -/
theorem tileObl [FloatOps F] (htile : ∀ (d : Dev nD) (L : grid0.Coords), TileSpec m X d L) :
    (K (F := F)).TileObl (D (F := F)) 𝒱 (P m X) v₀ 0 := by
  intro d c i O W hO _ _
  simp only [show (P m X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) O W hO).trans (wp_mono frame _ _ fun _ => obl_post)

/-! ## A SparseCore's operands split among its sixteen vector subcores -/

/-- A family over the first `n` numbers, indexed by `Fin n` or by the range. -/
theorem bigSep_fin_range {n : ℕ} (Φ : ℕ → sProp 𝕄) :
    (bigSep (Finset.univ : Finset (Fin n)) fun i => Φ i.val) = bigSep (Finset.range n) Φ := by
  rw [← Nat.Iio_eq_range, ← Fin.map_valEmbedding_univ, bigSep_map]; rfl

/-- A SparseCore's read share splits into its subcores' sixteen tokens and a remainder, which waits inside the wand for
    the tokens to come back; the blocks are already grouped by subcore. -/
theorem vecSplit : (K (F := F)).VecSplit' (P m X) 0 := by
  intro d c
  show forCore m X d c.val (m (oLoc d)) ⊢ |={Set.univ}=> iprop(
      (bigSep (Finset.univ : Finset (Fin 16)) fun i => forTile m X d c.val i.val (m (oLoc d)))
      ∗ ((bigSep (Finset.univ : Finset (Fin 16)) fun i => forTile m X d c.val i.val (G m X d)) -∗ forCore m X d c.val (G m X d)))
  rw [bigSep_fin_range (F := F) (fun i => forTile m X d c.val i (m (oLoc d))), bigSep_fin_range (F := F) (fun i => forTile m X d c.val i (G m X d))]
  unfold forCore forTile
  rw [bigSep_sep', bigSep_sep', bigSep_sep', bigSep_sep']
  iintro ⟨Hx, Hp, Ho⟩
  ihave Hx' := (Transfers.pointsTo_toks_range (qC c.val) 16).1 $$ Hx
  icases Hx' with ⟨Hxd, Hxt⟩
  ihave Hp' := (Transfers.pointsTo_toks_range (qC c.val) 16).1 $$ Hp
  icases Hp' with ⟨Hpd, Hpt⟩
  imodintro
  isplitl [Hxt Hpt Ho]
  · isplitl [Hxt]; · iexact Hxt
    isplitl [Hpt]; · iexact Hpt
    iexact Ho
  iintro ⟨Hxt, Hpt, Ho⟩
  isplitl [Hxd Hxt]
  · iapply (Transfers.pointsTo_toks_range (qC c.val) 16).2
    isplitl [Hxd]; · iexact Hxd
    iexact Hxt
  isplitl [Hpd Hpt]
  · iapply (Transfers.pointsTo_toks_range (qC c.val) 16).2
    isplitl [Hpd]; · iexact Hpd
    iexact Hpt
  iexact Ho

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m X).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The flat result as its 2048 blocks, grouped by SparseCore, vector subcore and trip -/

/-- Block number `128 s + 64 c + k` as a function of the triple. -/
def blockOf (t : ℕ × ℕ × ℕ) : ℕ := blockNo t.1 t.2.1 t.2.2
abbrev triples : Finset (ℕ × ℕ × ℕ) := Finset.range 2 ×ˢ (Finset.range 16 ×ˢ Finset.range 64)

theorem mem_triples (t : ℕ × ℕ × ℕ) : t ∈ triples ↔ t.1 < 2 ∧ t.2.1 < 16 ∧ t.2.2 < 64 := by
  simp only [triples, Finset.mem_product, Finset.mem_range]

theorem blockOf_injOn : Set.InjOn blockOf (triples : Set (ℕ × ℕ × ℕ)) := by
  rintro ⟨c, s, k⟩ h ⟨c', s', k'⟩ h' e
  have h1 := (mem_triples _).1 (Finset.mem_coe.1 h)
  have h2 := (mem_triples _).1 (Finset.mem_coe.1 h')
  obtain ⟨rfl, rfl, rfl⟩ := blockNo_inj h1.1 h1.2.2 h2.1 h2.2.2 e
  rfl

/-- The triples' block numbers are exactly the numbers below 2048: `n` is the block of `(n / 64 mod 2, n / 128, n mod 64)`. -/
theorem image_blockOf : triples.image blockOf = Finset.range 2048 := by
  ext n
  rw [Finset.mem_image, Finset.mem_range]
  constructor
  · rintro ⟨t, ht, rfl⟩
    have := (mem_triples t).1 ht
    exact blockNo_lt this.1 this.2.1 this.2.2
  · intro hn
    refine ⟨(n / 64 % 2, n / 128, n % 64), (mem_triples _).2 ⟨show n / 64 % 2 < 2 by omega, show n / 128 < 16 by omega, show n % 64 < 64 by omega⟩, ?_⟩
    show 128 * (n / 128) + 64 * (n / 64 % 2) + n % 64 = n
    omega

theorem bigSep_blocks (Φ : ℕ → sProp 𝕄) :
    bigSep (Finset.range 2048) Φ
      = bigSep (Finset.range 2) fun c => bigSep (Finset.range 16) fun s => bigSep (Finset.range 64) fun k => Φ (blockNo c s k) := by
  rw [← image_blockOf, SparseCore.bigSep_image_of_injOn blockOf_injOn, SparseCore.bigSep_product]
  refine bigSep_congr fun c _ => ?_
  rw [SparseCore.bigSep_product]
  rfl

/-- The whole flat result is its 2048 blocks … -/
theorem oPts_fin (d : Dev nD) (f : Buf (Elt F) (oLoc d)) :
    (oLoc d ↦{fullShare} f : sProp 𝕄) = bigSep Finset.univ fun n : Fin 2048 => oLoc d ↦[blockSet n]{fullShare} f := by
  rw [← pointsTo_biUnion Finset.univ (ℓ := oLoc d) blockSet blocks_disjoint, blocks_cover]; try rfl

/-- … grouped as the two SparseCores' sixteen subcores' sixty-four. -/
theorem oPts_blocks (d : Dev nD) (f : Buf (Elt F) (oLoc d)) :
    (oLoc d ↦{fullShare} f : sProp 𝕄) = bigSep (Finset.range 2) fun c => bigSep (Finset.range 16) fun s => tileOut d c s f := by
  have h1 : (bigSep Finset.univ fun n : Fin 2048 => (oLoc d ↦[blockSet n]{fullShare} f : sProp 𝕄))
      = bigSep (Finset.range 2048) fun n : ℕ => (oLoc d ↦[blockSetN n]{fullShare} f : sProp 𝕄) := by
    rw [← bigSep_fin_range (F := F) (fun n : ℕ => (oLoc d ↦[blockSetN n]{fullShare} f : sProp 𝕄))]
    exact bigSep_congr fun n _ => by rw [blockSetN_eq n.isLt]
  rw [oPts_fin, h1, bigSep_blocks]
  rfl

/-! ## Read shares for the two SparseCores -/

theorem share_two {ℓ : Loc nD τ sig} {f : Buf (Elt F) ℓ} :
    (ℓ ↦{fullShare} f : sProp 𝕄) ⊣⊢ iprop((ℓ ↦{Transfers.shareDrop fullShare 2} f) ∗ (ℓ ↦{qC 0} f) ∗ ℓ ↦{qC 1} f) := by
  have h := Transfers.pointsTo_toks_range (ℓ := ℓ) (S := Finset.univ) (f := f) (Val := Elt F) (Ix := HIx 1) (Name := ℕ) (U := UU) (Lvl := ℕ) fullShare 2
  rw [show Finset.range 2 = {0, 1} from by decide, SparseCore.bigSep_insert' (by decide), bigSep_singleton] at h
  exact h

theorem oPts_blocks2 (d : Dev nD) (f : Buf (Elt F) (oLoc d)) :
    (oLoc d ↦{fullShare} f : sProp 𝕄)
      = iprop((bigSep (Finset.range 16) fun s => tileOut d 0 s f) ∗ bigSep (Finset.range 16) fun s => tileOut d 1 s f) := by
  rw [oPts_blocks, show Finset.range 2 = {0, 1} from by decide, SparseCore.bigSep_insert' (by decide), bigSep_singleton]

/-! ## @main on the TensorCore -/

abbrev a0Loc (d : Dev nD) : Loc nD τ sig := (SparseCore.T d).loc main_arg0
abbrev rLoc (d : Dev nD) : Loc nD τ sig := (SparseCore.T d).loc main_v2
abbrev cLoc (d : Dev nD) : Loc nD τ sig := (SparseCore.T d).loc main_c

abbrev a0' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev c' : DevRef τ sig := Proc.devRef .tc (main_c : Ref sig .tc)

/-- @main's three host operations: the flattening, the unflattening, the constant. -/
abbrev opIn : HloOp τ sig (Elt F) := StableHlo.reshape main_arg0 main_v0 rfl shapeCasts_S32768x2048_S67108864
abbrev opOut : HloOp τ sig (Elt F) := StableHlo.reshape main_v1 main_v2 rfl shapeCasts_S67108864_S32768x2048
abbrev opC : HloOp τ sig (Elt F) := StableHlo.nullary main_c (constantI S_ 32 0#32)

/-- The buffers each touches. -/
abbrev Sin : Finset (DevRef τ sig) := {a0', x'}
abbrev Sout : Finset (DevRef τ sig) := {o', r'}
abbrev Sc : Finset (DevRef τ sig) := {c'}

theorem hIn : (opIn (F := F)).bufs ⊆ Sin := show ({a0', x'} : Finset (DevRef τ sig)) ⊆ Sin by decide
theorem hOut : (opOut (F := F)).bufs ⊆ Sout := show ({o', r'} : Finset (DevRef τ sig)) ⊆ Sout by decide
theorem hC : (opC (F := F)).bufs ⊆ Sc := show ({c'} : Finset (DevRef τ sig)) ⊆ Sc by decide

theorem held_Sin (d : Dev nD) (W : Valuation τ sig (Elt F)) :
    (held (T d) Sin W : sProp 𝕄) = iprop((a0Loc d ↦{fullShare} W a0') ∗ xLoc d ↦{fullShare} W x') := by
  unfold held Sin
  rw [SparseCore.bigSep_insert' (by decide), bigSep_singleton]
theorem held_Sout (d : Dev nD) (W : Valuation τ sig (Elt F)) :
    (held (T d) Sout W : sProp 𝕄) = iprop((oLoc d ↦{fullShare} W o') ∗ rLoc d ↦{fullShare} W r') := by
  unfold held Sout
  rw [SparseCore.bigSep_insert' (by decide), bigSep_singleton]
theorem held_Sc (d : Dev nD) (W : Valuation τ sig (Elt F)) :
    (held (T d) Sc W : sProp 𝕄) = (cLoc d ↦{fullShare} W c') := by
  unfold held Sc
  rw [bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (pLoc d ↦{fullShare} W main_arg1) ∗ (xLoc d ↦{fullShare} W main_v0)
      ∗ (oLoc d ↦{fullShare} W main_v1) ∗ (rLoc d ↦{fullShare} W main_v2) ∗ cLoc d ↦{fullShare} W main_c) := by
  unfold unscopedBufs
  rw [show (Finset.univ.filter fun b : Ref sig .tc => ¬ b.isScoped) = {main_arg0, main_arg1, main_v0, main_v1, main_v2, main_c} by decide,
    SparseCore.bigSep_insert' (by decide), SparseCore.bigSep_insert' (by decide), SparseCore.bigSep_insert' (by decide),
    SparseCore.bigSep_insert' (by decide), SparseCore.bigSep_insert' (by decide), bigSep_singleton]

/-- The launch valuation; the same with the flat result at `g`. -/
def V0 (d : Dev nD) : Valuation τ sig (Elt F) := fun b => m (d, b)
def Vo (d : Dev nD) (g : Buf (Elt F) (oLoc d)) : Valuation τ sig (Elt F) := Function.update (V0 m d) o' g

theorem Vo_o (d : Dev nD) (g : Buf (Elt F) (oLoc d)) : Vo m d g o' = g := Function.update_self _ _ _
theorem Vo_r (d : Dev nD) (g : Buf (Elt F) (oLoc d)) : Vo m d g r' = m (rLoc d) := Function.update_of_ne (show r' ≠ o' by decide) _ _

/-- After the flattening: `x` as it was, the flat input at the flattening of `x`. -/
theorem held_in_after (d : Dev nD) :
    (held (T d) Sin ((opIn (F := F)).result (V0 m d)) : sProp 𝕄) = iprop((a0Loc d ↦{fullShare} m (a0Loc d)) ∗ xLoc d ↦{fullShare} Xof m d) := by
  rw [held_Sin, (opIn (F := F)).result_of_not_mem (V0 m d) (b := a0') (show a0' ∉ ({x'} : Finset (DevRef τ sig)) by decide),
    show (opIn (F := F)).result (V0 m d) x' = Xof m d from
      StableHlo.reshape_result main_arg0 main_v0 rfl shapeCasts_S32768x2048_S67108864 _ _ (V0 m d)]
  rfl

/-- After the unflattening: the result at the unflattening of the flat result. -/
theorem held_out_after (d : Dev nD) (g : Buf (Elt F) (oLoc d)) :
    (held (T d) Sout ((opOut (F := F)).result (Vo m d g)) : sProp 𝕄)
      = iprop((oLoc d ↦{fullShare} g) ∗ rLoc d ↦{fullShare} (shapeCast S32768x2048 g shapeCasts_S67108864_S32768x2048 : Buf (Elt F) (rLoc d))) := by
  rw [held_Sout, (opOut (F := F)).result_of_not_mem (Vo m d g) (b := o') (show o' ∉ ({r'} : Finset (DevRef τ sig)) by decide),
    show (opOut (F := F)).result (Vo m d g) r' = (shapeCast S32768x2048 (Vo m d g o') shapeCasts_S67108864_S32768x2048 : Buf (Elt F) (rLoc d)) from
      StableHlo.reshape_result main_v1 main_v2 rfl shapeCasts_S67108864_S32768x2048 _ _ (Vo m d g), Vo_o]

/-- After the constant. -/
theorem held_c_after (d : Dev nD) :
    (held (T d) Sc ((opC (F := F)).result (V0 m d)) : sProp 𝕄) = (cLoc d ↦{fullShare} (constantI S_ 32 0#32 : Buf (Elt F) (cLoc d))) := by
  rw [held_Sc, show (opC (F := F)).result (V0 m d) c' = (constantI S_ 32 0#32 : Buf (Elt F) (cLoc d)) from
    StableHlo.nullary_result main_c (constantI S_ 32 0#32) _ (V0 m d)]

/-- The two SparseCores' operands, spelt out. -/
theorem forCore_two (d : Dev nD) (X : (d : Dev nD) → Buf (Elt F) (xLoc d)) (f : Buf (Elt F) (oLoc d)) :
    (bigSep (Finset.univ : Finset (Fin 2)) fun c => forCore m X d c.val f)
      = iprop(((xLoc d ↦{qC 0} X d) ∗ (pLoc d ↦{qC 0} m (pLoc d)) ∗ bigSep (Finset.range 16) fun s => tileOut d 0 s f)
          ∗ ((xLoc d ↦{qC 1} X d) ∗ (pLoc d ↦{qC 1} m (pLoc d)) ∗ bigSep (Finset.range 16) fun s => tileOut d 1 s f)) := by
  rw [show (Finset.univ : Finset (Fin 2)) = {0, 1} by decide, SparseCore.bigSep_insert' (by decide), bigSep_singleton]
  rfl

/-- What the call takes for the two SparseCores, and what it hands back. -/
theorem st0_eq (d : Dev nD) (X : (d : Dev nD) → Buf (Elt F) (xLoc d)) :
    (bigSep Finset.univ fun c : Fin ((K (F := F)).nCore 0) => (P m X).st 0 d c)
      = iprop(((xLoc d ↦{qC 0} X d) ∗ (pLoc d ↦{qC 0} m (pLoc d)) ∗ bigSep (Finset.range 16) fun s => tileOut d 0 s (m (oLoc d)))
          ∗ ((xLoc d ↦{qC 1} X d) ∗ (pLoc d ↦{qC 1} m (pLoc d)) ∗ bigSep (Finset.range 16) fun s => tileOut d 1 s (m (oLoc d)))) :=
  forCore_two m d X (m (oLoc d))
theorem dn0_eq (d : Dev nD) (X : (d : Dev nD) → Buf (Elt F) (xLoc d)) :
    (bigSep Finset.univ fun c : Fin ((K (F := F)).nCore 0) => (P m X).dn 0 d c)
      = iprop(((xLoc d ↦{qC 0} X d) ∗ (pLoc d ↦{qC 0} m (pLoc d)) ∗ bigSep (Finset.range 16) fun s => tileOut d 0 s (G m X d))
          ∗ ((xLoc d ↦{qC 1} X d) ∗ (pLoc d ↦{qC 1} m (pLoc d)) ∗ bigSep (Finset.range 16) fun s => tileOut d 1 s (G m X d))) :=
  forCore_two m d X (G m X d)

/-- What @main leaves the claim: `x` and (a share of) `p` at their launch contents, the result at the unflattening of the
    flat specification, the second result at the constant. -/
abbrev FIN (d : Dev nD) : sProp 𝕄 :=
  iprop((a0Loc d ↦{fullShare} m (a0Loc d)) ∗ (pLoc d ↦{Transfers.shareDrop fullShare 2} m (pLoc d))
    ∗ (rLoc d ↦{fullShare} (shapeCast S32768x2048 (G m (Xof m) d) shapeCasts_S67108864_S32768x2048 : Buf (Elt F) (rLoc d)))
    ∗ cLoc d ↦{fullShare} (constantI S_ 32 0#32 : Buf (Elt F) (cLoc d)))

variable [FloatOps F]

/-- @main on device `d`'s TensorCore: the flattening; the call, each SparseCore handed its read shares and its 1024 blocks
    of the flat result and handing them back at the specification; the unflattening; the constant. -/
theorem hmain (κ : GSem nD τ sig → ℕ) (d : Dev nD) :
    iprop((K (F := F)).ctx EH (P m (Xof m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha0, Hp, Hx, Ho, Hr, Hc⟩, -, -⟩, -⟩
  -- the flattening
  iapply (wp_hlo_within 𝒱 (SparseCore.T d) none Set.univ (op := opIn) (S := Sin) hIn (V := V0 m d)) $$ [Hb Ha0 Hx]
  · isplitl [Hb]; · iexact Hb
    rw [held_Sin]
    isplitl [Ha0]; · iexact Ha0
    iexact Hx
  iintro ⟨Hb, Hheld⟩
  ihave Hh := (Entails.of_eq (held_in_after (F := F) m d)) $$ Hheld
  icases Hh with ⟨Ha0, Hx⟩
  rw [wp_ret]; imodintro
  -- the call: a read share of the flat input and of `p` and 1024 blocks of the flat result to each SparseCore
  ihave Hx2 := (share_two (F := F)).1 $$ Hx
  icases Hx2 with ⟨-, Hx0, Hx1⟩
  ihave Hp2 := (share_two (F := F)).1 $$ Hp
  icases Hp2 with ⟨Hpd, Hp0, Hp1⟩
  ihave Ho2 := (Entails.of_eq (oPts_blocks2 (F := F) d _)) $$ Ho
  icases Ho2 with ⟨Ho0, Ho1⟩
  iapply ((K (F := F)).wp_run (D (F := F)) 𝒱 (EH := EH) (P := P m (Xof m)) κ d 0) $$ [Hst Hx0 Hx1 Hp0 Hp1 Ho0 Ho1 Hb Ha0 Hpd Hr Hc]
  isplitr; · iexact Hctx
  isplitl [Hst]; · iexact Hst
  isplitl [Hx0 Hx1 Hp0 Hp1 Ho0 Ho1]
  · rw [st0_eq]
    isplitl [Hx0 Hp0 Ho0]
    · isplitl [Hx0]; · iexact Hx0
      isplitl [Hp0]; · iexact Hp0
      iexact Ho0
    · isplitl [Hx1]; · iexact Hx1
      isplitl [Hp1]; · iexact Hp1
      iexact Ho1
  iintro ⟨Hst, Hdn⟩
  ihave Hdn' := (Entails.of_eq (dn0_eq (F := F) m d (Xof m))) $$ Hdn
  icases Hdn' with ⟨⟨-, -, Ho0⟩, -, -, Ho1⟩
  ihave Ho := (Entails.of_eq (oPts_blocks2 (F := F) d (G m (Xof m) d)).symm) $$ [Ho0 Ho1]
  · isplitl [Ho0]; · iexact Ho0
    iexact Ho1
  -- the unflattening
  iapply (wp_hlo_within 𝒱 (SparseCore.T d) none Set.univ (op := opOut) (S := Sout) hOut (V := Vo m d (G m (Xof m) d))) $$ [Hb Ho Hr]
  · isplitl [Hb]; · iexact Hb
    rw [held_Sout, Vo_o, Vo_r]
    isplitl [Ho]; · iexact Ho
    iexact Hr
  iintro ⟨Hb, Hheld⟩
  ihave Hh := (Entails.of_eq (held_out_after (F := F) m d _)) $$ Hheld
  icases Hh with ⟨-, Hr⟩
  rw [wp_ret]; imodintro
  -- the constant
  iapply (wp_hlo_within 𝒱 (SparseCore.T d) none Set.univ (op := opC) (S := Sc) hC (V := V0 m d)) $$ [Hb Hc]
  · isplitl [Hb]; · iexact Hb
    rw [held_Sc]
    iexact Hc
  iintro ⟨Hb, Hheld⟩
  ihave Hc := (Entails.of_eq (held_c_after (F := F) m d)) $$ Hheld
  rw [wp_ret]; imodintro; imodintro
  isplitl [Hst]; · iexact Hst
  isplitl [Ha0]; · iexact Ha0
  isplitl [Hpd]; · iexact Hpd
  isplitl [Hr]; · iexact Hr
  iexact Hc

/-- What the claim reads off the final memory of device `d`. -/
def fq (d : Dev nD) (s' : Phys nD τ sig (Elt F)) : Prop :=
  s'.mem.mem (rLoc d) = (shapeCast S32768x2048 (G m (Xof m) d) shapeCasts_S67108864_S32768x2048 : Buf (Elt F) (rLoc d))
  ∧ s'.mem.mem (cLoc d) = (constantI S_ 32 0#32 : Buf (Elt F) (cLoc d))
  ∧ s'.mem.mem (a0Loc d) = m (a0Loc d) ∧ s'.mem.mem (pLoc d) = m (pLoc d)

theorem hfin (d : Dev nD) (s' : Phys nD τ sig (Elt F)) : iprop(FIN m d ∗ SI s') ⊢ (⌜fq m d s'⌝ : sProp 𝕄) := by
  iintro ⟨⟨Ha0, Hp, Hr, Hc⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h1, HSI, -⟩
  ihave H := (persistent_entails_right (SI_pointsTo_agree (st := s') (ℓ := pLoc d) (I := Finset.univ) (q := Transfers.shareDrop fullShare 2) (f := m (pLoc d)))) $$ [HSI Hp]
  · isplitl [HSI] <;> iassumption
  icases H with ⟨%h2, HSI, -⟩
  ihave H := (persistent_entails_right (SI_pointsTo_agree (st := s') (ℓ := rLoc d) (I := Finset.univ) (q := fullShare)
    (f := (shapeCast S32768x2048 (G m (Xof m) d) shapeCasts_S67108864_S32768x2048 : Buf (Elt F) (rLoc d))))) $$ [HSI Hr]
  · isplitl [HSI] <;> iassumption
  icases H with ⟨%h3, HSI, -⟩
  ihave H := (SI_pointsTo_agree (st := s') (ℓ := cLoc d) (I := Finset.univ) (q := fullShare) (f := (constantI S_ 32 0#32 : Buf (Elt F) (cLoc d)))) $$ [HSI Hc]
  · isplitl [HSI] <;> iassumption
  icases H with %h4
  ipureintro
  exact ⟨funext fun i => h3 i (Finset.mem_univ i), funext fun i => h4 i (Finset.mem_univ i),
    funext fun i => h1 i (Finset.mem_univ i), funext fun i => h2 i (Finset.mem_univ i)⟩

end Launch

/-! ## The program's run -/

variable [FloatOps F]

theorem run_main [∀ e, Nonempty (Elt F e)] (m : (ℓ : Loc nD τ sig) → Buf (Elt F) ℓ) (ρ : Dev nD → PrngReg)
    (htile : ∀ (d : Dev nD) (L : grid0.Coords), TileSpec m (Xof m) d L) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (Xof m)) facts v₀
    (fun q hq => match q with | 0 => nomatch hq)
    (fun q _ => match q with | 0 => tileObl m (Xof m) htile)
    (fun q _ => match q with | 0 => SparseCore.Cfg.VecSplit.of_plain (vecSplit m (Xof m)))
    m ρ main (fun _ => iprop(emp)) (FIN m) (u₀ (F := F)) (sep_elim_left.trans (hu₀ m (Xof m))) (hmain m ρ) (fq m) (hfin m) (QC m)
    (fun s' h c => ⟨(h c).1.trans (unflatten_permFlat_flatten _ _), (h c).2.1, (h c).2.2.1, (h c).2.2.2⟩)

end Cert.Proof.PermB

end
-- ==== Proof.lean ====
/-
  The certificate of a permutation of columns computed on the SparseCore against `jnp.take` along axis 1.

  For `x` of 32768 rows and 2048 columns and `p` of 2048 column numbers, each in range, the reference's entry `(r, j)`
  is `x (r, p j)`: `take` wraps a negative index, gathers, and masks out-of-range indices with a NaN, and for an index
  already in range the wrap and the mask change nothing. The kernel flattens `x`, and each of its 32 vector subcores
  takes 64 blocks of 16 rows: it copies a block in, writes word `2048 r + c` of its out scratch from word
  `2048 r + p c` of the block — the same permutation in every row, 16 columns at a time —, and copies the block out;
  the flat result is reshaped back. Both are the one function `Spec.permCols`: pure data movement, so the claim holds of
  any values, finite or not; only the range of `p` is used, to keep every gather inside its block.

  The three frames are the two programs' runs with the values dropped; nothing was rewritten by the ideal pass, so
  `preserves` has nothing to state; `algebraic` puts the kernel's run and the reference's run, both at the extended
  reals, side by side at `Spec.permCols` of arguments that agree.
-/
import proofs.«213035_g51874615001668_cont_8to1_c_141_4_alg».proof.Defs
import proofs.«213035_g51874615001668_cont_8to1_c_141_4_alg».proof.Proof.Gen.Kernel
import proofs.«213035_g51874615001668_cont_8to1_c_141_4_alg».proof.Proof.Gen.Kernel.Skeleton
import proofs.«213035_g51874615001668_cont_8to1_c_141_4_alg».proof.Proof.Gen.KernelIdeal
import proofs.«213035_g51874615001668_cont_8to1_c_141_4_alg».proof.Proof.Gen.KernelIdeal.Skeleton
import proofs.«213035_g51874615001668_cont_8to1_c_141_4_alg».proof.Proof.Gen.ReferenceIdeal
import proofs.«213035_g51874615001668_cont_8to1_c_141_4_alg».proof.Proof.Gen.Pre_input_domain
import proofs.«213035_g51874615001668_cont_8to1_c_141_4_alg».proof.Proof.PreRange
import proofs.«213035_g51874615001668_cont_8to1_c_141_4_alg».proof.Proof.RefValue
import proofs.«213035_g51874615001668_cont_8to1_c_141_4_alg».proof.Proof.TileI
import proofs.«213035_g51874615001668_cont_8to1_c_141_4_alg».proof.Proof.LaunchI
import proofs.«213035_g51874615001668_cont_8to1_c_141_4_alg».proof.Proof.TileB
import proofs.«213035_g51874615001668_cont_8to1_c_141_4_alg».proof.Proof.LaunchB
import Idealize.ShloMosaic.Adequacy
import Idealize.ShloMosaic.Init

noncomputable section

namespace Cert.Proof

open Idealize.ShloMosaic Idealize.SL.Sem

/-- Every word of `p` is a column number: the precondition's second half, decoded. -/
theorem range_K (m : (ℓ : Loc Cert.Kernel.nD Cert.Kernel.τ Cert.Kernel.sig) → Buf (Elt Bits) ℓ) (h : Cert.Pre_Kernel m) (d : Dev Cert.Kernel.nD) :
    ∀ j, (m (PermB.pLoc d) j).toNat < 2048 := PreRange.lt_of_pre _ _ (h d)
theorem range_KI (m : (ℓ : Loc Cert.KernelIdeal.nD Cert.KernelIdeal.τ Cert.KernelIdeal.sig) → Buf (Elt Ideal) ℓ) (h : Cert.Pre_KernelIdeal m) (d : Dev Cert.KernelIdeal.nD) :
    ∀ j, (m (PermI.pLoc d) j).toNat < 2048 := PreRange.lt_of_pre _ _ (h d)

/-- The kernel as printed runs to the end, faults nowhere and leaves its arguments as they were. -/
theorem frame_K : Cert.frame_Kernel := fun m g hpre =>
  (θ_run Cert.Kernel.defs _ _).mono (fun _ h c => ⟨(h c).2.2.1, (h c).2.2.2⟩)
    (PermB.run_main (F := Bits) m g fun d L => PermB.tile_body m (PermB.Xof m) d L (range_K m hpre d))

/-- The same of the kernel read at the extended reals. -/
theorem frame_KI : Cert.frame_KernelIdeal := fun m g hpre =>
  (θ_run Cert.KernelIdeal.defs _ _).mono (fun _ h c => ⟨(h c).2.2.1, (h c).2.2.2⟩)
    (PermI.run_main (F := Ideal) m g fun d L => PermI.tile_body m (PermI.Xof m) d L (range_KI m hpre d))

/-- The reference's words of `p` are the kernel's, so they are column numbers too. -/
theorem range_RI (m : (ℓ : Loc Cert.ReferenceIdeal.nD Cert.ReferenceIdeal.τ Cert.ReferenceIdeal.sig) → Buf (Elt Ideal) ℓ) (h : Cert.Pre_ReferenceIdeal m) :
    ∀ (c : Dev Cert.ReferenceIdeal.nD) (j : Cert.Proof.Spec.Sp.Idx),
      ((m ((c.tc : Thread Cert.ReferenceIdeal.nD Cert.ReferenceIdeal.τ).loc Cert.ReferenceIdeal.main_arg1)) j).toNat < 2048 :=
  fun c => PreRange.lt_of_pre _ _ (h c)

/-- The reference runs to the end and leaves its arguments as they were. -/
theorem frame_RI : Cert.frame_ReferenceIdeal := fun m g hpre =>
  (θ_run Cert.ReferenceIdeal.defs _ _).mono (fun _ h c => ⟨(h c).2.2.1, (h c).2.2.2⟩) (RefSide.run m g (range_RI m hpre))

/-- At the extended reals, from arguments that agree, both programs end with the permuted columns and the constant zero. -/
theorem algebraic : Cert.algebraic_KernelIdeal_ReferenceIdeal := by
  intro m g m' g' hpre hagree
  refine ⟨fun c => Spec.permCols (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun _ => constantI Cert.KernelIdeal.S_ 32 0#32,
    PermI.run_main (F := Ideal) m g fun d L => PermI.tile_body m (PermI.Xof m) d L (range_KI m hpre d), ?_⟩
  have hp' : ∀ (c : Dev Cert.ReferenceIdeal.nD) (j : Cert.Proof.Spec.Sp.Idx),
      ((m' ((c.tc : Thread Cert.ReferenceIdeal.nD Cert.ReferenceIdeal.τ).loc Cert.ReferenceIdeal.main_arg1)) j).toNat < 2048 := by
    intro c j
    rw [(hagree c).2]
    exact range_KI m hpre c j
  refine (θ_run Cert.ReferenceIdeal.defs _ _).mono (fun _ h c => ⟨?_, (h c).2.1, (h c).2.2.1, (h c).2.2.2⟩) (RefSide.run m' g' hp')
  rw [(h c).1, (hagree c).1, (hagree c).2]

theorem claim : Cert.Claim := ⟨Cert.Kernel.Gen.facts, Cert.KernelIdeal.Gen.facts, Cert.ReferenceIdeal.Gen.facts, Cert.Pre_input_domain.Gen.facts,
  frame_K, frame_KI, frame_RI, trivial, algebraic⟩

end Cert.Proof

end
